-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S2x128x64 : Shape := ⟨3, ![2, 128, 64]⟩
abbrev S2x64 : Shape := ⟨2, ![2, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_

variable [Facts]

def fn_part2 {F : FTy → Type} [FloatOps F] (main_arg8 : FVec F S2x64 .f32) (main_arg9 : FVec F S2x128x64 .f32) (main_arg10 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x128x64 .f32 := Host.absf main_arg9
  let main_cst_14 : FVec F S_ .f32 := constant S_ .f32 0x7F800000#32
  let main_v40 : FVec F S2x128x64 .f32 := broadcastInDim S2x128x64 ![] bcast_S_S2x128x64 main_cst_14
  let main_v41 : IVec S2x128x64 1 := cmpf .olt main_v39 main_v40
  let main_c_15 : IVec S_ 1 := constantI S_ 1 1#1
  let main_v42 : IVec S_ 1 := (fun x v => Host.reduce IntOp.andi x v reducesTo_S2x128x64_S_d0_1_2 h_S_) main_v41 main_c_15
  let main_v43 : IVec S_ 1 := andi main_v38 main_v42
  let main_v44 : FVec F S2x64 .f32 := Host.absf main_arg10
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S2x128x64 .f32) (main_arg8 : FVec F S2x64 .f32) (main_arg9 : FVec F S2x128x64 .f32) (main_arg10 : FVec F S2x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x128x64 .f32 := Host.absf main_arg7
  let main_cst_10 : FVec F S_ .f32 := constant S_ .f32 0x7F800000#32
  let main_v30 : FVec F S2x128x64 .f32 := broadcastInDim S2x128x64 ![] bcast_S_S2x128x64 main_cst_10
  let main_v31 : IVec S2x128x64 1 := cmpf .olt main_v29 main_v30
  let main_c_11 : IVec S_ 1 := constantI S_ 1 1#1
  let main_v32 : IVec S_ 1 := (fun x v => Host.reduce IntOp.andi x v reducesTo_S2x128x64_S_d0_1_2 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S800000x64 .f32) (main_arg3 : FVec F S128x64 .f32) (main_arg4 : FVec F S64 .f32) (main_arg5 : FVec F S64x64 .f32) (main_arg6 : FVec F S64 .f32) (main_arg7 : FVec F S2x128x64 .f32) (main_arg8 : FVec F S2x64 .f32) (main_arg9 : FVec F S2x128x64 .f32) (main_arg10 : FVec F S2x64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S2x128x64 : Shape := ⟨3, ![2, 128, 64]⟩
abbrev S2x64 : Shape := ⟨2, ![2, 64]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S10000x64 : Shape := ⟨2, ![10000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64x64 : Shape := ⟨3, ![1, 64, 64]⟩

abbrev nBuf : Space → Nat
  | .hbm => 71
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x128x64, .f32⟩
  | .hbm, ⟨8, _⟩ => ⟨S2x64, .f32⟩
  | .hbm, ⟨9, _⟩ => ⟨S2x128x64, .f32⟩
  | .hbm, ⟨10, _⟩ => ⟨S2x64, .f32⟩
  | .hbm, ⟨11, _⟩ => ⟨S50000x64, .f32⟩
  | .hbm, ⟨12, _⟩ => ⟨S800000x64, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S1x64x64, .f32⟩
  | .hbm, ⟨27, _⟩ => ⟨S64x64, .f32⟩
  | .hbm, ⟨28, _⟩ => ⟨S1x64x64, .f32⟩
  | .hbm, ⟨29, _⟩ => ⟨S64x64, .f32⟩
  | .hbm, ⟨30, _⟩ => ⟨S1x64, .f32⟩
  | .hbm, ⟨31, _⟩ => ⟨S64, .f32⟩
  | .hbm, ⟨32, _⟩ => ⟨S800000x64, .f32⟩
  | .hbm, ⟨33, _⟩ => ⟨S_, .f32⟩
  | .hbm, ⟨34, _⟩ => ⟨S50000x64, .f32⟩
  | .hbm, ⟨35, _⟩ => ⟨S800000x1, .i32⟩
  | .hbm, ⟨36, _⟩ => ⟨S50000x64, .f32⟩
  | .hbm, ⟨37, _⟩ => ⟨S1x64x64, .f32⟩
  | .hbm, ⟨38, _⟩ => ⟨S64x64, .f32⟩
  | .hbm, ⟨39, _⟩ => ⟨S1x64x64, .f32⟩
  | .hbm, ⟨40, _⟩ => ⟨S64x64, .f32⟩
  | .hbm, ⟨41, _⟩ => ⟨S1x64, .f32⟩
  | .hbm, ⟨42, _⟩ => ⟨S64, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S1x64x64, .f32⟩
  | .hbm, ⟨54, _⟩ => ⟨S64x64, .f32⟩
  | .hbm, ⟨55, _⟩ => ⟨S1x64x64, .f32⟩
  | .hbm, ⟨56, _⟩ => ⟨S64x64, .f32⟩
  | .hbm, ⟨57, _⟩ => ⟨S1x64, .f32⟩
  | .hbm, ⟨58, _⟩ => ⟨S64, .f32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S1x64x64, .f32⟩
  | .hbm, ⟨65, _⟩ => ⟨S64x64, .f32⟩
  | .hbm, ⟨66, _⟩ => ⟨S1x64x64, .f32⟩
  | .hbm, ⟨67, _⟩ => ⟨S64x64, .f32⟩
  | .hbm, ⟨68, _⟩ => ⟨S1x64, .f32⟩
  | .hbm, ⟨69, _⟩ => ⟨S64, .f32⟩
  | .hbm, ⟨70, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S64x64, .f32⟩
  | .local _ .vmem, ⟨17, _⟩ => ⟨S64x64, .f32⟩
  | .local _ .vmem, ⟨18, _⟩ => ⟨S64, .f32⟩
  | .local _ .vmem, ⟨19, _⟩ => ⟨S10000x64, .f32⟩
  | .local _ .vmem, ⟨20, _⟩ => ⟨S10000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S64x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S64x64, .f32⟩
  | .local _ .vmem, ⟨35, _⟩ => ⟨S64x64, .f32⟩
  | .local _ .vmem, ⟨36, _⟩ => ⟨S64, .f32⟩
  | .local _ .vmem, ⟨37, _⟩ => ⟨S10000x64, .f32⟩
  | .local _ .vmem, ⟨38, _⟩ => ⟨S10000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S64x64, .f32⟩
  | .local _ .vmem, ⟨45, _⟩ => ⟨S64, .f32⟩
  | .local _ .vmem, ⟨46, _⟩ => ⟨S5000x64, .f32⟩
  | .local _ .vmem, ⟨47, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_1 : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem5_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S10000x64_S10000x64_0_0 : ∀ a, (![0, 0] : Fin 2 → Nat) a + S10000x64.size a ≤ S10000x64.size a
  h_S10000x64 : 0 < S10000x64.numel
  inb_S64x64_S64x64_0_0 : ∀ a, (![0, 0] : Fin 2 → Nat) a + S64x64.size a ≤ S64x64.size a
  h_S64x64 : 0 < S64x64.numel
  broadcasts_S1x64_S10000x64 : S1x64.Broadcasts S10000x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  slices_S2x64_S1x64_0_0 : S2x64.Slices ![0, 0] S1x64
  shapeCasts_S1x64_S64 : S1x64.ShapeCasts S64
  shapeCasts_S10000x64_S10000x64 : S10000x64.ShapeCasts S10000x64
  shapeCasts_S64x64_S64x64 : S64x64.ShapeCasts S64x64
  shapeCasts_S64_S64 : S64.ShapeCasts S64
  bcast_S_S50000x64 : S_.BroadcastsInDim S50000x64 (![] : Fin 0 → Fin S50000x64.rank)
  shapeCasts_S5000x64_S5000x64 : S5000x64.ShapeCasts S5000x64
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  dot_S5000x128_S128x64_S5000x64_1_0_0_1_n_n_wf : DotDims.WF S5000x128 S128x64 S5000x64 [1] [0] [0] [1] [] []
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S800000x64.size a
  hwx1_0 : ∀ i : grid1.Coords, EltTy.bits .f32 = 32 ∨ (Rect.block (s := S800000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S800000x64.size a
  hwx1_3 : ∀ i : grid1.Coords, EltTy.bits .f32 = 32 ∨ (Rect.block (s := S800000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S800000x64.size a
  hwx2_0 : ∀ i : grid2.Coords, EltTy.bits .f32 = 32 ∨ (Rect.block (s := S800000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S800000x64.size a
  hwx2_1 : ∀ i : grid2.Coords, EltTy.bits .f32 = 32 ∨ (Rect.block (s := S800000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S800000x64.size a
  hwx2_5 : ∀ i : grid2.Coords, EltTy.bits .f32 = 32 ∨ (Rect.block (s := S800000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64.size a ≤ S64.size a
  hwx3_4 : ∀ i : grid3.Coords, EltTy.bits .f32 = 32 ∨ (Rect.block (s := S64) S64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S800000x64.size a
  hwx4_0 : ∀ i : grid4.Coords, EltTy.bits .f32 = 32 ∨ (Rect.block (s := S800000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S800000x64.size a
  hwx4_1 : ∀ i : grid4.Coords, EltTy.bits .f32 = 32 ∨ (Rect.block (s := S800000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S800000x64.size a
  hwx4_5 : ∀ i : grid4.Coords, EltTy.bits .f32 = 32 ∨ (Rect.block (s := S800000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v26) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v28) S64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v36) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v38) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v40) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v42) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v43) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v29) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v48) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v53) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x64 : Shape := ⟨2, ![800000, 64]⟩
abbrev S128x64 : Shape := ⟨2, ![128, 64]⟩
abbrev S64 : Shape := ⟨1, ![64]⟩
abbrev S64x64 : Shape := ⟨2, ![64, 64]⟩
abbrev S2x128x64 : Shape := ⟨3, ![2, 128, 64]⟩
abbrev S2x64 : Shape := ⟨2, ![2, 64]⟩
abbrev S50000x64 : Shape := ⟨2, ![50000, 64]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128x64 : Shape := ⟨3, ![1, 128, 64]⟩

abbrev nBuf : Space → Nat
  | .hbm => 103
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x64, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S2x128x64, .f32⟩
  | .hbm, ⟨8, _⟩ => ⟨S2x64, .f32⟩
  | .hbm, ⟨9, _⟩ => ⟨S2x128x64, .f32⟩
  | .hbm, ⟨10, _⟩ => ⟨S2x64, .f32⟩
  | .hbm, ⟨11, _⟩ => ⟨S50000x64, .f32⟩
  | .hbm, ⟨12, _⟩ => ⟨S1x64, .f32⟩
  | .hbm, ⟨13, _⟩ => ⟨S50000x64, .f32⟩
  | .hbm, ⟨14, _⟩ => ⟨S50000x64, .f32⟩
  | .hbm, ⟨15, _⟩ => ⟨S_, .f32⟩
  | .hbm, ⟨16, _⟩ => ⟨S50000x64, .f32⟩
  | .hbm, ⟨17, _⟩ => ⟨S50000x64, .f32⟩
  | .hbm, ⟨18, _⟩ => ⟨S800000x64, .f32⟩
  | .hbm, ⟨19, _⟩ => ⟨S1x64, .f32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S800000x64, .f32⟩
  | .hbm, ⟨24, _⟩ => ⟨S800000x64, .f32⟩
  | .hbm, ⟨25, _⟩ => ⟨S1x800000, .i32⟩
  | .hbm, ⟨26, _⟩ => ⟨S800000, .i32⟩
  | .hbm, ⟨27, _⟩ => ⟨S1x800000, .i32⟩
  | .hbm, ⟨28, _⟩ => ⟨S800000, .i32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S800000x128, .f32⟩
  | .hbm, ⟨39, _⟩ => ⟨S1x128x64, .f32⟩
  | .hbm, ⟨40, _⟩ => ⟨S128x64, .f32⟩
  | .hbm, ⟨41, _⟩ => ⟨S800000x64, .f32⟩
  | .hbm, ⟨42, _⟩ => ⟨S1x64, .f32⟩
  | .hbm, ⟨43, _⟩ => ⟨S64, .f32⟩
  | .hbm, ⟨44, _⟩ => ⟨S1x64, .f32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S800000x64, .f32⟩
  | .hbm, ⟨49, _⟩ => ⟨S800000x64, .f32⟩
  | .hbm, ⟨50, _⟩ => ⟨S_, .f32⟩
  | .hbm, ⟨51, _⟩ => ⟨S50000x64, .f32⟩
  | .hbm, ⟨52, _⟩ => ⟨S800000x1, .i32⟩
  | .hbm, ⟨53, _⟩ => ⟨S50000x64, .f32⟩
  | .hbm, ⟨54, _⟩ => ⟨S50000x128, .f32⟩
  | .hbm, ⟨55, _⟩ => ⟨S1x128x64, .f32⟩
  | .hbm, ⟨56, _⟩ => ⟨S128x64, .f32⟩
  | .hbm, ⟨57, _⟩ => ⟨S50000x64, .f32⟩
  | .hbm, ⟨58, _⟩ => ⟨S1x64, .f32⟩
  | .hbm, ⟨59, _⟩ => ⟨S64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S800000x128, .f32⟩
  | .hbm, ⟨76, _⟩ => ⟨S1x128x64, .f32⟩
  | .hbm, ⟨77, _⟩ => ⟨S128x64, .f32⟩
  | .hbm, ⟨78, _⟩ => ⟨S800000x64, .f32⟩
  | .hbm, ⟨79, _⟩ => ⟨S1x64, .f32⟩
  | .hbm, ⟨80, _⟩ => ⟨S64, .f32⟩
  | .hbm, ⟨81, _⟩ => ⟨S1x64, .f32⟩
  | .hbm, ⟨82, _⟩ => ⟨S800000x64, .f32⟩
  | .hbm, ⟨83, _⟩ => ⟨S800000x64, .f32⟩
  | .hbm, ⟨84, _⟩ => ⟨S_, .f32⟩
  | .hbm, ⟨85, _⟩ => ⟨S800000x64, .f32⟩
  | .hbm, ⟨86, _⟩ => ⟨S800000x64, .f32⟩
  | .hbm, ⟨87, _⟩ => ⟨S_, .f32⟩
  | .hbm, ⟨88, _⟩ => ⟨S50000x64, .f32⟩
  | .hbm, ⟨89, _⟩ => ⟨S800000x1, .i32⟩
  | .hbm, ⟨90, _⟩ => ⟨S50000x64, .f32⟩
  | .hbm, ⟨91, _⟩ => ⟨S50000x128, .f32⟩
  | .hbm, ⟨92, _⟩ => ⟨S1x128x64, .f32⟩
  | .hbm, ⟨93, _⟩ => ⟨S128x64, .f32⟩
  | .hbm, ⟨94, _⟩ => ⟨S50000x64, .f32⟩
  | .hbm, ⟨95, _⟩ => ⟨S1x64, .f32⟩
  | .hbm, ⟨96, _⟩ => ⟨S64, .f32⟩
  | .hbm, ⟨97, _⟩ => ⟨S1x64, .f32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S50000x64, .f32⟩
  | .hbm, ⟨102, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call2_cst : Ref sig .tc := ⟨.hbm, 47, rfl⟩
abbrev main_call2_v0 : Ref sig .tc := ⟨.hbm, 48, rfl⟩
abbrev main_v30 : Ref sig .tc := ⟨.hbm, 49, rfl⟩
abbrev main_cst : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call3_cst : Ref sig .tc := ⟨.hbm, 63, rfl⟩
abbrev main_call3_v0 : Ref sig .tc := ⟨.hbm, 64, rfl⟩
abbrev main_v43 : Ref sig .tc := ⟨.hbm, 65, rfl⟩
abbrev main_c_1 : Ref sig .tc := ⟨.hbm, 66, rfl⟩
abbrev main_v44 : Ref sig .tc := ⟨.hbm, 67, rfl⟩
abbrev main_v45 : Ref sig .tc := ⟨.hbm, 68, rfl⟩
abbrev main_c_2 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call4_cst : Ref sig .tc := ⟨.hbm, 84, rfl⟩
abbrev main_call4_v0 : Ref sig .tc := ⟨.hbm, 85, rfl⟩
abbrev main_v60 : Ref sig .tc := ⟨.hbm, 86, rfl⟩
abbrev main_cst_3 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_call5_cst : Ref sig .tc := ⟨.hbm, 100, rfl⟩
abbrev main_call5_v0 : Ref sig .tc := ⟨.hbm, 101, rfl⟩
abbrev main_v73 : Ref sig .tc := ⟨.hbm, 102, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  concatenates_S50000x64_S50000x64_S50000x128_d1 : Shape.Concatenates [S50000x64, S50000x64] S50000x128 1
  slices_S2x128x64_S1x128x64_1_0_0 : S2x128x64.Slices ![1, 0, 0] S1x128x64
  slices_S2x64_S1x64_1_0 : S2x64.Slices ![1, 0] S1x64
  dot_S50000x128_S128x64_S50000x64_1_0_0_1_n_n_wf : DotDims.WF S50000x128 S128x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The kernel program's run with its result named.

  The program is six kernel launches with stretches of host operations between them. Its buffers' contents at
  every boundary are known as a fold from the launch memory: a host stretch applies its operations, a launch
  replaces its arrays by what its write-backs leave. Every weakly fair execution terminates with every
  unscoped buffer at the last boundary's contents; read at the argument arrays this is the frame property,
  and read at the result buffer it says what the program returns: the last launch's output array.
-/
import proofs.«106089_j49452253447021_1_alg».proof.Proof.FrameKI

set_option maxRecDepth 16384

noncomputable section

namespace Cert.KernelIdeal.Named

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at
    the last boundary's contents and every argument array as launched. -/
theorem run : θ_run defs (onTc (τ := τ) (main (F := F))) ⟨m, fun _ => 0, ρ⟩ (fun r => ∀ c : Dev nD,
      r.2.mem ((c.tc : Thread nD τ).loc main_v53) = W10 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v53 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.Named

end
-- ==== Proof.Spec.lean ====
/-
  The function both programs compute, written once over whole arrays at the ideal instance (every float an
  extended real, every operation the exact one).

  A layer of the network is a row-wise affine map followed by a clamp from below at zero. Written over one
  input it is `lin`: entry (r, j) of the result is max(Σₖ x(r,k)·w(k,j) + b(j), 0). Written over two inputs
  that share the row index it is `dual`: max(Σₖ a(r,k)·wa(k,j) + Σₖ b(r,k)·wb(k,j) + bias(j), 0), the sum over
  the first input's columns against the top half of a stacked weight matrix plus the sum over the second
  input's columns against its bottom half.

  The network: encode the nodes and the edges by `lin`; then twice — read a node row for every edge through
  `g`, form a message per edge by `dual` of that row and the edge's own state, add the messages up per node
  through `s`, and update every node by `dual` of its state and what it received. The two maps `g` (pick
  rows by an index array) and `s` (add rows up by an index array) are parameters: both programs apply the very
  same operations for them, so nothing about them is ever needed but that they are the same.

  The one law between the two programs' spellings is that a sum over 128 terms is the sum over its first 64
  plus the sum over its last 64. On the extended reals addition is commutative and associative, infinities
  included, so the law needs no finiteness of the inputs.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- The word of the float zero, read at the ideal instance: the floor every layer clamps at. It is the same
    word in both programs and is never evaluated. -/
abbrev floor0 : Ideal .f32 := Ideal.ofBits .f32 0x00000000#32

/-- One affine layer with a clamp: entry (r, j) is max(Σₖ x(r,k)·w(k,j) + b(j), floor). -/
def lin {M K : Nat} (x : FVec Ideal ⟨2, ![M, K]⟩ .f32) (w : FVec Ideal ⟨2, ![K, 64]⟩ .f32)
    (b : FVec Ideal ⟨1, ![64]⟩ .f32) : FVec Ideal ⟨2, ![M, 64]⟩ .f32 :=
  fun i => max ((∑ k : Fin K, x (ix2 (i 0) k) * w (ix2 k (i 1))) + b (ix1 (i 1))) floor0

/-- One affine layer of two inputs sharing the row index, with a clamp: entry (r, j) is
    max((Σₖ a(r,k)·wa(k,j) + Σₖ b(r,k)·wb(k,j)) + bias(j), floor). -/
def dual {M : Nat} (a b : FVec Ideal ⟨2, ![M, 64]⟩ .f32) (wa wb : FVec Ideal ⟨2, ![64, 64]⟩ .f32)
    (bias : FVec Ideal ⟨1, ![64]⟩ .f32) : FVec Ideal ⟨2, ![M, 64]⟩ .f32 :=
  fun i => max (((∑ k : Fin 64, a (ix2 (i 0) k) * wa (ix2 k (i 1)))
      + (∑ k : Fin 64, b (ix2 (i 0) k) * wb (ix2 k (i 1)))) + bias (ix1 (i 1))) floor0

/-- Rows 0 … 63 of layer `l` of a stack of 128-row weight matrices. -/
def wTop (W : FVec Ideal ⟨3, ![2, 128, 64]⟩ .f32) (l : Fin 2) : FVec Ideal ⟨2, ![64, 64]⟩ .f32 :=
  fun j => W (ix3 l ⟨(j 0).val, by have := (j 0).isLt; simp at this; omega⟩ (j 1))

/-- Rows 64 … 127 of layer `l` of a stack of 128-row weight matrices. -/
def wBot (W : FVec Ideal ⟨3, ![2, 128, 64]⟩ .f32) (l : Fin 2) : FVec Ideal ⟨2, ![64, 64]⟩ .f32 :=
  fun j => W (ix3 l ⟨(j 0).val + 64, by have := (j 0).isLt; simp at this; omega⟩ (j 1))

/-- Row `l` of a stack of bias vectors. -/
def bRow (B : FVec Ideal ⟨2, ![2, 64]⟩ .f32) (l : Fin 2) : FVec Ideal ⟨1, ![64]⟩ .f32 :=
  fun j => B (ix2 l (j 0))

/-- The whole network over the argument arrays, with the row-picking map `g` and the row-adding map `s`
    as parameters. -/
def net {N E : Nat}
    (g : FVec Ideal ⟨2, ![N, 64]⟩ .f32 → FVec Ideal ⟨2, ![E, 64]⟩ .f32)
    (s : FVec Ideal ⟨2, ![E, 64]⟩ .f32 → FVec Ideal ⟨2, ![N, 64]⟩ .f32)
    (x0 : FVec Ideal ⟨2, ![N, 128]⟩ .f32) (x2 : FVec Ideal ⟨2, ![E, 64]⟩ .f32)
    (x3 : FVec Ideal ⟨2, ![128, 64]⟩ .f32) (x4 : FVec Ideal ⟨1, ![64]⟩ .f32)
    (x5 : FVec Ideal ⟨2, ![64, 64]⟩ .f32) (x6 : FVec Ideal ⟨1, ![64]⟩ .f32)
    (x7 : FVec Ideal ⟨3, ![2, 128, 64]⟩ .f32) (x8 : FVec Ideal ⟨2, ![2, 64]⟩ .f32)
    (x9 : FVec Ideal ⟨3, ![2, 128, 64]⟩ .f32) (x10 : FVec Ideal ⟨2, ![2, 64]⟩ .f32) :
    FVec Ideal ⟨2, ![N, 64]⟩ .f32 :=
  let ns0 := lin x0 x3 x4
  let es := lin x2 x5 x6
  let msg0 := dual (g ns0) es (wTop x7 0) (wBot x7 0) (bRow x8 0)
  let ns1 := dual ns0 (s msg0) (wTop x9 0) (wBot x9 0) (bRow x10 0)
  let msg1 := dual (g ns1) es (wTop x7 1) (wBot x7 1) (bRow x8 1)
  dual ns1 (s msg1) (wTop x9 1) (wBot x9 1) (bRow x10 1)

/-- A sum over 128 terms is the sum over the first 64 plus the sum over the last 64: addition on the extended
    reals is commutative and associative, so no term need be finite. -/
theorem sum_halves (f : Fin 128 → EReal) :
    ∑ k : Fin 128, f k
      = (∑ k : Fin 64, f ⟨k.val, by omega⟩) + ∑ k : Fin 64, f ⟨k.val + 64, by omega⟩ := by
  have h := Fin.sum_univ_add (M := EReal) (a := 64) (b := 64) f
  rw [h]
  refine congrArg₂ (· + ·) (Finset.sum_congr rfl fun k _ => ?_) (Finset.sum_congr rfl fun k _ => ?_)
  · exact congrArg f (Fin.ext rfl)
  · exact congrArg f (Fin.ext (by simp [Fin.natAdd]; omega))

end Cert.Gnn

end
-- ==== Proof.Glue.lean ====
/-
  The kernel program's host operations between its launches, named, and what each stretch of them leaves.

  Between the launches the program picks a node row for every edge (`pick`: rows of the node states at the
  source indices, a negative index first moved up by the number of nodes), adds the edges' rows up per node
  (`addUp`: a sum into zeros at the target indices), and cuts the stacked weights and biases: for layer l the
  top half `topL` (rows 0 … 63 of the 128-row matrix), the bottom half `botL` (rows 64 … 127) and the bias row
  `browL`. A stretch of host operations changes only the buffers it writes; every other buffer keeps its
  contents. Read at an index, the halves and the bias row are entries of the stacked arrays: `topL W` at (k, j)
  is W(l, k, j), `botL W` at (k, j) is W(l, 64 + k, j), `browL B` at j is B(l, j).
-/
import proofs.«106089_j49452253447021_1_alg».proof.Proof.LaunchKI
import proofs.«106089_j49452253447021_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Cert.KernelIdeal.GenP
open Idealize.ShloMosaic Idealize.ShloMosaic.TcCoe Idealize.SL.Sem Idealize.ShloMosaic.StableHlo Idealize.ShloMosaic.ValueIdx

/-- An array of the given shape and element type at the ideal instance. -/
abbrev Arr (S : Shape) (e : EltTy) : Type := (⟨S, e⟩ : BufTy).Contents (Elt Ideal)

/-! ## The operations -/

/-- Row 0 of the index array: the edges' source nodes. -/
def row0 (x1 : Arr S2x800000 .i32) : Arr S800000 .i32 :=
  shapeCast _ (extractStridedSlice S1x800000 ![0, 0] x1 slices_S2x800000_S1x800000_0_0) shapeCasts_S1x800000_S800000
/-- Row 1 of the index array: the edges' target nodes. -/
def row1 (x1 : Arr S2x800000 .i32) : Arr S800000 .i32 :=
  shapeCast _ (extractStridedSlice S1x800000 ![1, 0] x1 slices_S2x800000_S1x800000_1_0) shapeCasts_S1x800000_S800000
/-- An index vector with its negative entries moved up by the number of nodes, as a column. -/
def normIdx (v : Arr S800000 .i32) : Arr S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- A node row for every edge. -/
def pick (src : Arr S800000 .i32) (ns : Arr S50000x64 .f32) : Arr S800000x64 .f32 :=
  Host.gather gather_S50000x64_S800000x1_S800000x64_1_0_n_n_0_1_164 ns (normIdx src)
/-- The edges' rows added up per node, into zeros. -/
def addUp (tgt : Arr S800000 .i32) (msg : Arr S800000x64 .f32) : Arr S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 tgt) msg
def top0 (W : Arr S2x128x64 .f32) : Arr S64x64 .f32 :=
  shapeCast _ (extractStridedSlice S1x64x64 ![0, 0, 0] W slices_S2x128x64_S1x64x64_0_0_0) shapeCasts_S1x64x64_S64x64
def bot0 (W : Arr S2x128x64 .f32) : Arr S64x64 .f32 :=
  shapeCast _ (extractStridedSlice S1x64x64 ![0, 64, 0] W slices_S2x128x64_S1x64x64_0_64_0) shapeCasts_S1x64x64_S64x64
def top1 (W : Arr S2x128x64 .f32) : Arr S64x64 .f32 :=
  shapeCast _ (extractStridedSlice S1x64x64 ![1, 0, 0] W slices_S2x128x64_S1x64x64_1_0_0) shapeCasts_S1x64x64_S64x64
def bot1 (W : Arr S2x128x64 .f32) : Arr S64x64 .f32 :=
  shapeCast _ (extractStridedSlice S1x64x64 ![1, 64, 0] W slices_S2x128x64_S1x64x64_1_64_0) shapeCasts_S1x64x64_S64x64
def brow0 (B : Arr S2x64 .f32) : Arr S64 .f32 :=
  shapeCast _ (extractStridedSlice S1x64 ![0, 0] B slices_S2x64_S1x64_0_0) shapeCasts_S1x64_S64
def brow1 (B : Arr S2x64 .f32) : Arr S64 .f32 :=
  shapeCast _ (extractStridedSlice S1x64 ![1, 0] B slices_S2x64_S1x64_1_0) shapeCasts_S1x64_S64

/-! ## The first stretch: the indices, the first picking, layer 0's message weights -/

theorem s2_v12 (W : Valuation τ sig (Elt Ideal)) :
    StableHlo.after (hostOps2 (F := Ideal)) W (Proc.devRef .tc main_v12)
      = pick (row0 (W (Proc.devRef .tc main_arg1))) (W (Proc.devRef .tc main_v0)) := by
  after_results; rfl
theorem s2_v3 (W : Valuation τ sig (Elt Ideal)) :
    StableHlo.after (hostOps2 (F := Ideal)) W (Proc.devRef .tc main_v3) = row0 (W (Proc.devRef .tc main_arg1)) := by
  after_results; rfl
theorem s2_v5 (W : Valuation τ sig (Elt Ideal)) :
    StableHlo.after (hostOps2 (F := Ideal)) W (Proc.devRef .tc main_v5) = row1 (W (Proc.devRef .tc main_arg1)) := by
  after_results; rfl
theorem s2_v14 (W : Valuation τ sig (Elt Ideal)) :
    StableHlo.after (hostOps2 (F := Ideal)) W (Proc.devRef .tc main_v14) = top0 (W (Proc.devRef .tc main_arg7)) := by
  after_results; rfl
theorem s2_v16 (W : Valuation τ sig (Elt Ideal)) :
    StableHlo.after (hostOps2 (F := Ideal)) W (Proc.devRef .tc main_v16) = bot0 (W (Proc.devRef .tc main_arg7)) := by
  after_results; rfl
theorem s2_v18 (W : Valuation τ sig (Elt Ideal)) :
    StableHlo.after (hostOps2 (F := Ideal)) W (Proc.devRef .tc main_v18) = brow0 (W (Proc.devRef .tc main_arg8)) := by
  after_results; rfl
theorem keep2_v0 (W : Valuation τ sig (Elt Ideal)) :
    StableHlo.after (hostOps2 (F := Ideal)) W (Proc.devRef .tc main_v0) = W (Proc.devRef .tc main_v0) := by
  after_results
theorem keep2_v1 (W : Valuation τ sig (Elt Ideal)) :
    StableHlo.after (hostOps2 (F := Ideal)) W (Proc.devRef .tc main_v1) = W (Proc.devRef .tc main_v1) := by
  after_results
theorem keep2_arg7 (W : Valuation τ sig (Elt Ideal)) :
    StableHlo.after (hostOps2 (F := Ideal)) W (Proc.devRef .tc main_arg7) = W (Proc.devRef .tc main_arg7) := by
  after_results
theorem keep2_arg8 (W : Valuation τ sig (Elt Ideal)) :
    StableHlo.after (hostOps2 (F := Ideal)) W (Proc.devRef .tc main_arg8) = W (Proc.devRef .tc main_arg8) := by
  after_results
theorem keep2_arg9 (W : Valuation τ sig (Elt Ideal)) :
    StableHlo.after (hostOps2 (F := Ideal)) W (Proc.devRef .tc main_arg9) = W (Proc.devRef .tc main_arg9) := by
  after_results
theorem keep2_arg10 (W : Valuation τ sig (Elt Ideal)) :
    StableHlo.after (hostOps2 (F := Ideal)) W (Proc.devRef .tc main_arg10) = W (Proc.devRef .tc main_arg10) := by
  after_results

/-! ## The second stretch: the first adding-up, layer 0's update weights -/

theorem s3_v22 (W : Valuation τ sig (Elt Ideal)) :
    StableHlo.after (hostOps3 (F := Ideal)) W (Proc.devRef .tc main_v22)
      = addUp (W (Proc.devRef .tc main_v5)) (W (Proc.devRef .tc main_v19)) := by
  after_results; rfl
theorem s3_v24 (W : Valuation τ sig (Elt Ideal)) :
    StableHlo.after (hostOps3 (F := Ideal)) W (Proc.devRef .tc main_v24) = top0 (W (Proc.devRef .tc main_arg9)) := by
  after_results; rfl
theorem s3_v26 (W : Valuation τ sig (Elt Ideal)) :
    StableHlo.after (hostOps3 (F := Ideal)) W (Proc.devRef .tc main_v26) = bot0 (W (Proc.devRef .tc main_arg9)) := by
  after_results; rfl
theorem s3_v28 (W : Valuation τ sig (Elt Ideal)) :
    StableHlo.after (hostOps3 (F := Ideal)) W (Proc.devRef .tc main_v28) = brow0 (W (Proc.devRef .tc main_arg10)) := by
  after_results; rfl
theorem keep3_v0 (W : Valuation τ sig (Elt Ideal)) :
    StableHlo.after (hostOps3 (F := Ideal)) W (Proc.devRef .tc main_v0) = W (Proc.devRef .tc main_v0) := by
  after_results
theorem keep3_v1 (W : Valuation τ sig (Elt Ideal)) :
    StableHlo.after (hostOps3 (F := Ideal)) W (Proc.devRef .tc main_v1) = W (Proc.devRef .tc main_v1) := by
  after_results
theorem keep3_v3 (W : Valuation τ sig (Elt Ideal)) :
    StableHlo.after (hostOps3 (F := Ideal)) W (Proc.devRef .tc main_v3) = W (Proc.devRef .tc main_v3) := by
  after_results
theorem keep3_v5 (W : Valuation τ sig (Elt Ideal)) :
    StableHlo.after (hostOps3 (F := Ideal)) W (Proc.devRef .tc main_v5) = W (Proc.devRef .tc main_v5) := by
  after_results
theorem keep3_arg7 (W : Valuation τ sig (Elt Ideal)) :
    StableHlo.after (hostOps3 (F := Ideal)) W (Proc.devRef .tc main_arg7) = W (Proc.devRef .tc main_arg7) := by
  after_results
theorem keep3_arg8 (W : Valuation τ sig (Elt Ideal)) :
    StableHlo.after (hostOps3 (F := Ideal)) W (Proc.devRef .tc main_arg8) = W (Proc.devRef .tc main_arg8) := by
  after_results
theorem keep3_arg9 (W : Valuation τ sig (Elt Ideal)) :
    StableHlo.after (hostOps3 (F := Ideal)) W (Proc.devRef .tc main_arg9) = W (Proc.devRef .tc main_arg9) := by
  after_results
theorem keep3_arg10 (W : Valuation τ sig (Elt Ideal)) :
    StableHlo.after (hostOps3 (F := Ideal)) W (Proc.devRef .tc main_arg10) = W (Proc.devRef .tc main_arg10) := by
  after_results

/-! ## The third stretch: the second picking, layer 1's message weights -/

theorem s4_v36 (W : Valuation τ sig (Elt Ideal)) :
    StableHlo.after (hostOps4 (F := Ideal)) W (Proc.devRef .tc main_v36)
      = pick (W (Proc.devRef .tc main_v3)) (W (Proc.devRef .tc main_v29)) := by
  after_results; rfl
theorem s4_v38 (W : Valuation τ sig (Elt Ideal)) :
    StableHlo.after (hostOps4 (F := Ideal)) W (Proc.devRef .tc main_v38) = top1 (W (Proc.devRef .tc main_arg7)) := by
  after_results; rfl
theorem s4_v40 (W : Valuation τ sig (Elt Ideal)) :
    StableHlo.after (hostOps4 (F := Ideal)) W (Proc.devRef .tc main_v40) = bot1 (W (Proc.devRef .tc main_arg7)) := by
  after_results; rfl
theorem s4_v42 (W : Valuation τ sig (Elt Ideal)) :
    StableHlo.after (hostOps4 (F := Ideal)) W (Proc.devRef .tc main_v42) = brow1 (W (Proc.devRef .tc main_arg8)) := by
  after_results; rfl
theorem keep4_v1 (W : Valuation τ sig (Elt Ideal)) :
    StableHlo.after (hostOps4 (F := Ideal)) W (Proc.devRef .tc main_v1) = W (Proc.devRef .tc main_v1) := by
  after_results
theorem keep4_v29 (W : Valuation τ sig (Elt Ideal)) :
    StableHlo.after (hostOps4 (F := Ideal)) W (Proc.devRef .tc main_v29) = W (Proc.devRef .tc main_v29) := by
  after_results
theorem keep4_v5 (W : Valuation τ sig (Elt Ideal)) :
    StableHlo.after (hostOps4 (F := Ideal)) W (Proc.devRef .tc main_v5) = W (Proc.devRef .tc main_v5) := by
  after_results
theorem keep4_arg9 (W : Valuation τ sig (Elt Ideal)) :
    StableHlo.after (hostOps4 (F := Ideal)) W (Proc.devRef .tc main_arg9) = W (Proc.devRef .tc main_arg9) := by
  after_results
theorem keep4_arg10 (W : Valuation τ sig (Elt Ideal)) :
    StableHlo.after (hostOps4 (F := Ideal)) W (Proc.devRef .tc main_arg10) = W (Proc.devRef .tc main_arg10) := by
  after_results

/-! ## The fourth stretch: the second adding-up, layer 1's update weights -/

theorem s5_v46 (W : Valuation τ sig (Elt Ideal)) :
    StableHlo.after (hostOps5 (F := Ideal)) W (Proc.devRef .tc main_v46)
      = addUp (W (Proc.devRef .tc main_v5)) (W (Proc.devRef .tc main_v43)) := by
  after_results; rfl
theorem s5_v48 (W : Valuation τ sig (Elt Ideal)) :
    StableHlo.after (hostOps5 (F := Ideal)) W (Proc.devRef .tc main_v48) = top1 (W (Proc.devRef .tc main_arg9)) := by
  after_results; rfl
theorem s5_v50 (W : Valuation τ sig (Elt Ideal)) :
    StableHlo.after (hostOps5 (F := Ideal)) W (Proc.devRef .tc main_v50) = bot1 (W (Proc.devRef .tc main_arg9)) := by
  after_results; rfl
theorem s5_v52 (W : Valuation τ sig (Elt Ideal)) :
    StableHlo.after (hostOps5 (F := Ideal)) W (Proc.devRef .tc main_v52) = brow1 (W (Proc.devRef .tc main_arg10)) := by
  after_results; rfl
theorem keep5_v29 (W : Valuation τ sig (Elt Ideal)) :
    StableHlo.after (hostOps5 (F := Ideal)) W (Proc.devRef .tc main_v29) = W (Proc.devRef .tc main_v29) := by
  after_results

/-! ## The halves and the bias rows, read at an index -/

/-- The index of the one-layer slab behind an index of a 64×64 half. -/
def slabIdx (j : S64x64.Idx) : S1x64x64.Idx := fun a => match a with
  | ⟨0, _⟩ => ⟨0, Nat.one_pos⟩
  | ⟨1, _⟩ => ⟨(j 0).val, (j 0).isLt⟩
  | ⟨2, _⟩ => ⟨(j 1).val, (j 1).isLt⟩

/-- A 64×64 half cut out of the stacked weights at offset `off`, read at (k, j): the stacked array at
    (off₀, off₁ + k, off₂ + j). -/
theorem half_apply (off : Fin 3 → Nat) (h : S2x128x64.Slices off S1x64x64) (W : Arr S2x128x64 .f32) (j : S64x64.Idx)
    (k : S2x128x64.Idx) (hk0 : (k 0).val = off 0 + 0) (hk1 : (k 1).val = off 1 + (j 0).val)
    (hk2 : (k 2).val = off 2 + (j 1).val) :
    shapeCast S64x64 (extractStridedSlice S1x64x64 off W h) shapeCasts_S1x64x64_S64x64 j = W k := by
  rw [shapeCast_apply _ shapeCasts_S1x64x64_S64x64 j (slabIdx j) (by
    rw [Shape.rowMajor_val_three, Shape.rowMajor_val_two]
    show (0 * 64 + (j 0).val) * 64 + (j 1).val = (j 0).val * 64 + (j 1).val
    omega)]
  refine extractStridedSlice_apply off W h (slabIdx j) k ?_
  intro a
  match a with
  | ⟨0, _⟩ => exact hk0
  | ⟨1, _⟩ => exact hk1
  | ⟨2, _⟩ => exact hk2

/-- The index of the one-row slab behind an index of a bias row. -/
def rowIdx (j : S64.Idx) : S1x64.Idx := fun a => match a with
  | ⟨0, _⟩ => ⟨0, Nat.one_pos⟩
  | ⟨1, _⟩ => ⟨(j 0).val, (j 0).isLt⟩

/-- A bias row cut out of the stacked biases at offset `off`, read at j: the stacked array at (off₀, off₁ + j). -/
theorem brow_apply (off : Fin 2 → Nat) (h : S2x64.Slices off S1x64) (B : Arr S2x64 .f32) (j : S64.Idx)
    (k : S2x64.Idx) (hk0 : (k 0).val = off 0 + 0) (hk1 : (k 1).val = off 1 + (j 0).val) :
    shapeCast S64 (extractStridedSlice S1x64 off B h) shapeCasts_S1x64_S64 j = B k := by
  rw [shapeCast_apply _ shapeCasts_S1x64_S64 j (rowIdx j) (by
    rw [Shape.rowMajor_val_two, Shape.rowMajor_val_one]
    show 0 * 64 + (j 0).val = (j 0).val
    omega)]
  refine extractStridedSlice_apply off B h (rowIdx j) k ?_
  intro a
  match a with
  | ⟨0, _⟩ => exact hk0
  | ⟨1, _⟩ => exact hk1

theorem top0_eq (W : Arr S2x128x64 .f32) : top0 W = Cert.Gnn.wTop W 0 := by
  funext j; unfold top0 Cert.Gnn.wTop
  exact half_apply ![0, 0, 0] slices_S2x128x64_S1x64x64_0_0_0 W j _ rfl (by show (j 0).val = 0 + (j 0).val; omega) (by show (j 1).val = 0 + (j 1).val; omega)
theorem bot0_eq (W : Arr S2x128x64 .f32) : bot0 W = Cert.Gnn.wBot W 0 := by
  funext j; unfold bot0 Cert.Gnn.wBot
  exact half_apply ![0, 64, 0] slices_S2x128x64_S1x64x64_0_64_0 W j _ rfl (by show (j 0).val + 64 = 64 + (j 0).val; omega) (by show (j 1).val = 0 + (j 1).val; omega)
theorem top1_eq (W : Arr S2x128x64 .f32) : top1 W = Cert.Gnn.wTop W 1 := by
  funext j; unfold top1 Cert.Gnn.wTop
  exact half_apply ![1, 0, 0] slices_S2x128x64_S1x64x64_1_0_0 W j _ rfl (by show (j 0).val = 0 + (j 0).val; omega) (by show (j 1).val = 0 + (j 1).val; omega)
theorem bot1_eq (W : Arr S2x128x64 .f32) : bot1 W = Cert.Gnn.wBot W 1 := by
  funext j; unfold bot1 Cert.Gnn.wBot
  exact half_apply ![1, 64, 0] slices_S2x128x64_S1x64x64_1_64_0 W j _ rfl (by show (j 0).val + 64 = 64 + (j 0).val; omega) (by show (j 1).val = 0 + (j 1).val; omega)
theorem brow0_eq (B : Arr S2x64 .f32) : brow0 B = Cert.Gnn.bRow B 0 := by
  funext j; unfold brow0 Cert.Gnn.bRow
  exact brow_apply ![0, 0] slices_S2x64_S1x64_0_0 B j _ rfl (by show (j 0).val = 0 + (j 0).val; omega)
theorem brow1_eq (B : Arr S2x64 .f32) : brow1 B = Cert.Gnn.bRow B 1 := by
  funext j; unfold brow1 Cert.Gnn.bRow
  exact brow_apply ![1, 0] slices_S2x64_S1x64_1_0 B j _ rfl (by show (j 0).val = 0 + (j 0).val; omega)

end Cert.KernelIdeal.Glue

end
-- ==== Proof.Chain.lean ====
/-
  The kernel program's result, through its ten boundaries.

  The buffers' contents at each boundary of the program are a fold from the launch memory. Followed one
  boundary at a time: launch 0 leaves the node encoding in its output, launch 1 the edge encoding; the first
  stretch of host operations picks a node row per edge and cuts layer 0's message weights; launch 2 leaves the
  messages; the second stretch adds them up per node and cuts layer 0's update weights; launch 3 leaves the
  updated node states; and the same once more for layer 1. A launch changes only its output array and a host
  stretch only the buffers it writes, so every value needed later is still where it was left. The result buffer
  ends at the last launch's output: the network function of the argument arrays.
-/
import proofs.«106089_j49452253447021_1_alg».proof.Proof.FrameKI
import proofs.«106089_j49452253447021_1_alg».proof.Proof.Glue
import proofs.«106089_j49452253447021_1_alg».proof.Proof.Spec

set_option maxRecDepth 16384

noncomputable section

namespace Cert.KernelIdeal.Chain

open Cert.KernelIdeal Cert.KernelIdeal.Gen Cert.KernelIdeal.GenP
open Idealize.ShloMosaic Idealize.ShloMosaic.TcCoe Idealize.SL.Sem
open Idealize.ShloMosaic.Pipeline (Dat Cfg Window)

/-- What each launch leaves in its output array, as a function of the arrays it finds: the six facts the chain
    is built on. -/
structure RegionFacts : Prop where
  f0 : ∀ (V : ((c : Dev nD) → (b : Ref sig .tc) → Buf (Elt Ideal) ((c : Thread nD τ).loc b))) (c : Dev nD), (dat0 (F := Ideal) V c).arrAt 3 cfg0.N = Cert.Gnn.lin (M := 50000) (K := 128) (V c main_arg0) (V c main_arg3) (V c main_arg4)
  f1 : ∀ (V : ((c : Dev nD) → (b : Ref sig .tc) → Buf (Elt Ideal) ((c : Thread nD τ).loc b))) (c : Dev nD), (dat1 (F := Ideal) V c).arrAt 3 cfg1.N = Cert.Gnn.lin (M := 800000) (K := 64) (V c main_arg2) (V c main_arg5) (V c main_arg6)
  f2 : ∀ (V : ((c : Dev nD) → (b : Ref sig .tc) → Buf (Elt Ideal) ((c : Thread nD τ).loc b))) (c : Dev nD), (dat2 (F := Ideal) V c).arrAt 5 cfg2.N = Cert.Gnn.dual (M := 800000) (V c main_v12) (V c main_v1) (V c main_v14) (V c main_v16) (V c main_v18)
  f3 : ∀ (V : ((c : Dev nD) → (b : Ref sig .tc) → Buf (Elt Ideal) ((c : Thread nD τ).loc b))) (c : Dev nD), (dat3 (F := Ideal) V c).arrAt 5 cfg3.N = Cert.Gnn.dual (M := 50000) (V c main_v0) (V c main_v22) (V c main_v24) (V c main_v26) (V c main_v28)
  f4 : ∀ (V : ((c : Dev nD) → (b : Ref sig .tc) → Buf (Elt Ideal) ((c : Thread nD τ).loc b))) (c : Dev nD), (dat4 (F := Ideal) V c).arrAt 5 cfg4.N = Cert.Gnn.dual (M := 800000) (V c main_v36) (V c main_v1) (V c main_v38) (V c main_v40) (V c main_v42)
  f5 : ∀ (V : ((c : Dev nD) → (b : Ref sig .tc) → Buf (Elt Ideal) ((c : Thread nD τ).loc b))) (c : Dev nD), (dat5 (F := Ideal) V c).arrAt 5 cfg5.N = Cert.Gnn.dual (M := 50000) (V c main_v29) (V c main_v46) (V c main_v48) (V c main_v50) (V c main_v52)

theorem lin_congr {M K : Nat} {x x' : FVec Ideal ⟨2, ![M, K]⟩ .f32} {w w' : FVec Ideal ⟨2, ![K, 64]⟩ .f32} {b b' : FVec Ideal ⟨1, ![64]⟩ .f32}
    (h1 : x = x') (h2 : w = w') (h3 : b = b') : Cert.Gnn.lin x w b = Cert.Gnn.lin x' w' b' := by
  subst h1 h2 h3; rfl
theorem dual_congr {M : Nat} {a a' b b' : FVec Ideal ⟨2, ![M, 64]⟩ .f32} {wa wa' wb wb' : FVec Ideal ⟨2, ![64, 64]⟩ .f32}
    {bias bias' : FVec Ideal ⟨1, ![64]⟩ .f32} (h1 : a = a') (h2 : b = b') (h3 : wa = wa') (h4 : wb = wb') (h5 : bias = bias') :
    Cert.Gnn.dual a b wa wb bias = Cert.Gnn.dual a' b' wa' wb' bias' := by
  subst h1 h2 h3 h4 h5; rfl

variable (m : (ℓ : Loc nD τ sig) → Buf (Elt Ideal) ℓ) (ρ : Dev nD → PrngReg) (c : Dev nD)

/-- An argument array as launched. -/
abbrev A (b : Ref sig .tc) : Buf (Elt Ideal) ((c : Thread nD τ).loc b) := m ((c : Thread nD τ).loc b)

/-- The node encoding. -/
def ns0 : FVec Ideal ⟨2, ![50000, 64]⟩ .f32 := Cert.Gnn.lin (M := 50000) (K := 128) (A m c main_arg0) (A m c main_arg3) (A m c main_arg4)
/-- The edge encoding. -/
def es : FVec Ideal ⟨2, ![800000, 64]⟩ .f32 := Cert.Gnn.lin (M := 800000) (K := 64) (A m c main_arg2) (A m c main_arg5) (A m c main_arg6)
/-- The edges' source nodes and target nodes. -/
def src := Cert.KernelIdeal.Glue.row0 (A m c main_arg1)
def tgt := Cert.KernelIdeal.Glue.row1 (A m c main_arg1)
/-- Layer 0's messages and updated node states, layer 1's messages, and the result. -/
def msg0 : FVec Ideal ⟨2, ![800000, 64]⟩ .f32 := Cert.Gnn.dual (M := 800000) (Cert.KernelIdeal.Glue.pick (src m c) (ns0 m c)) (es m c) (Cert.KernelIdeal.Glue.top0 (A m c main_arg7)) (Cert.KernelIdeal.Glue.bot0 (A m c main_arg7)) (Cert.KernelIdeal.Glue.brow0 (A m c main_arg8))
def ns1 : FVec Ideal ⟨2, ![50000, 64]⟩ .f32 := Cert.Gnn.dual (M := 50000) (ns0 m c) (Cert.KernelIdeal.Glue.addUp (tgt m c) (msg0 m c)) (Cert.KernelIdeal.Glue.top0 (A m c main_arg9)) (Cert.KernelIdeal.Glue.bot0 (A m c main_arg9)) (Cert.KernelIdeal.Glue.brow0 (A m c main_arg10))
def msg1 : FVec Ideal ⟨2, ![800000, 64]⟩ .f32 := Cert.Gnn.dual (M := 800000) (Cert.KernelIdeal.Glue.pick (src m c) (ns1 m c)) (es m c) (Cert.KernelIdeal.Glue.top1 (A m c main_arg7)) (Cert.KernelIdeal.Glue.bot1 (A m c main_arg7)) (Cert.KernelIdeal.Glue.brow1 (A m c main_arg8))
def out : FVec Ideal ⟨2, ![50000, 64]⟩ .f32 := Cert.Gnn.dual (M := 50000) (ns1 m c) (Cert.KernelIdeal.Glue.addUp (tgt m c) (msg1 m c)) (Cert.KernelIdeal.Glue.top1 (A m c main_arg9)) (Cert.KernelIdeal.Glue.bot1 (A m c main_arg9)) (Cert.KernelIdeal.Glue.brow1 (A m c main_arg10))

variable (H : RegionFacts)
include H

theorem e0_arg0 : W0 m ρ c (Proc.devRef .tc main_arg0) = (A m c main_arg0) :=
  rfl
theorem e0_arg1 : W0 m ρ c (Proc.devRef .tc main_arg1) = (A m c main_arg1) :=
  rfl
theorem e0_arg2 : W0 m ρ c (Proc.devRef .tc main_arg2) = (A m c main_arg2) :=
  rfl
theorem e0_arg3 : W0 m ρ c (Proc.devRef .tc main_arg3) = (A m c main_arg3) :=
  rfl
theorem e0_arg4 : W0 m ρ c (Proc.devRef .tc main_arg4) = (A m c main_arg4) :=
  rfl
theorem e0_arg5 : W0 m ρ c (Proc.devRef .tc main_arg5) = (A m c main_arg5) :=
  rfl
theorem e0_arg6 : W0 m ρ c (Proc.devRef .tc main_arg6) = (A m c main_arg6) :=
  rfl
theorem e0_arg7 : W0 m ρ c (Proc.devRef .tc main_arg7) = (A m c main_arg7) :=
  rfl
theorem e0_arg8 : W0 m ρ c (Proc.devRef .tc main_arg8) = (A m c main_arg8) :=
  rfl
theorem e0_arg9 : W0 m ρ c (Proc.devRef .tc main_arg9) = (A m c main_arg9) :=
  rfl
theorem e0_arg10 : W0 m ρ c (Proc.devRef .tc main_arg10) = (A m c main_arg10) :=
  rfl
theorem e1_v0 : W1 m ρ c (Proc.devRef .tc main_v0) = (ns0 m c) :=
  (W1_arr m ρ c 3).trans ((H.f0 (V0 m ρ) c).trans (lin_congr (e0_arg0 m ρ c H) (e0_arg3 m ρ c H) (e0_arg4 m ρ c H)))
theorem e1_arg1 : W1 m ρ c (Proc.devRef .tc main_arg1) = (A m c main_arg1) :=
  (W1_of_ne m ρ c main_arg1 (by decide)).trans (e0_arg1 m ρ c H)
theorem e1_arg2 : W1 m ρ c (Proc.devRef .tc main_arg2) = (A m c main_arg2) :=
  (W1_of_ne m ρ c main_arg2 (by decide)).trans (e0_arg2 m ρ c H)
theorem e1_arg5 : W1 m ρ c (Proc.devRef .tc main_arg5) = (A m c main_arg5) :=
  (W1_of_ne m ρ c main_arg5 (by decide)).trans (e0_arg5 m ρ c H)
theorem e1_arg6 : W1 m ρ c (Proc.devRef .tc main_arg6) = (A m c main_arg6) :=
  (W1_of_ne m ρ c main_arg6 (by decide)).trans (e0_arg6 m ρ c H)
theorem e1_arg7 : W1 m ρ c (Proc.devRef .tc main_arg7) = (A m c main_arg7) :=
  (W1_of_ne m ρ c main_arg7 (by decide)).trans (e0_arg7 m ρ c H)
theorem e1_arg8 : W1 m ρ c (Proc.devRef .tc main_arg8) = (A m c main_arg8) :=
  (W1_of_ne m ρ c main_arg8 (by decide)).trans (e0_arg8 m ρ c H)
theorem e1_arg9 : W1 m ρ c (Proc.devRef .tc main_arg9) = (A m c main_arg9) :=
  (W1_of_ne m ρ c main_arg9 (by decide)).trans (e0_arg9 m ρ c H)
theorem e1_arg10 : W1 m ρ c (Proc.devRef .tc main_arg10) = (A m c main_arg10) :=
  (W1_of_ne m ρ c main_arg10 (by decide)).trans (e0_arg10 m ρ c H)
theorem e2_v1 : W2 m ρ c (Proc.devRef .tc main_v1) = (es m c) :=
  (W2_arr m ρ c 3).trans ((H.f1 (V1 m ρ) c).trans (lin_congr (e1_arg2 m ρ c H) (e1_arg5 m ρ c H) (e1_arg6 m ρ c H)))
theorem e2_v0 : W2 m ρ c (Proc.devRef .tc main_v0) = (ns0 m c) :=
  (W2_of_ne m ρ c main_v0 (by decide)).trans (e1_v0 m ρ c H)
theorem e2_arg1 : W2 m ρ c (Proc.devRef .tc main_arg1) = (A m c main_arg1) :=
  (W2_of_ne m ρ c main_arg1 (by decide)).trans (e1_arg1 m ρ c H)
theorem e2_arg7 : W2 m ρ c (Proc.devRef .tc main_arg7) = (A m c main_arg7) :=
  (W2_of_ne m ρ c main_arg7 (by decide)).trans (e1_arg7 m ρ c H)
theorem e2_arg8 : W2 m ρ c (Proc.devRef .tc main_arg8) = (A m c main_arg8) :=
  (W2_of_ne m ρ c main_arg8 (by decide)).trans (e1_arg8 m ρ c H)
theorem e2_arg9 : W2 m ρ c (Proc.devRef .tc main_arg9) = (A m c main_arg9) :=
  (W2_of_ne m ρ c main_arg9 (by decide)).trans (e1_arg9 m ρ c H)
theorem e2_arg10 : W2 m ρ c (Proc.devRef .tc main_arg10) = (A m c main_arg10) :=
  (W2_of_ne m ρ c main_arg10 (by decide)).trans (e1_arg10 m ρ c H)
theorem e3_v12 : W3 m ρ c (Proc.devRef .tc main_v12) = (Cert.KernelIdeal.Glue.pick (src m c) (ns0 m c)) :=
  (Cert.KernelIdeal.Glue.s2_v12 (W2 m ρ c)).trans (congrArg₂ Cert.KernelIdeal.Glue.pick (congrArg Cert.KernelIdeal.Glue.row0 (e2_arg1 m ρ c H)) (e2_v0 m ρ c H))
theorem e3_v3 : W3 m ρ c (Proc.devRef .tc main_v3) = (src m c) :=
  (Cert.KernelIdeal.Glue.s2_v3 (W2 m ρ c)).trans (congrArg Cert.KernelIdeal.Glue.row0 (e2_arg1 m ρ c H))
theorem e3_v5 : W3 m ρ c (Proc.devRef .tc main_v5) = (tgt m c) :=
  (Cert.KernelIdeal.Glue.s2_v5 (W2 m ρ c)).trans (congrArg Cert.KernelIdeal.Glue.row1 (e2_arg1 m ρ c H))
theorem e3_v14 : W3 m ρ c (Proc.devRef .tc main_v14) = (Cert.KernelIdeal.Glue.top0 (A m c main_arg7)) :=
  (Cert.KernelIdeal.Glue.s2_v14 (W2 m ρ c)).trans (congrArg Cert.KernelIdeal.Glue.top0 (e2_arg7 m ρ c H))
theorem e3_v16 : W3 m ρ c (Proc.devRef .tc main_v16) = (Cert.KernelIdeal.Glue.bot0 (A m c main_arg7)) :=
  (Cert.KernelIdeal.Glue.s2_v16 (W2 m ρ c)).trans (congrArg Cert.KernelIdeal.Glue.bot0 (e2_arg7 m ρ c H))
theorem e3_v18 : W3 m ρ c (Proc.devRef .tc main_v18) = (Cert.KernelIdeal.Glue.brow0 (A m c main_arg8)) :=
  (Cert.KernelIdeal.Glue.s2_v18 (W2 m ρ c)).trans (congrArg Cert.KernelIdeal.Glue.brow0 (e2_arg8 m ρ c H))
theorem e3_v0 : W3 m ρ c (Proc.devRef .tc main_v0) = (ns0 m c) :=
  (Cert.KernelIdeal.Glue.keep2_v0 (W2 m ρ c)).trans (e2_v0 m ρ c H)
theorem e3_v1 : W3 m ρ c (Proc.devRef .tc main_v1) = (es m c) :=
  (Cert.KernelIdeal.Glue.keep2_v1 (W2 m ρ c)).trans (e2_v1 m ρ c H)
theorem e3_arg7 : W3 m ρ c (Proc.devRef .tc main_arg7) = (A m c main_arg7) :=
  (Cert.KernelIdeal.Glue.keep2_arg7 (W2 m ρ c)).trans (e2_arg7 m ρ c H)
theorem e3_arg8 : W3 m ρ c (Proc.devRef .tc main_arg8) = (A m c main_arg8) :=
  (Cert.KernelIdeal.Glue.keep2_arg8 (W2 m ρ c)).trans (e2_arg8 m ρ c H)
theorem e3_arg9 : W3 m ρ c (Proc.devRef .tc main_arg9) = (A m c main_arg9) :=
  (Cert.KernelIdeal.Glue.keep2_arg9 (W2 m ρ c)).trans (e2_arg9 m ρ c H)
theorem e3_arg10 : W3 m ρ c (Proc.devRef .tc main_arg10) = (A m c main_arg10) :=
  (Cert.KernelIdeal.Glue.keep2_arg10 (W2 m ρ c)).trans (e2_arg10 m ρ c H)
theorem e4_v19 : W4 m ρ c (Proc.devRef .tc main_v19) = (msg0 m c) :=
  (W4_arr m ρ c 5).trans ((H.f2 (V3 m ρ) c).trans (dual_congr (e3_v12 m ρ c H) (e3_v1 m ρ c H) (e3_v14 m ρ c H) (e3_v16 m ρ c H) (e3_v18 m ρ c H)))
theorem e4_v1 : W4 m ρ c (Proc.devRef .tc main_v1) = (es m c) :=
  (W4_arr m ρ c 1).trans ((((dat2 (V3 m ρ) c).arrAt_in 1 rfl _).trans (A_eq2 (V3 m ρ) c 1)).trans (e3_v1 m ρ c H))
theorem e4_v0 : W4 m ρ c (Proc.devRef .tc main_v0) = (ns0 m c) :=
  (W4_of_ne m ρ c main_v0 (by decide)).trans (e3_v0 m ρ c H)
theorem e4_v3 : W4 m ρ c (Proc.devRef .tc main_v3) = (src m c) :=
  (W4_of_ne m ρ c main_v3 (by decide)).trans (e3_v3 m ρ c H)
theorem e4_v5 : W4 m ρ c (Proc.devRef .tc main_v5) = (tgt m c) :=
  (W4_of_ne m ρ c main_v5 (by decide)).trans (e3_v5 m ρ c H)
theorem e4_arg7 : W4 m ρ c (Proc.devRef .tc main_arg7) = (A m c main_arg7) :=
  (W4_of_ne m ρ c main_arg7 (by decide)).trans (e3_arg7 m ρ c H)
theorem e4_arg8 : W4 m ρ c (Proc.devRef .tc main_arg8) = (A m c main_arg8) :=
  (W4_of_ne m ρ c main_arg8 (by decide)).trans (e3_arg8 m ρ c H)
theorem e4_arg9 : W4 m ρ c (Proc.devRef .tc main_arg9) = (A m c main_arg9) :=
  (W4_of_ne m ρ c main_arg9 (by decide)).trans (e3_arg9 m ρ c H)
theorem e4_arg10 : W4 m ρ c (Proc.devRef .tc main_arg10) = (A m c main_arg10) :=
  (W4_of_ne m ρ c main_arg10 (by decide)).trans (e3_arg10 m ρ c H)
theorem e5_v22 : W5 m ρ c (Proc.devRef .tc main_v22) = (Cert.KernelIdeal.Glue.addUp (tgt m c) (msg0 m c)) :=
  (Cert.KernelIdeal.Glue.s3_v22 (W4 m ρ c)).trans (congrArg₂ Cert.KernelIdeal.Glue.addUp (e4_v5 m ρ c H) (e4_v19 m ρ c H))
theorem e5_v24 : W5 m ρ c (Proc.devRef .tc main_v24) = (Cert.KernelIdeal.Glue.top0 (A m c main_arg9)) :=
  (Cert.KernelIdeal.Glue.s3_v24 (W4 m ρ c)).trans (congrArg Cert.KernelIdeal.Glue.top0 (e4_arg9 m ρ c H))
theorem e5_v26 : W5 m ρ c (Proc.devRef .tc main_v26) = (Cert.KernelIdeal.Glue.bot0 (A m c main_arg9)) :=
  (Cert.KernelIdeal.Glue.s3_v26 (W4 m ρ c)).trans (congrArg Cert.KernelIdeal.Glue.bot0 (e4_arg9 m ρ c H))
theorem e5_v28 : W5 m ρ c (Proc.devRef .tc main_v28) = (Cert.KernelIdeal.Glue.brow0 (A m c main_arg10)) :=
  (Cert.KernelIdeal.Glue.s3_v28 (W4 m ρ c)).trans (congrArg Cert.KernelIdeal.Glue.brow0 (e4_arg10 m ρ c H))
theorem e5_v0 : W5 m ρ c (Proc.devRef .tc main_v0) = (ns0 m c) :=
  (Cert.KernelIdeal.Glue.keep3_v0 (W4 m ρ c)).trans (e4_v0 m ρ c H)
theorem e5_v1 : W5 m ρ c (Proc.devRef .tc main_v1) = (es m c) :=
  (Cert.KernelIdeal.Glue.keep3_v1 (W4 m ρ c)).trans (e4_v1 m ρ c H)
theorem e5_v3 : W5 m ρ c (Proc.devRef .tc main_v3) = (src m c) :=
  (Cert.KernelIdeal.Glue.keep3_v3 (W4 m ρ c)).trans (e4_v3 m ρ c H)
theorem e5_v5 : W5 m ρ c (Proc.devRef .tc main_v5) = (tgt m c) :=
  (Cert.KernelIdeal.Glue.keep3_v5 (W4 m ρ c)).trans (e4_v5 m ρ c H)
theorem e5_arg7 : W5 m ρ c (Proc.devRef .tc main_arg7) = (A m c main_arg7) :=
  (Cert.KernelIdeal.Glue.keep3_arg7 (W4 m ρ c)).trans (e4_arg7 m ρ c H)
theorem e5_arg8 : W5 m ρ c (Proc.devRef .tc main_arg8) = (A m c main_arg8) :=
  (Cert.KernelIdeal.Glue.keep3_arg8 (W4 m ρ c)).trans (e4_arg8 m ρ c H)
theorem e5_arg9 : W5 m ρ c (Proc.devRef .tc main_arg9) = (A m c main_arg9) :=
  (Cert.KernelIdeal.Glue.keep3_arg9 (W4 m ρ c)).trans (e4_arg9 m ρ c H)
theorem e5_arg10 : W5 m ρ c (Proc.devRef .tc main_arg10) = (A m c main_arg10) :=
  (Cert.KernelIdeal.Glue.keep3_arg10 (W4 m ρ c)).trans (e4_arg10 m ρ c H)
theorem e6_v29 : W6 m ρ c (Proc.devRef .tc main_v29) = (ns1 m c) :=
  (W6_arr m ρ c 5).trans ((H.f3 (V5 m ρ) c).trans (dual_congr (e5_v0 m ρ c H) (e5_v22 m ρ c H) (e5_v24 m ρ c H) (e5_v26 m ρ c H) (e5_v28 m ρ c H)))
theorem e6_v1 : W6 m ρ c (Proc.devRef .tc main_v1) = (es m c) :=
  (W6_of_ne m ρ c main_v1 (by decide)).trans (e5_v1 m ρ c H)
theorem e6_v3 : W6 m ρ c (Proc.devRef .tc main_v3) = (src m c) :=
  (W6_of_ne m ρ c main_v3 (by decide)).trans (e5_v3 m ρ c H)
theorem e6_v5 : W6 m ρ c (Proc.devRef .tc main_v5) = (tgt m c) :=
  (W6_of_ne m ρ c main_v5 (by decide)).trans (e5_v5 m ρ c H)
theorem e6_arg7 : W6 m ρ c (Proc.devRef .tc main_arg7) = (A m c main_arg7) :=
  (W6_of_ne m ρ c main_arg7 (by decide)).trans (e5_arg7 m ρ c H)
theorem e6_arg8 : W6 m ρ c (Proc.devRef .tc main_arg8) = (A m c main_arg8) :=
  (W6_of_ne m ρ c main_arg8 (by decide)).trans (e5_arg8 m ρ c H)
theorem e6_arg9 : W6 m ρ c (Proc.devRef .tc main_arg9) = (A m c main_arg9) :=
  (W6_of_ne m ρ c main_arg9 (by decide)).trans (e5_arg9 m ρ c H)
theorem e6_arg10 : W6 m ρ c (Proc.devRef .tc main_arg10) = (A m c main_arg10) :=
  (W6_of_ne m ρ c main_arg10 (by decide)).trans (e5_arg10 m ρ c H)
theorem e7_v36 : W7 m ρ c (Proc.devRef .tc main_v36) = (Cert.KernelIdeal.Glue.pick (src m c) (ns1 m c)) :=
  (Cert.KernelIdeal.Glue.s4_v36 (W6 m ρ c)).trans (congrArg₂ Cert.KernelIdeal.Glue.pick (e6_v3 m ρ c H) (e6_v29 m ρ c H))
theorem e7_v38 : W7 m ρ c (Proc.devRef .tc main_v38) = (Cert.KernelIdeal.Glue.top1 (A m c main_arg7)) :=
  (Cert.KernelIdeal.Glue.s4_v38 (W6 m ρ c)).trans (congrArg Cert.KernelIdeal.Glue.top1 (e6_arg7 m ρ c H))
theorem e7_v40 : W7 m ρ c (Proc.devRef .tc main_v40) = (Cert.KernelIdeal.Glue.bot1 (A m c main_arg7)) :=
  (Cert.KernelIdeal.Glue.s4_v40 (W6 m ρ c)).trans (congrArg Cert.KernelIdeal.Glue.bot1 (e6_arg7 m ρ c H))
theorem e7_v42 : W7 m ρ c (Proc.devRef .tc main_v42) = (Cert.KernelIdeal.Glue.brow1 (A m c main_arg8)) :=
  (Cert.KernelIdeal.Glue.s4_v42 (W6 m ρ c)).trans (congrArg Cert.KernelIdeal.Glue.brow1 (e6_arg8 m ρ c H))
theorem e7_v1 : W7 m ρ c (Proc.devRef .tc main_v1) = (es m c) :=
  (Cert.KernelIdeal.Glue.keep4_v1 (W6 m ρ c)).trans (e6_v1 m ρ c H)
theorem e7_v29 : W7 m ρ c (Proc.devRef .tc main_v29) = (ns1 m c) :=
  (Cert.KernelIdeal.Glue.keep4_v29 (W6 m ρ c)).trans (e6_v29 m ρ c H)
theorem e7_v5 : W7 m ρ c (Proc.devRef .tc main_v5) = (tgt m c) :=
  (Cert.KernelIdeal.Glue.keep4_v5 (W6 m ρ c)).trans (e6_v5 m ρ c H)
theorem e7_arg9 : W7 m ρ c (Proc.devRef .tc main_arg9) = (A m c main_arg9) :=
  (Cert.KernelIdeal.Glue.keep4_arg9 (W6 m ρ c)).trans (e6_arg9 m ρ c H)
theorem e7_arg10 : W7 m ρ c (Proc.devRef .tc main_arg10) = (A m c main_arg10) :=
  (Cert.KernelIdeal.Glue.keep4_arg10 (W6 m ρ c)).trans (e6_arg10 m ρ c H)
theorem e8_v43 : W8 m ρ c (Proc.devRef .tc main_v43) = (msg1 m c) :=
  (W8_arr m ρ c 5).trans ((H.f4 (V7 m ρ) c).trans (dual_congr (e7_v36 m ρ c H) (e7_v1 m ρ c H) (e7_v38 m ρ c H) (e7_v40 m ρ c H) (e7_v42 m ρ c H)))
theorem e8_v29 : W8 m ρ c (Proc.devRef .tc main_v29) = (ns1 m c) :=
  (W8_of_ne m ρ c main_v29 (by decide)).trans (e7_v29 m ρ c H)
theorem e8_v5 : W8 m ρ c (Proc.devRef .tc main_v5) = (tgt m c) :=
  (W8_of_ne m ρ c main_v5 (by decide)).trans (e7_v5 m ρ c H)
theorem e8_arg9 : W8 m ρ c (Proc.devRef .tc main_arg9) = (A m c main_arg9) :=
  (W8_of_ne m ρ c main_arg9 (by decide)).trans (e7_arg9 m ρ c H)
theorem e8_arg10 : W8 m ρ c (Proc.devRef .tc main_arg10) = (A m c main_arg10) :=
  (W8_of_ne m ρ c main_arg10 (by decide)).trans (e7_arg10 m ρ c H)
theorem e9_v46 : W9 m ρ c (Proc.devRef .tc main_v46) = (Cert.KernelIdeal.Glue.addUp (tgt m c) (msg1 m c)) :=
  (Cert.KernelIdeal.Glue.s5_v46 (W8 m ρ c)).trans (congrArg₂ Cert.KernelIdeal.Glue.addUp (e8_v5 m ρ c H) (e8_v43 m ρ c H))
theorem e9_v48 : W9 m ρ c (Proc.devRef .tc main_v48) = (Cert.KernelIdeal.Glue.top1 (A m c main_arg9)) :=
  (Cert.KernelIdeal.Glue.s5_v48 (W8 m ρ c)).trans (congrArg Cert.KernelIdeal.Glue.top1 (e8_arg9 m ρ c H))
theorem e9_v50 : W9 m ρ c (Proc.devRef .tc main_v50) = (Cert.KernelIdeal.Glue.bot1 (A m c main_arg9)) :=
  (Cert.KernelIdeal.Glue.s5_v50 (W8 m ρ c)).trans (congrArg Cert.KernelIdeal.Glue.bot1 (e8_arg9 m ρ c H))
theorem e9_v52 : W9 m ρ c (Proc.devRef .tc main_v52) = (Cert.KernelIdeal.Glue.brow1 (A m c main_arg10)) :=
  (Cert.KernelIdeal.Glue.s5_v52 (W8 m ρ c)).trans (congrArg Cert.KernelIdeal.Glue.brow1 (e8_arg10 m ρ c H))
theorem e9_v29 : W9 m ρ c (Proc.devRef .tc main_v29) = (ns1 m c) :=
  (Cert.KernelIdeal.Glue.keep5_v29 (W8 m ρ c)).trans (e8_v29 m ρ c H)
theorem e10_v53 : W10 m ρ c (Proc.devRef .tc main_v53) = (out m c) :=
  (W10_arr m ρ c 5).trans ((H.f5 (V9 m ρ) c).trans (dual_congr (e9_v29 m ρ c H) (e9_v46 m ρ c H) (e9_v48 m ρ c H) (e9_v50 m ρ c H) (e9_v52 m ρ c H)))

omit H in
/-- The result is the network function of the argument arrays, with the program's own row-picking and row-adding. -/
theorem out_eq : out m c = Cert.Gnn.net (N := 50000) (E := 800000) (Cert.KernelIdeal.Glue.pick (src m c)) (Cert.KernelIdeal.Glue.addUp (tgt m c))
    (A m c main_arg0) (A m c main_arg2) (A m c main_arg3) (A m c main_arg4) (A m c main_arg5) (A m c main_arg6) (A m c main_arg7) (A m c main_arg8) (A m c main_arg9) (A m c main_arg10) := by
  unfold out msg1 ns1 msg0 Cert.Gnn.net
  rw [Cert.KernelIdeal.Glue.top0_eq, Cert.KernelIdeal.Glue.bot0_eq, Cert.KernelIdeal.Glue.brow0_eq, Cert.KernelIdeal.Glue.top1_eq, Cert.KernelIdeal.Glue.bot1_eq, Cert.KernelIdeal.Glue.brow1_eq, Cert.KernelIdeal.Glue.top0_eq, Cert.KernelIdeal.Glue.bot0_eq, Cert.KernelIdeal.Glue.brow0_eq, Cert.KernelIdeal.Glue.top1_eq, Cert.KernelIdeal.Glue.bot1_eq, Cert.KernelIdeal.Glue.brow1_eq]
  rfl

/-- The result buffer after the program: the network function of the argument arrays. -/
theorem result : W10 m ρ c (Proc.devRef .tc main_v53) = Cert.Gnn.net (N := 50000) (E := 800000) (Cert.KernelIdeal.Glue.pick (src m c)) (Cert.KernelIdeal.Glue.addUp (tgt m c))
    (A m c main_arg0) (A m c main_arg2) (A m c main_arg3) (A m c main_arg4) (A m c main_arg5) (A m c main_arg6) (A m c main_arg7) (A m c main_arg8) (A m c main_arg9) (A m c main_arg10) :=
  (e10_v53 m ρ c H).trans (out_eq m c)

end Cert.KernelIdeal.Chain

end
-- ==== Proof.RegLib.lean ====
/-
  What each launch's body stores at one entry of its output block, as a formula in the entries of the blocks it
  loads. A body is a product of a row block with a whole weight matrix into a zero accumulator (two such products
  added, for the layers of two inputs), plus the bias vector repeated down the rows, clamped from below at zero.
  At the ideal instance the product's entry (p, q) is the sum over k of x(p,k)·w(k,q); the repeated bias's entry is
  b(q); the clamp is a maximum with the word of zero, which is kept as that word.
-/
import proofs.«106089_j49452253447021_1_alg».proof.Proof.Gen.KernelIdeal.Skeleton
import proofs.«106089_j49452253447021_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen
open Idealize.ShloMosaic Idealize.ShloMosaic.ValueIdx

/-! ### A 5000×128 block times the 128×64 weight matrix -/

/-- In that product the left operand is read at the output's row -/
theorem lhsA_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and at the summation index as its column; -/
theorem lhsA_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand is read at the summation index as its row -/
theorem rhsA_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and at the output's column. -/
theorem rhsA_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into a zero accumulator, at entry (p, q): the sum over k of x(p,k)·w(k,q). -/
theorem prodA_at (x : Vec Ideal S5000x128 .f32) (w : Vec Ideal S128x64 .f32) (p : Fin 5000) (q : Fin 64) :
    matmul (F := Ideal) (φ₁ := .f32) (φ₂ := .f32) dot_S5000x128_S128x64_S5000x64_1_0_0_1_n_n none x w (constant S5000x64 .f32 0x00000000#32) (ix2 p q)
      = ∑ k : Fin 128, x (ix2 p k) * w (ix2 k q) := by
  refine (Ideal.matmul_constant_zero_apply (φ₁ := .f32) (φ₂ := .f32) dot_S5000x128_S128x64_S5000x64_1_0_0_1_n_n none x w (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhsA_row _ _
    | ⟨1, _⟩ => exact (lhsA_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhsA_row _ _).trans hk
    | ⟨1, _⟩ => exact rhsA_col _ _)
  rw [el, er]

/-! ### A 10000×64 block times a 64×64 weight matrix -/

/-- In that product the left operand is read at the output's row -/
theorem lhsE_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- and at the summation index as its column; -/
theorem lhsE_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- the right operand is read at the summation index as its row -/
theorem rhsE_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- and at the output's column. -/
theorem rhsE_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The product into a zero accumulator, at entry (p, q): the sum over k of x(p,k)·w(k,q). -/
theorem prodE_at (x : Vec Ideal S10000x64 .f32) (w : Vec Ideal S64x64 .f32) (p : Fin 10000) (q : Fin 64) :
    matmul (F := Ideal) (φ₁ := .f32) (φ₂ := .f32) dot_S10000x64_S64x64_S10000x64_1_0_0_1_n_n none x w (constant S10000x64 .f32 0x00000000#32) (ix2 p q)
      = ∑ k : Fin 64, x (ix2 p k) * w (ix2 k q) := by
  refine (Ideal.matmul_constant_zero_apply (φ₁ := .f32) (φ₂ := .f32) dot_S10000x64_S64x64_S10000x64_1_0_0_1_n_n none x w (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhsE_row _ _
    | ⟨1, _⟩ => exact (lhsE_col _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhsE_row _ _).trans hk
    | ⟨1, _⟩ => exact rhsE_col _ _)
  rw [el, er]

/-! ### A 5000×64 block times a 64×64 weight matrix -/

/-- In that product the left operand is read at the output's row -/
theorem lhsN_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- and at the summation index as its column; -/
theorem lhsN_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand is read at the summation index as its row -/
theorem rhsN_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- and at the output's column. -/
theorem rhsN_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at entry (p, q): the sum over k of x(p,k)·w(k,q). -/
theorem prodN_at (x : Vec Ideal S5000x64 .f32) (w : Vec Ideal S64x64 .f32) (p : Fin 5000) (q : Fin 64) :
    matmul (F := Ideal) (φ₁ := .f32) (φ₂ := .f32) dot_S5000x64_S64x64_S5000x64_1_0_0_1_n_n none x w (constant S5000x64 .f32 0x00000000#32) (ix2 p q)
      = ∑ k : Fin 64, x (ix2 p k) * w (ix2 k q) := by
  refine (Ideal.matmul_constant_zero_apply (φ₁ := .f32) (φ₂ := .f32) dot_S5000x64_S64x64_S5000x64_1_0_0_1_n_n none x w (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhsN_row _ _
    | ⟨1, _⟩ => exact (lhsN_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhsN_row _ _).trans hk
    | ⟨1, _⟩ => exact rhsN_col _ _)
  rw [el, er]

/-! ### The bias row -/

/-- The bias vector, viewed as one row and repeated down 5000 rows, at entry (p, q): b(q). -/
theorem biasN_at (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

/-- The bias vector, viewed as one row and repeated down 10000 rows, at entry (p, q): b(q). -/
theorem biasE_at (b : Vec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-! ### The six bodies -/

/-- What launch 0's body stores at entry (p, q) of its output block: max(Σₖ x(p,k)·w(k,q) + b(q), 0). -/
theorem pay0_at (x : Vec Ideal S5000x128 .f32) (w : Vec Ideal S128x64 .f32) (b : Vec Ideal S64 .f32)
    (p : Fin 5000) (q : Fin 64) :
    k0_pay1 (F := Ideal) x w b (ix2 p q)
      = max ((∑ k : Fin 128, x (ix2 p k) * w (ix2 k q)) + b (ix1 q)) Cert.Gnn.floor0 := by
  unfold k0_pay1
  show max (matmul (F := Ideal) (φ₁ := .f32) (φ₂ := .f32) dot_S5000x128_S128x64_S5000x64_1_0_0_1_n_n none x w (constant S5000x64 .f32 0x00000000#32) (ix2 p q)
      + broadcastTo S5000x64 (shapeCast S1x64 b shapeCasts_S64_S1x64) broadcasts_S1x64_S5000x64 (ix2 p q)) Cert.Gnn.floor0 = _
  rw [prodA_at, biasN_at]

/-- What launch 1's body stores at entry (p, q) of its output block: max(Σₖ x(p,k)·w(k,q) + b(q), 0). -/
theorem pay1_at (x : Vec Ideal S10000x64 .f32) (w : Vec Ideal S64x64 .f32) (b : Vec Ideal S64 .f32)
    (p : Fin 10000) (q : Fin 64) :
    k1_pay1 (F := Ideal) x w b (ix2 p q)
      = max ((∑ k : Fin 64, x (ix2 p k) * w (ix2 k q)) + b (ix1 q)) Cert.Gnn.floor0 := by
  unfold k1_pay1
  show max (matmul (F := Ideal) (φ₁ := .f32) (φ₂ := .f32) dot_S10000x64_S64x64_S10000x64_1_0_0_1_n_n none x w (constant S10000x64 .f32 0x00000000#32) (ix2 p q)
      + broadcastTo S10000x64 (shapeCast S1x64 b shapeCasts_S64_S1x64) broadcasts_S1x64_S10000x64 (ix2 p q)) Cert.Gnn.floor0 = _
  rw [prodE_at, biasE_at]

/-- What launch 2's body stores at entry (p, q) of its output block:
    max((Σₖ a(p,k)·wa(k,q) + Σₖ b(p,k)·wb(k,q)) + bias(q), 0). The changes of shape in the body are to the same shape,
    so they change nothing. -/
theorem pay2_at (a : Vec Ideal S10000x64 .f32) (wa : Vec Ideal S64x64 .f32) (b : Vec Ideal S10000x64 .f32)
    (wb : Vec Ideal S64x64 .f32) (bias : Vec Ideal S64 .f32) (p : Fin 10000) (q : Fin 64) :
    k2_pay1 (F := Ideal) a wa b wb bias (ix2 p q)
      = max (((∑ k : Fin 64, a (ix2 p k) * wa (ix2 k q)) + (∑ k : Fin 64, b (ix2 p k) * wb (ix2 k q)))
          + bias (ix1 q)) Cert.Gnn.floor0 := by
  unfold k2_pay1
  simp only [shapeCast_self]
  show max ((matmul (F := Ideal) (φ₁ := .f32) (φ₂ := .f32) dot_S10000x64_S64x64_S10000x64_1_0_0_1_n_n none a wa (constant S10000x64 .f32 0x00000000#32) (ix2 p q)
        + matmul (F := Ideal) (φ₁ := .f32) (φ₂ := .f32) dot_S10000x64_S64x64_S10000x64_1_0_0_1_n_n none b wb (constant S10000x64 .f32 0x00000000#32) (ix2 p q))
      + broadcastTo S10000x64 (shapeCast S1x64 bias shapeCasts_S64_S1x64) broadcasts_S1x64_S10000x64 (ix2 p q)) Cert.Gnn.floor0 = _
  rw [prodE_at, prodE_at, biasE_at]

/-- What launch 3's body stores at entry (p, q) of its output block:
    max((Σₖ a(p,k)·wa(k,q) + Σₖ b(p,k)·wb(k,q)) + bias(q), 0). The changes of shape in the body are to the same shape,
    so they change nothing. -/
theorem pay3_at (a : Vec Ideal S5000x64 .f32) (wa : Vec Ideal S64x64 .f32) (b : Vec Ideal S5000x64 .f32)
    (wb : Vec Ideal S64x64 .f32) (bias : Vec Ideal S64 .f32) (p : Fin 5000) (q : Fin 64) :
    k3_pay1 (F := Ideal) a wa b wb bias (ix2 p q)
      = max (((∑ k : Fin 64, a (ix2 p k) * wa (ix2 k q)) + (∑ k : Fin 64, b (ix2 p k) * wb (ix2 k q)))
          + bias (ix1 q)) Cert.Gnn.floor0 := by
  unfold k3_pay1
  simp only [shapeCast_self]
  show max ((matmul (F := Ideal) (φ₁ := .f32) (φ₂ := .f32) dot_S5000x64_S64x64_S5000x64_1_0_0_1_n_n none a wa (constant S5000x64 .f32 0x00000000#32) (ix2 p q)
        + matmul (F := Ideal) (φ₁ := .f32) (φ₂ := .f32) dot_S5000x64_S64x64_S5000x64_1_0_0_1_n_n none b wb (constant S5000x64 .f32 0x00000000#32) (ix2 p q))
      + broadcastTo S5000x64 (shapeCast S1x64 bias shapeCasts_S64_S1x64) broadcasts_S1x64_S5000x64 (ix2 p q)) Cert.Gnn.floor0 = _
  rw [prodN_at, prodN_at, biasN_at]

/-- Launch 4's body is launch 2's. -/
theorem pay4_at (a : Vec Ideal S10000x64 .f32) (wa : Vec Ideal S64x64 .f32) (b : Vec Ideal S10000x64 .f32)
    (wb : Vec Ideal S64x64 .f32) (bias : Vec Ideal S64 .f32) (p : Fin 10000) (q : Fin 64) :
    k4_pay1 (F := Ideal) a wa b wb bias (ix2 p q)
      = max (((∑ k : Fin 64, a (ix2 p k) * wa (ix2 k q)) + (∑ k : Fin 64, b (ix2 p k) * wb (ix2 k q)))
          + bias (ix1 q)) Cert.Gnn.floor0 :=
  pay2_at a wa b wb bias p q

/-- Launch 5's body is launch 3's. -/
theorem pay5_at (a : Vec Ideal S5000x64 .f32) (wa : Vec Ideal S64x64 .f32) (b : Vec Ideal S5000x64 .f32)
    (wb : Vec Ideal S64x64 .f32) (bias : Vec Ideal S64 .f32) (p : Fin 5000) (q : Fin 64) :
    k5_pay1 (F := Ideal) a wa b wb bias (ix2 p q)
      = max (((∑ k : Fin 64, a (ix2 p k) * wa (ix2 k q)) + (∑ k : Fin 64, b (ix2 p k) * wb (ix2 k q)))
          + bias (ix1 q)) Cert.Gnn.floor0 :=
  pay3_at a wa b wb bias p q

/-! ### The layers of the specification, from the entries of blocks -/

/-- Entry `i` of an affine layer with a clamp, given each factor and the bias as the layer's own. -/
theorem lin_at {M K : Nat} (X : FVec Ideal ⟨2, ![M, K]⟩ .f32) (W : FVec Ideal ⟨2, ![K, 64]⟩ .f32)
    (B : FVec Ideal ⟨1, ![64]⟩ .f32) (i : (⟨2, ![M, 64]⟩ : Shape).Idx) (f g : Fin K → EReal) (β : EReal)
    (hf : ∀ k, f k = X (ix2 (i 0) k)) (hg : ∀ k, g k = W (ix2 k (i 1))) (hβ : β = B (ix1 (i 1))) :
    max ((∑ k : Fin K, f k * g k) + β) Cert.Gnn.floor0 = Cert.Gnn.lin X W B i := by
  have hf' : f = fun k => X (ix2 (i 0) k) := funext hf
  have hg' : g = fun k => W (ix2 k (i 1)) := funext hg
  subst hf' hg' hβ
  rfl

/-- Entry `i` of an affine layer of two inputs with a clamp, given each factor and the bias as the layer's own. -/
theorem dual_at {M : Nat} (A B : FVec Ideal ⟨2, ![M, 64]⟩ .f32) (Wa Wb : FVec Ideal ⟨2, ![64, 64]⟩ .f32)
    (Bias : FVec Ideal ⟨1, ![64]⟩ .f32) (i : (⟨2, ![M, 64]⟩ : Shape).Idx) (fa ga fb gb : Fin 64 → EReal) (β : EReal)
    (hfa : ∀ k, fa k = A (ix2 (i 0) k)) (hga : ∀ k, ga k = Wa (ix2 k (i 1)))
    (hfb : ∀ k, fb k = B (ix2 (i 0) k)) (hgb : ∀ k, gb k = Wb (ix2 k (i 1))) (hβ : β = Bias (ix1 (i 1))) :
    max (((∑ k : Fin 64, fa k * ga k) + (∑ k : Fin 64, fb k * gb k)) + β) Cert.Gnn.floor0
      = Cert.Gnn.dual A B Wa Wb Bias i := by
  have hfa' : fa = fun k => A (ix2 (i 0) k) := funext hfa
  have hga' : ga = fun k => Wa (ix2 k (i 1)) := funext hga
  have hfb' : fb = fun k => B (ix2 (i 0) k) := funext hfb
  have hgb' : gb = fun k => Wb (ix2 k (i 1)) := funext hgb
  subst hfa' hga' hfb' hgb' hβ
  rfl

/-! ### The zero offsets of a whole-block access -/

theorem origin2 : (![0, 0] : Fin 2 → Nat) = fun _ => 0 := funext fun a => by fin_cases a <;> rfl
theorem origin1 : (![0] : Fin 1 → Nat) = fun _ => 0 := funext fun a => by fin_cases a <;> rfl

end Cert.KernelIdeal.Regions

end
-- ==== Proof.Reg0.lean ====
/-
  Launch 0 (the node encoder). Its grid has 10 points; point t reads rows 5000·t … 5000·t+4999 of the node
  features, the whole weight matrix and the whole bias, and writes rows 5000·t … 5000·t+4999 of the output. Each
  written entry (r, j) is max(Σₖ x(r,k)·w(k,j) + b(j), 0) of the arrays as the launch finds them, and the 10
  blocks tile the output, so the output array after the launch is that function of the whole arrays.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 10 points: a window over rows is at block t along the rows,
    a window over a whole array is at block 0. -/
theorem idx_facts0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

/-- Window 0's block at point t is rows 5000·t … 5000·t + 4999 of its array. -/
theorem blk0_0 (c : Dev nD) (t : Fin cfg0.N) (y : S5000x128.Idx) (i : S50000x128.Idx)
    (h0 : (i 0).val = t.val * 5000 + (y 0).val) (h1 : (i 1).val = (y 1).val) :
    (iblk0 (F := Ideal) V c 0 t : Vec Ideal S5000x128 .f32) y = (V c main_arg0 : S50000x128.Idx → Elt Ideal .f32) i := by
  obtain ⟨e0, e1, -, -, -, -, -⟩ := idx_facts0 t
  unfold iblk0
  show (V c main_arg0 : S50000x128.Idx → Elt Ideal .f32) (((cfg0.win 0).blk t).view.emb y) = _
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Window 1's block at every point is its whole array. -/
theorem blk0_1 (c : Dev nD) (t : Fin cfg0.N) (y i : S128x64.Idx)
    (h0 : (i 0).val = (y 0).val) (h1 : (i 1).val = (y 1).val) :
    (iblk0 (F := Ideal) V c 1 t : Vec Ideal S128x64 .f32) y = (V c main_arg3 : S128x64.Idx → Elt Ideal .f32) i := by
  obtain ⟨-, -, e2, e3, -, -, -⟩ := idx_facts0 t
  unfold iblk0
  show (V c main_arg3 : S128x64.Idx → Elt Ideal .f32) (((cfg0.win 1).blk t).view.emb y) = _
  refine congrArg _ (funext fun a => Fin.ext ?_)
  match a with
  | ⟨0, _⟩ => show win0_1.index t (0 : Fin 2) * 128 + 1 * (y 0).val = (i 0).val; omega
  | ⟨1, _⟩ => show win0_1.index t (1 : Fin 2) * 64 + 1 * (y 1).val = (i 1).val; omega

/-- Window 2's block at every point is its whole array. -/
theorem blk0_2 (c : Dev nD) (t : Fin cfg0.N) (y i : S64.Idx) (h0 : (i 0).val = (y 0).val) :
    (iblk0 (F := Ideal) V c 2 t : Vec Ideal S64 .f32) y = (V c main_arg4 : S64.Idx → Elt Ideal .f32) i := by
  obtain ⟨-, -, -, -, e4, -, -⟩ := idx_facts0 t
  unfold iblk0
  show (V c main_arg4 : S64.Idx → Elt Ideal .f32) (((cfg0.win 2).blk t).view.emb y) = _
  refine congrArg _ (funext fun a => Fin.ext ?_)
  match a with
  | ⟨0, _⟩ => show win0_2.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 5000·t + p
    (for a window over rows) or at the same place (for a window over a whole array). -/
theorem flushed0_eq (c : Dev nD) (t : Fin cfg0.N) :
    (dat0 (F := Ideal) V c).flushed 3 t
      = ((cfg0.win 3).blk t).view.read (Elt Ideal) (Cert.Gnn.lin (M := 50000) (K := 128) (V c main_arg0) (V c main_arg3) (V c main_arg4)) := by
  show (cfg0.win 3).cut (grid0.coords t) ((dat0 V c).after 3 t) = _
  rw [after0_3]
  unfold out0_3
  rw [View.canon_unit_zero origin2]
  simp only [View.ld_unit_zero (S := S5000x128) origin2, View.ld_unit_zero (S := S128x64) origin2, View.ld_unit_zero (S := S64) origin1]
  obtain ⟨-, -, -, -, -, e5, e6⟩ := idx_facts0 t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
      = Cert.Gnn.lin (M := 50000) (K := 128) (V c main_arg0) (V c main_arg3) (V c main_arg4) (((cfg0.win 3).blk t).view.emb (ix2 p q))
  refine (pay0_at (iblk0 V c 0 t) (iblk0 V c 1 t) (iblk0 V c 2 t) p q).trans ?_
  refine lin_at (M := 50000) (K := 128) (V c main_arg0) (V c main_arg3) (V c main_arg4) _ _ _ _ (fun k => ?_) (fun k => ?_) ?_
  · refine blk0_0 V c t _ _ ?_ rfl
    show win0_3.index t (0 : Fin 2) * 5000 + 1 * p.val = t.val * 5000 + p.val; omega
  · refine blk0_1 V c t _ _ rfl ?_
    show win0_3.index t (1 : Fin 2) * 64 + 1 * q.val = q.val; omega
  · refine blk0_2 V c t _ _ ?_
    show win0_3.index t (1 : Fin 2) * 64 + 1 * q.val = q.val; omega

/-! ## The blocks tile the output -/

/-- An entry of the output array is in point t's block iff each coordinate is in the block's range on its axis. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Row r of the output is in the block of point r / 5000, and every point writes its block back. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 :=
    ⟨⟨(i 0).val / 5000, by show _ < grid0.N; omega⟩, rfl⟩
  obtain ⟨-, -, -, -, -, e5, e6⟩ := idx_facts0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The output array after launch 0, as one function of the arrays the launch finds. -/
theorem final0 (c : Dev nD) :
    (dat0 (F := Ideal) V c).arrAt 3 cfg0.N
      = Cert.Gnn.lin (M := 50000) (K := 128) (V c main_arg0) (V c main_arg3) (V c main_arg4) :=
  (dat0 (F := Ideal) V c).arrAt_eq_of_cover 3 _ (fun t _ => flushed0_eq V c t) cover0

end Cert.KernelIdeal.Regions

end
-- ==== Proof.Reg1.lean ====
/-
  Launch 1 (the edge encoder). Its grid has 80 points; point t reads rows 10000·t … 10000·t+9999 of the edge
  features, the whole weight matrix and the whole bias, and writes the same rows of the output. Each written
  entry (r, j) is max(Σₖ x(r,k)·w(k,j) + b(j), 0), and the 80 blocks tile the output.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 80 points: a window over rows is at block t along the rows,
    a window over a whole array is at block 0. -/
theorem idx_facts1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Window 0's block at point t is rows 10000·t … 10000·t + 9999 of its array. -/
theorem blk1_0 (c : Dev nD) (t : Fin cfg1.N) (y : S10000x64.Idx) (i : S800000x64.Idx)
    (h0 : (i 0).val = t.val * 10000 + (y 0).val) (h1 : (i 1).val = (y 1).val) :
    (iblk1 (F := Ideal) V c 0 t : Vec Ideal S10000x64 .f32) y = (V c main_arg2 : S800000x64.Idx → Elt Ideal .f32) i := by
  obtain ⟨e0, e1, -, -, -, -, -⟩ := idx_facts1 t
  unfold iblk1
  show (V c main_arg2 : S800000x64.Idx → Elt Ideal .f32) (((cfg1.win 0).blk t).view.emb y) = _
  refine congrArg _ (funext fun a => Fin.ext ?_)
  match a with
  | ⟨0, _⟩ => show win1_0.index t (0 : Fin 2) * 10000 + 1 * (y 0).val = (i 0).val; omega
  | ⟨1, _⟩ => show win1_0.index t (1 : Fin 2) * 64 + 1 * (y 1).val = (i 1).val; omega

/-- Window 1's block at every point is its whole array. -/
theorem blk1_1 (c : Dev nD) (t : Fin cfg1.N) (y i : S64x64.Idx)
    (h0 : (i 0).val = (y 0).val) (h1 : (i 1).val = (y 1).val) :
    (iblk1 (F := Ideal) V c 1 t : Vec Ideal S64x64 .f32) y = (V c main_arg5 : S64x64.Idx → Elt Ideal .f32) i := by
  obtain ⟨-, -, e2, e3, -, -, -⟩ := idx_facts1 t
  unfold iblk1
  show (V c main_arg5 : S64x64.Idx → Elt Ideal .f32) (((cfg1.win 1).blk t).view.emb y) = _
  refine congrArg _ (funext fun a => Fin.ext ?_)
  match a with
  | ⟨0, _⟩ => show win1_1.index t (0 : Fin 2) * 64 + 1 * (y 0).val = (i 0).val; omega
  | ⟨1, _⟩ => show win1_1.index t (1 : Fin 2) * 64 + 1 * (y 1).val = (i 1).val; omega

/-- Window 2's block at every point is its whole array. -/
theorem blk1_2 (c : Dev nD) (t : Fin cfg1.N) (y i : S64.Idx) (h0 : (i 0).val = (y 0).val) :
    (iblk1 (F := Ideal) V c 2 t : Vec Ideal S64 .f32) y = (V c main_arg6 : S64.Idx → Elt Ideal .f32) i := by
  obtain ⟨-, -, -, -, e4, -, -⟩ := idx_facts1 t
  unfold iblk1
  show (V c main_arg6 : S64.Idx → Elt Ideal .f32) (((cfg1.win 2).blk t).view.emb y) = _
  refine congrArg _ (funext fun a => Fin.ext ?_)
  match a with
  | ⟨0, _⟩ => show win1_2.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 10000·t + p
    (for a window over rows) or at the same place (for a window over a whole array). -/
theorem flushed1_eq (c : Dev nD) (t : Fin cfg1.N) :
    (dat1 (F := Ideal) V c).flushed 3 t
      = ((cfg1.win 3).blk t).view.read (Elt Ideal) (Cert.Gnn.lin (M := 800000) (K := 64) (V c main_arg2) (V c main_arg5) (V c main_arg6)) := by
  show (cfg1.win 3).cut (grid1.coords t) ((dat1 V c).after 3 t) = _
  rw [after1_3]
  unfold out1_3
  rw [View.canon_unit_zero origin2]
  simp only [View.ld_unit_zero (S := S10000x64) origin2, View.ld_unit_zero (S := S64x64) origin2, View.ld_unit_zero (S := S64) origin1]
  obtain ⟨-, -, -, -, -, e5, e6⟩ := idx_facts1 t
  refine funext fun (j : S10000x64.Idx) => ?_
  obtain ⟨p, q, rfl⟩ : ∃ (p : Fin 10000) (q : Fin 64), j = ix2 p q := ⟨j 0, j 1, eq_ix2 j⟩
  show k1_pay1 (F := Ideal) (iblk1 V c 0 t) (iblk1 V c 1 t) (iblk1 V c 2 t) (ix2 p q)
      = Cert.Gnn.lin (M := 800000) (K := 64) (V c main_arg2) (V c main_arg5) (V c main_arg6) (((cfg1.win 3).blk t).view.emb (ix2 p q))
  refine (pay1_at (iblk1 V c 0 t) (iblk1 V c 1 t) (iblk1 V c 2 t) p q).trans ?_
  refine lin_at (M := 800000) (K := 64) (V c main_arg2) (V c main_arg5) (V c main_arg6) _ _ _ _ (fun k => ?_) (fun k => ?_) ?_
  · refine blk1_0 V c t _ _ ?_ rfl
    show win1_3.index t (0 : Fin 2) * 10000 + 1 * p.val = t.val * 10000 + p.val; omega
  · refine blk1_1 V c t _ _ rfl ?_
    show win1_3.index t (1 : Fin 2) * 64 + 1 * q.val = q.val; omega
  · refine blk1_2 V c t _ _ ?_
    show win1_3.index t (1 : Fin 2) * 64 + 1 * q.val = q.val; omega

/-! ## The blocks tile the output -/

/-- An entry of the output array is in point t's block iff each coordinate is in the block's range on its axis. -/
theorem mem_blk1 (t : Fin cfg1.N) (i : S800000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v1).slice (win1_3.rect t)).set ↔ _
  rw [View.set_slice_whole, Rect.mem_set_unit]
  exact Iff.rfl

/-- Row r of the output is in the block of point r / 10000, and every point writes its block back. -/
theorem cover1 (i : S800000x64.Idx) :
    ∃ t : Fin cfg1.N, (cfg1.win 3).flush t = true ∧ i ∈ ((cfg1.win 3).blk t).view.set := by
  have hi0 : (i 0).val < 800000 := (i 0).isLt
  have hi1 : (i 1).val < 64 := (i 1).isLt
  have hN : grid1.N = 80 := N_1
  obtain ⟨t, ht⟩ : ∃ t : Fin cfg1.N, t.val = (i 0).val / 10000 :=
    ⟨⟨(i 0).val / 10000, by show _ < grid1.N; omega⟩, rfl⟩
  obtain ⟨-, -, -, -, -, e5, e6⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The output array after launch 1, as one function of the arrays the launch finds. -/
theorem final1 (c : Dev nD) :
    (dat1 (F := Ideal) V c).arrAt 3 cfg1.N
      = Cert.Gnn.lin (M := 800000) (K := 64) (V c main_arg2) (V c main_arg5) (V c main_arg6) :=
  (dat1 (F := Ideal) V c).arrAt_eq_of_cover 3 _ (fun t _ => flushed1_eq V c t) cover1

end Cert.KernelIdeal.Regions

end
-- ==== Proof.Reg2.lean ====
/-
  Launch 2 (the first layer's messages). Its grid has 80 points; point t reads rows 10000·t … 10000·t+9999 of
  the gathered node rows and of the edge states, two whole 64×64 weight matrices and the whole bias, and writes
  the same rows of the output. Each written entry (r, j) is
  max((Σₖ a(r,k)·wa(k,j) + Σₖ b(r,k)·wb(k,j)) + bias(j), 0), and the 80 blocks tile the output.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 80 points: a window over rows is at block t along the rows,
    a window over a whole array is at block 0. -/
theorem idx_facts2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 2) = t.val
    ∧ win2_5.index t (1 : Fin 2) = 0 :=
  (by decide +kernel : ∀ t : Fin grid2.N, _)

/-- Window 0's block at point t is rows 10000·t … 10000·t + 9999 of its array. -/
theorem blk2_0 (c : Dev nD) (t : Fin cfg2.N) (y : S10000x64.Idx) (i : S800000x64.Idx)
    (h0 : (i 0).val = t.val * 10000 + (y 0).val) (h1 : (i 1).val = (y 1).val) :
    (iblk2 (F := Ideal) V c 0 t : Vec Ideal S10000x64 .f32) y = (V c main_v12 : S800000x64.Idx → Elt Ideal .f32) i := by
  obtain ⟨e0, e1, -, -, -, -, -, -, -, -, -⟩ := idx_facts2 t
  unfold iblk2
  show (V c main_v12 : S800000x64.Idx → Elt Ideal .f32) (((cfg2.win 0).blk t).view.emb y) = _
  refine congrArg _ (funext fun a => Fin.ext ?_)
  match a with
  | ⟨0, _⟩ => show win2_0.index t (0 : Fin 2) * 10000 + 1 * (y 0).val = (i 0).val; omega
  | ⟨1, _⟩ => show win2_0.index t (1 : Fin 2) * 64 + 1 * (y 1).val = (i 1).val; omega

/-- Window 1's block at point t is rows 10000·t … 10000·t + 9999 of its array. -/
theorem blk2_1 (c : Dev nD) (t : Fin cfg2.N) (y : S10000x64.Idx) (i : S800000x64.Idx)
    (h0 : (i 0).val = t.val * 10000 + (y 0).val) (h1 : (i 1).val = (y 1).val) :
    (iblk2 (F := Ideal) V c 1 t : Vec Ideal S10000x64 .f32) y = (V c main_v1 : S800000x64.Idx → Elt Ideal .f32) i := by
  obtain ⟨-, -, e2, e3, -, -, -, -, -, -, -⟩ := idx_facts2 t
  unfold iblk2
  show (V c main_v1 : S800000x64.Idx → Elt Ideal .f32) (((cfg2.win 1).blk t).view.emb y) = _
  refine congrArg _ (funext fun a => Fin.ext ?_)
  match a with
  | ⟨0, _⟩ => show win2_1.index t (0 : Fin 2) * 10000 + 1 * (y 0).val = (i 0).val; omega
  | ⟨1, _⟩ => show win2_1.index t (1 : Fin 2) * 64 + 1 * (y 1).val = (i 1).val; omega

/-- Window 2's block at every point is its whole array. -/
theorem blk2_2 (c : Dev nD) (t : Fin cfg2.N) (y i : S64x64.Idx)
    (h0 : (i 0).val = (y 0).val) (h1 : (i 1).val = (y 1).val) :
    (iblk2 (F := Ideal) V c 2 t : Vec Ideal S64x64 .f32) y = (V c main_v14 : S64x64.Idx → Elt Ideal .f32) i := by
  obtain ⟨-, -, -, -, e4, e5, -, -, -, -, -⟩ := idx_facts2 t
  unfold iblk2
  show (V c main_v14 : S64x64.Idx → Elt Ideal .f32) (((cfg2.win 2).blk t).view.emb y) = _
  refine congrArg _ (funext fun a => Fin.ext ?_)
  match a with
  | ⟨0, _⟩ => show win2_2.index t (0 : Fin 2) * 64 + 1 * (y 0).val = (i 0).val; omega
  | ⟨1, _⟩ => show win2_2.index t (1 : Fin 2) * 64 + 1 * (y 1).val = (i 1).val; omega

/-- Window 3's block at every point is its whole array. -/
theorem blk2_3 (c : Dev nD) (t : Fin cfg2.N) (y i : S64x64.Idx)
    (h0 : (i 0).val = (y 0).val) (h1 : (i 1).val = (y 1).val) :
    (iblk2 (F := Ideal) V c 3 t : Vec Ideal S64x64 .f32) y = (V c main_v16 : S64x64.Idx → Elt Ideal .f32) i := by
  obtain ⟨-, -, -, -, -, -, e6, e7, -, -, -⟩ := idx_facts2 t
  unfold iblk2
  show (V c main_v16 : S64x64.Idx → Elt Ideal .f32) (((cfg2.win 3).blk t).view.emb y) = _
  refine congrArg _ (funext fun a => Fin.ext ?_)
  match a with
  | ⟨0, _⟩ => show win2_3.index t (0 : Fin 2) * 64 + 1 * (y 0).val = (i 0).val; omega
  | ⟨1, _⟩ => show win2_3.index t (1 : Fin 2) * 64 + 1 * (y 1).val = (i 1).val; omega

/-- Window 4's block at every point is its whole array. -/
theorem blk2_4 (c : Dev nD) (t : Fin cfg2.N) (y i : S64.Idx) (h0 : (i 0).val = (y 0).val) :
    (iblk2 (F := Ideal) V c 4 t : Vec Ideal S64 .f32) y = (V c main_v18 : S64.Idx → Elt Ideal .f32) i := by
  obtain ⟨-, -, -, -, -, -, -, -, e8, -, -⟩ := idx_facts2 t
  unfold iblk2
  show (V c main_v18 : S64.Idx → Elt Ideal .f32) (((cfg2.win 4).blk t).view.emb y) = _
  refine congrArg _ (funext fun a => Fin.ext ?_)
  match a with
  | ⟨0, _⟩ => show win2_4.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 10000·t + p
    (for a window over rows) or at the same place (for a window over a whole array). -/
theorem flushed2_eq (c : Dev nD) (t : Fin cfg2.N) :
    (dat2 (F := Ideal) V c).flushed 5 t
      = ((cfg2.win 5).blk t).view.read (Elt Ideal) (Cert.Gnn.dual (M := 800000) (V c main_v12) (V c main_v1) (V c main_v14) (V c main_v16) (V c main_v18)) := by
  show (cfg2.win 5).cut (grid2.coords t) ((dat2 V c).after 5 t) = _
  rw [after2_5]
  unfold out2_5
  rw [View.canon_unit_zero origin2]
  simp only [View.ld_unit_zero (S := S10000x64) origin2, View.ld_unit_zero (S := S64x64) origin2, View.ld_unit_zero (S := S64) origin1]
  obtain ⟨-, -, -, -, -, -, -, -, -, e9, e10⟩ := idx_facts2 t
  refine funext fun (j : S10000x64.Idx) => ?_
  obtain ⟨p, q, rfl⟩ : ∃ (p : Fin 10000) (q : Fin 64), j = ix2 p q := ⟨j 0, j 1, eq_ix2 j⟩
  show k2_pay1 (F := Ideal) (iblk2 V c 0 t) (iblk2 V c 2 t) (iblk2 V c 1 t) (iblk2 V c 3 t) (iblk2 V c 4 t) (ix2 p q)
      = Cert.Gnn.dual (M := 800000) (V c main_v12) (V c main_v1) (V c main_v14) (V c main_v16) (V c main_v18) (((cfg2.win 5).blk t).view.emb (ix2 p q))
  refine (pay2_at (iblk2 V c 0 t) (iblk2 V c 2 t) (iblk2 V c 1 t) (iblk2 V c 3 t) (iblk2 V c 4 t) p q).trans ?_
  refine dual_at (M := 800000) (V c main_v12) (V c main_v1) (V c main_v14) (V c main_v16) (V c main_v18) _ _ _ _ _ _ (fun k => ?_) (fun k => ?_) (fun k => ?_) (fun k => ?_) ?_
  · refine blk2_0 V c t _ _ ?_ rfl
    show win2_5.index t (0 : Fin 2) * 10000 + 1 * p.val = t.val * 10000 + p.val; omega
  · refine blk2_2 V c t _ _ rfl ?_
    show win2_5.index t (1 : Fin 2) * 64 + 1 * q.val = q.val; omega
  · refine blk2_1 V c t _ _ ?_ rfl
    show win2_5.index t (0 : Fin 2) * 10000 + 1 * p.val = t.val * 10000 + p.val; omega
  · refine blk2_3 V c t _ _ rfl ?_
    show win2_5.index t (1 : Fin 2) * 64 + 1 * q.val = q.val; omega
  · refine blk2_4 V c t _ _ ?_
    show win2_5.index t (1 : Fin 2) * 64 + 1 * q.val = q.val; omega

/-! ## The blocks tile the output -/

/-- An entry of the output array is in point t's block iff each coordinate is in the block's range on its axis. -/
theorem mem_blk2 (t : Fin cfg2.N) (i : S800000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v19).slice (win2_5.rect t)).set ↔ _
  rw [View.set_slice_whole, Rect.mem_set_unit]
  exact Iff.rfl

/-- Row r of the output is in the block of point r / 10000, and every point writes its block back. -/
theorem cover2 (i : S800000x64.Idx) :
    ∃ t : Fin cfg2.N, (cfg2.win 5).flush t = true ∧ i ∈ ((cfg2.win 5).blk t).view.set := by
  have hi0 : (i 0).val < 800000 := (i 0).isLt
  have hi1 : (i 1).val < 64 := (i 1).isLt
  have hN : grid2.N = 80 := N_2
  obtain ⟨t, ht⟩ : ∃ t : Fin cfg2.N, t.val = (i 0).val / 10000 :=
    ⟨⟨(i 0).val / 10000, by show _ < grid2.N; omega⟩, rfl⟩
  obtain ⟨-, -, -, -, -, -, -, -, -, e9, e10⟩ := idx_facts2 t
  refine ⟨t, flush2_5 t, ?_⟩
  rw [mem_blk2]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 64 ≤ (i 1).val ∧ (i 1).val < win2_5.index t (1 : Fin 2) * 64 + 64; omega

/-- The output array after launch 2, as one function of the arrays the launch finds. -/
theorem final2 (c : Dev nD) :
    (dat2 (F := Ideal) V c).arrAt 5 cfg2.N
      = Cert.Gnn.dual (M := 800000) (V c main_v12) (V c main_v1) (V c main_v14) (V c main_v16) (V c main_v18) :=
  (dat2 (F := Ideal) V c).arrAt_eq_of_cover 5 _ (fun t _ => flushed2_eq V c t) cover2

end Cert.KernelIdeal.Regions

end
-- ==== Proof.Reg3.lean ====
/-
  Launch 3 (the first layer's node update). Its grid has 10 points; point t reads rows 5000·t … 5000·t+4999 of
  the node states and of the summed messages, two whole 64×64 weight matrices and the whole bias, and writes the
  same rows of the output. Each written entry (r, j) is
  max((Σₖ a(r,k)·wa(k,j) + Σₖ b(r,k)·wb(k,j)) + bias(j), 0), and the 10 blocks tile the output.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 10 points: a window over rows is at block t along the rows,
    a window over a whole array is at block 0. -/
theorem idx_facts3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 1) = 0
    ∧ win3_5.index t (0 : Fin 2) = t.val
    ∧ win3_5.index t (1 : Fin 2) = 0 :=
  (by decide +kernel : ∀ t : Fin grid3.N, _)

/-- Window 0's block at point t is rows 5000·t … 5000·t + 4999 of its array. -/
theorem blk3_0 (c : Dev nD) (t : Fin cfg3.N) (y : S5000x64.Idx) (i : S50000x64.Idx)
    (h0 : (i 0).val = t.val * 5000 + (y 0).val) (h1 : (i 1).val = (y 1).val) :
    (iblk3 (F := Ideal) V c 0 t : Vec Ideal S5000x64 .f32) y = (V c main_v0 : S50000x64.Idx → Elt Ideal .f32) i := by
  obtain ⟨e0, e1, -, -, -, -, -, -, -, -, -⟩ := idx_facts3 t
  unfold iblk3
  show (V c main_v0 : S50000x64.Idx → Elt Ideal .f32) (((cfg3.win 0).blk t).view.emb y) = _
  refine congrArg _ (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- Window 1's block at point t is rows 5000·t … 5000·t + 4999 of its array. -/
theorem blk3_1 (c : Dev nD) (t : Fin cfg3.N) (y : S5000x64.Idx) (i : S50000x64.Idx)
    (h0 : (i 0).val = t.val * 5000 + (y 0).val) (h1 : (i 1).val = (y 1).val) :
    (iblk3 (F := Ideal) V c 1 t : Vec Ideal S5000x64 .f32) y = (V c main_v22 : S50000x64.Idx → Elt Ideal .f32) i := by
  obtain ⟨-, -, e2, e3, -, -, -, -, -, -, -⟩ := idx_facts3 t
  unfold iblk3
  show (V c main_v22 : S50000x64.Idx → Elt Ideal .f32) (((cfg3.win 1).blk t).view.emb y) = _
  refine congrArg _ (funext fun a => Fin.ext ?_)
  match a with
  | ⟨0, _⟩ => show win3_1.index t (0 : Fin 2) * 5000 + 1 * (y 0).val = (i 0).val; omega
  | ⟨1, _⟩ => show win3_1.index t (1 : Fin 2) * 64 + 1 * (y 1).val = (i 1).val; omega

/-- Window 2's block at every point is its whole array. -/
theorem blk3_2 (c : Dev nD) (t : Fin cfg3.N) (y i : S64x64.Idx)
    (h0 : (i 0).val = (y 0).val) (h1 : (i 1).val = (y 1).val) :
    (iblk3 (F := Ideal) V c 2 t : Vec Ideal S64x64 .f32) y = (V c main_v24 : S64x64.Idx → Elt Ideal .f32) i := by
  obtain ⟨-, -, -, -, e4, e5, -, -, -, -, -⟩ := idx_facts3 t
  unfold iblk3
  show (V c main_v24 : S64x64.Idx → Elt Ideal .f32) (((cfg3.win 2).blk t).view.emb y) = _
  refine congrArg _ (funext fun a => Fin.ext ?_)
  match a with
  | ⟨0, _⟩ => show win3_2.index t (0 : Fin 2) * 64 + 1 * (y 0).val = (i 0).val; omega
  | ⟨1, _⟩ => show win3_2.index t (1 : Fin 2) * 64 + 1 * (y 1).val = (i 1).val; omega

/-- Window 3's block at every point is its whole array. -/
theorem blk3_3 (c : Dev nD) (t : Fin cfg3.N) (y i : S64x64.Idx)
    (h0 : (i 0).val = (y 0).val) (h1 : (i 1).val = (y 1).val) :
    (iblk3 (F := Ideal) V c 3 t : Vec Ideal S64x64 .f32) y = (V c main_v26 : S64x64.Idx → Elt Ideal .f32) i := by
  obtain ⟨-, -, -, -, -, -, e6, e7, -, -, -⟩ := idx_facts3 t
  unfold iblk3
  show (V c main_v26 : S64x64.Idx → Elt Ideal .f32) (((cfg3.win 3).blk t).view.emb y) = _
  refine congrArg _ (funext fun a => Fin.ext ?_)
  match a with
  | ⟨0, _⟩ => show win3_3.index t (0 : Fin 2) * 64 + 1 * (y 0).val = (i 0).val; omega
  | ⟨1, _⟩ => show win3_3.index t (1 : Fin 2) * 64 + 1 * (y 1).val = (i 1).val; omega

/-- Window 4's block at every point is its whole array. -/
theorem blk3_4 (c : Dev nD) (t : Fin cfg3.N) (y i : S64.Idx) (h0 : (i 0).val = (y 0).val) :
    (iblk3 (F := Ideal) V c 4 t : Vec Ideal S64 .f32) y = (V c main_v28 : S64.Idx → Elt Ideal .f32) i := by
  obtain ⟨-, -, -, -, -, -, -, -, e8, -, -⟩ := idx_facts3 t
  unfold iblk3
  show (V c main_v28 : S64.Idx → Elt Ideal .f32) (((cfg3.win 4).blk t).view.emb y) = _
  refine congrArg _ (funext fun a => Fin.ext ?_)
  match a with
  | ⟨0, _⟩ => show win3_4.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 5000·t + p
    (for a window over rows) or at the same place (for a window over a whole array). -/
theorem flushed3_eq (c : Dev nD) (t : Fin cfg3.N) :
    (dat3 (F := Ideal) V c).flushed 5 t
      = ((cfg3.win 5).blk t).view.read (Elt Ideal) (Cert.Gnn.dual (M := 50000) (V c main_v0) (V c main_v22) (V c main_v24) (V c main_v26) (V c main_v28)) := by
  show (cfg3.win 5).cut (grid3.coords t) ((dat3 V c).after 5 t) = _
  rw [after3_5]
  unfold out3_5
  rw [View.canon_unit_zero origin2]
  simp only [View.ld_unit_zero (S := S5000x64) origin2, View.ld_unit_zero (S := S64x64) origin2, View.ld_unit_zero (S := S64) origin1]
  obtain ⟨-, -, -, -, -, -, -, -, -, e9, e10⟩ := idx_facts3 t
  refine funext fun (j : S5000x64.Idx) => ?_
  obtain ⟨p, q, rfl⟩ : ∃ (p : Fin 5000) (q : Fin 64), j = ix2 p q := ⟨j 0, j 1, eq_ix2 j⟩
  show k3_pay1 (F := Ideal) (iblk3 V c 0 t) (iblk3 V c 2 t) (iblk3 V c 1 t) (iblk3 V c 3 t) (iblk3 V c 4 t) (ix2 p q)
      = Cert.Gnn.dual (M := 50000) (V c main_v0) (V c main_v22) (V c main_v24) (V c main_v26) (V c main_v28) (((cfg3.win 5).blk t).view.emb (ix2 p q))
  refine (pay3_at (iblk3 V c 0 t) (iblk3 V c 2 t) (iblk3 V c 1 t) (iblk3 V c 3 t) (iblk3 V c 4 t) p q).trans ?_
  refine dual_at (M := 50000) (V c main_v0) (V c main_v22) (V c main_v24) (V c main_v26) (V c main_v28) _ _ _ _ _ _ (fun k => ?_) (fun k => ?_) (fun k => ?_) (fun k => ?_) ?_
  · refine blk3_0 V c t _ _ ?_ rfl
    show win3_5.index t (0 : Fin 2) * 5000 + 1 * p.val = t.val * 5000 + p.val; omega
  · refine blk3_2 V c t _ _ rfl ?_
    show win3_5.index t (1 : Fin 2) * 64 + 1 * q.val = q.val; omega
  · refine blk3_1 V c t _ _ ?_ rfl
    show win3_5.index t (0 : Fin 2) * 5000 + 1 * p.val = t.val * 5000 + p.val; omega
  · refine blk3_3 V c t _ _ rfl ?_
    show win3_5.index t (1 : Fin 2) * 64 + 1 * q.val = q.val; omega
  · refine blk3_4 V c t _ _ ?_
    show win3_5.index t (1 : Fin 2) * 64 + 1 * q.val = q.val; omega

/-! ## The blocks tile the output -/

/-- An entry of the output array is in point t's block iff each coordinate is in the block's range on its axis. -/
theorem mem_blk3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v29).slice (win3_5.rect t)).set ↔ _
  rw [View.set_slice_whole, Rect.mem_set_unit]
  exact Iff.rfl

/-- Row r of the output is in the block of point r / 5000, and every point writes its block back. -/
theorem cover3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : grid3.N = 10 := N_3
  obtain ⟨t, ht⟩ : ∃ t : Fin cfg3.N, t.val = (i 0).val / 5000 :=
    ⟨⟨(i 0).val / 5000, by show _ < grid3.N; omega⟩, rfl⟩
  obtain ⟨-, -, -, -, -, -, -, -, -, e9, e10⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 64 ≤ (i 1).val ∧ (i 1).val < win3_5.index t (1 : Fin 2) * 64 + 64; omega

/-- The output array after launch 3, as one function of the arrays the launch finds. -/
theorem final3 (c : Dev nD) :
    (dat3 (F := Ideal) V c).arrAt 5 cfg3.N
      = Cert.Gnn.dual (M := 50000) (V c main_v0) (V c main_v22) (V c main_v24) (V c main_v26) (V c main_v28) :=
  (dat3 (F := Ideal) V c).arrAt_eq_of_cover 5 _ (fun t _ => flushed3_eq V c t) cover3

end Cert.KernelIdeal.Regions

end
-- ==== Proof.Reg4.lean ====
/-
  Launch 4 (the second layer's messages): as launch 2, over the second layer's arrays.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 80 points: a window over rows is at block t along the rows,
    a window over a whole array is at block 0. -/
theorem idx_facts4 : ∀ t : Fin cfg4.N,
    win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 1) = 0
    ∧ win4_5.index t (0 : Fin 2) = t.val
    ∧ win4_5.index t (1 : Fin 2) = 0 :=
  (by decide +kernel : ∀ t : Fin grid4.N, _)

/-- Window 0's block at point t is rows 10000·t … 10000·t + 9999 of its array. -/
theorem blk4_0 (c : Dev nD) (t : Fin cfg4.N) (y : S10000x64.Idx) (i : S800000x64.Idx)
    (h0 : (i 0).val = t.val * 10000 + (y 0).val) (h1 : (i 1).val = (y 1).val) :
    (iblk4 (F := Ideal) V c 0 t : Vec Ideal S10000x64 .f32) y = (V c main_v36 : S800000x64.Idx → Elt Ideal .f32) i := by
  obtain ⟨e0, e1, -, -, -, -, -, -, -, -, -⟩ := idx_facts4 t
  unfold iblk4
  show (V c main_v36 : S800000x64.Idx → Elt Ideal .f32) (((cfg4.win 0).blk t).view.emb y) = _
  refine congrArg _ (funext fun a => Fin.ext ?_)
  match a with
  | ⟨0, _⟩ => show win4_0.index t (0 : Fin 2) * 10000 + 1 * (y 0).val = (i 0).val; omega
  | ⟨1, _⟩ => show win4_0.index t (1 : Fin 2) * 64 + 1 * (y 1).val = (i 1).val; omega

/-- Window 1's block at point t is rows 10000·t … 10000·t + 9999 of its array. -/
theorem blk4_1 (c : Dev nD) (t : Fin cfg4.N) (y : S10000x64.Idx) (i : S800000x64.Idx)
    (h0 : (i 0).val = t.val * 10000 + (y 0).val) (h1 : (i 1).val = (y 1).val) :
    (iblk4 (F := Ideal) V c 1 t : Vec Ideal S10000x64 .f32) y = (V c main_v1 : S800000x64.Idx → Elt Ideal .f32) i := by
  obtain ⟨-, -, e2, e3, -, -, -, -, -, -, -⟩ := idx_facts4 t
  unfold iblk4
  show (V c main_v1 : S800000x64.Idx → Elt Ideal .f32) (((cfg4.win 1).blk t).view.emb y) = _
  refine congrArg _ (funext fun a => Fin.ext ?_)
  match a with
  | ⟨0, _⟩ => show win4_1.index t (0 : Fin 2) * 10000 + 1 * (y 0).val = (i 0).val; omega
  | ⟨1, _⟩ => show win4_1.index t (1 : Fin 2) * 64 + 1 * (y 1).val = (i 1).val; omega

/-- Window 2's block at every point is its whole array. -/
theorem blk4_2 (c : Dev nD) (t : Fin cfg4.N) (y i : S64x64.Idx)
    (h0 : (i 0).val = (y 0).val) (h1 : (i 1).val = (y 1).val) :
    (iblk4 (F := Ideal) V c 2 t : Vec Ideal S64x64 .f32) y = (V c main_v38 : S64x64.Idx → Elt Ideal .f32) i := by
  obtain ⟨-, -, -, -, e4, e5, -, -, -, -, -⟩ := idx_facts4 t
  unfold iblk4
  show (V c main_v38 : S64x64.Idx → Elt Ideal .f32) (((cfg4.win 2).blk t).view.emb y) = _
  refine congrArg _ (funext fun a => Fin.ext ?_)
  match a with
  | ⟨0, _⟩ => show win4_2.index t (0 : Fin 2) * 64 + 1 * (y 0).val = (i 0).val; omega
  | ⟨1, _⟩ => show win4_2.index t (1 : Fin 2) * 64 + 1 * (y 1).val = (i 1).val; omega

/-- Window 3's block at every point is its whole array. -/
theorem blk4_3 (c : Dev nD) (t : Fin cfg4.N) (y i : S64x64.Idx)
    (h0 : (i 0).val = (y 0).val) (h1 : (i 1).val = (y 1).val) :
    (iblk4 (F := Ideal) V c 3 t : Vec Ideal S64x64 .f32) y = (V c main_v40 : S64x64.Idx → Elt Ideal .f32) i := by
  obtain ⟨-, -, -, -, -, -, e6, e7, -, -, -⟩ := idx_facts4 t
  unfold iblk4
  show (V c main_v40 : S64x64.Idx → Elt Ideal .f32) (((cfg4.win 3).blk t).view.emb y) = _
  refine congrArg _ (funext fun a => Fin.ext ?_)
  match a with
  | ⟨0, _⟩ => show win4_3.index t (0 : Fin 2) * 64 + 1 * (y 0).val = (i 0).val; omega
  | ⟨1, _⟩ => show win4_3.index t (1 : Fin 2) * 64 + 1 * (y 1).val = (i 1).val; omega

/-- Window 4's block at every point is its whole array. -/
theorem blk4_4 (c : Dev nD) (t : Fin cfg4.N) (y i : S64.Idx) (h0 : (i 0).val = (y 0).val) :
    (iblk4 (F := Ideal) V c 4 t : Vec Ideal S64 .f32) y = (V c main_v42 : S64.Idx → Elt Ideal .f32) i := by
  obtain ⟨-, -, -, -, -, -, -, -, e8, -, -⟩ := idx_facts4 t
  unfold iblk4
  show (V c main_v42 : S64.Idx → Elt Ideal .f32) (((cfg4.win 4).blk t).view.emb y) = _
  refine congrArg _ (funext fun a => Fin.ext ?_)
  match a with
  | ⟨0, _⟩ => show win4_4.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 10000·t + p
    (for a window over rows) or at the same place (for a window over a whole array). -/
theorem flushed4_eq (c : Dev nD) (t : Fin cfg4.N) :
    (dat4 (F := Ideal) V c).flushed 5 t
      = ((cfg4.win 5).blk t).view.read (Elt Ideal) (Cert.Gnn.dual (M := 800000) (V c main_v36) (V c main_v1) (V c main_v38) (V c main_v40) (V c main_v42)) := by
  show (cfg4.win 5).cut (grid4.coords t) ((dat4 V c).after 5 t) = _
  rw [after4_5]
  unfold out4_5
  rw [View.canon_unit_zero origin2]
  simp only [View.ld_unit_zero (S := S10000x64) origin2, View.ld_unit_zero (S := S64x64) origin2, View.ld_unit_zero (S := S64) origin1]
  obtain ⟨-, -, -, -, -, -, -, -, -, e9, e10⟩ := idx_facts4 t
  refine funext fun (j : S10000x64.Idx) => ?_
  obtain ⟨p, q, rfl⟩ : ∃ (p : Fin 10000) (q : Fin 64), j = ix2 p q := ⟨j 0, j 1, eq_ix2 j⟩
  show k4_pay1 (F := Ideal) (iblk4 V c 0 t) (iblk4 V c 2 t) (iblk4 V c 1 t) (iblk4 V c 3 t) (iblk4 V c 4 t) (ix2 p q)
      = Cert.Gnn.dual (M := 800000) (V c main_v36) (V c main_v1) (V c main_v38) (V c main_v40) (V c main_v42) (((cfg4.win 5).blk t).view.emb (ix2 p q))
  refine (pay4_at (iblk4 V c 0 t) (iblk4 V c 2 t) (iblk4 V c 1 t) (iblk4 V c 3 t) (iblk4 V c 4 t) p q).trans ?_
  refine dual_at (M := 800000) (V c main_v36) (V c main_v1) (V c main_v38) (V c main_v40) (V c main_v42) _ _ _ _ _ _ (fun k => ?_) (fun k => ?_) (fun k => ?_) (fun k => ?_) ?_
  · refine blk4_0 V c t _ _ ?_ rfl
    show win4_5.index t (0 : Fin 2) * 10000 + 1 * p.val = t.val * 10000 + p.val; omega
  · refine blk4_2 V c t _ _ rfl ?_
    show win4_5.index t (1 : Fin 2) * 64 + 1 * q.val = q.val; omega
  · refine blk4_1 V c t _ _ ?_ rfl
    show win4_5.index t (0 : Fin 2) * 10000 + 1 * p.val = t.val * 10000 + p.val; omega
  · refine blk4_3 V c t _ _ rfl ?_
    show win4_5.index t (1 : Fin 2) * 64 + 1 * q.val = q.val; omega
  · refine blk4_4 V c t _ _ ?_
    show win4_5.index t (1 : Fin 2) * 64 + 1 * q.val = q.val; omega

/-! ## The blocks tile the output -/

/-- An entry of the output array is in point t's block iff each coordinate is in the block's range on its axis. -/
theorem mem_blk4 (t : Fin cfg4.N) (i : S800000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v43).slice (win4_5.rect t)).set ↔ _
  rw [View.set_slice_whole, Rect.mem_set_unit]
  exact Iff.rfl

/-- Row r of the output is in the block of point r / 10000, and every point writes its block back. -/
theorem cover4 (i : S800000x64.Idx) :
    ∃ t : Fin cfg4.N, (cfg4.win 5).flush t = true ∧ i ∈ ((cfg4.win 5).blk t).view.set := by
  have hi0 : (i 0).val < 800000 := (i 0).isLt
  have hi1 : (i 1).val < 64 := (i 1).isLt
  have hN : grid4.N = 80 := N_4
  obtain ⟨t, ht⟩ : ∃ t : Fin cfg4.N, t.val = (i 0).val / 10000 :=
    ⟨⟨(i 0).val / 10000, by show _ < grid4.N; omega⟩, rfl⟩
  obtain ⟨-, -, -, -, -, -, -, -, -, e9, e10⟩ := idx_facts4 t
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 64 ≤ (i 1).val ∧ (i 1).val < win4_5.index t (1 : Fin 2) * 64 + 64; omega

/-- The output array after launch 4, as one function of the arrays the launch finds. -/
theorem final4 (c : Dev nD) :
    (dat4 (F := Ideal) V c).arrAt 5 cfg4.N
      = Cert.Gnn.dual (M := 800000) (V c main_v36) (V c main_v1) (V c main_v38) (V c main_v40) (V c main_v42) :=
  (dat4 (F := Ideal) V c).arrAt_eq_of_cover 5 _ (fun t _ => flushed4_eq V c t) cover4

end Cert.KernelIdeal.Regions

end
-- ==== Proof.Reg5.lean ====
/-
  Launch 5 (the second layer's node update): as launch 3, over the second layer's arrays.
-/
import proofs.«106089_j49452253447021_1_alg».proof.Proof.FrameKI
import proofs.«106089_j49452253447021_1_alg».proof.Proof.Spec
import proofs.«106089_j49452253447021_1_alg».proof.Proof.RegLib
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat Cfg Window)

-- the buffers' contents when the launch is entered: a parameter, as in the launch's own proof data
variable (V : (c : Dev nD) → (b : Ref sig .tc) → Buf (Elt Ideal) ((c : Thread nD τ).loc b))

/-! ## Where each window's block sits -/

/-- The block indices, decided once over the grid's 10 points: a window over rows is at block t along the rows,
    a window over a whole array is at block 0. -/
theorem idx_facts5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 1) = 0
    ∧ win5_5.index t (0 : Fin 2) = t.val
    ∧ win5_5.index t (1 : Fin 2) = 0 :=
  (by decide +kernel : ∀ t : Fin grid5.N, _)

/-- Window 0's block at point t is rows 5000·t … 5000·t + 4999 of its array. -/
theorem blk5_0 (c : Dev nD) (t : Fin cfg5.N) (y : S5000x64.Idx) (i : S50000x64.Idx)
    (h0 : (i 0).val = t.val * 5000 + (y 0).val) (h1 : (i 1).val = (y 1).val) :
    (iblk5 (F := Ideal) V c 0 t : Vec Ideal S5000x64 .f32) y = (V c main_v29 : S50000x64.Idx → Elt Ideal .f32) i := by
  obtain ⟨e0, e1, -, -, -, -, -, -, -, -, -⟩ := idx_facts5 t
  unfold iblk5
  show (V c main_v29 : S50000x64.Idx → Elt Ideal .f32) (((cfg5.win 0).blk t).view.emb y) = _
  refine congrArg _ (funext fun a => Fin.ext ?_)
  match a with
  | ⟨0, _⟩ => show win5_0.index t (0 : Fin 2) * 5000 + 1 * (y 0).val = (i 0).val; omega
  | ⟨1, _⟩ => show win5_0.index t (1 : Fin 2) * 64 + 1 * (y 1).val = (i 1).val; omega

/-- Window 1's block at point t is rows 5000·t … 5000·t + 4999 of its array. -/
theorem blk5_1 (c : Dev nD) (t : Fin cfg5.N) (y : S5000x64.Idx) (i : S50000x64.Idx)
    (h0 : (i 0).val = t.val * 5000 + (y 0).val) (h1 : (i 1).val = (y 1).val) :
    (iblk5 (F := Ideal) V c 1 t : Vec Ideal S5000x64 .f32) y = (V c main_v46 : S50000x64.Idx → Elt Ideal .f32) i := by
  obtain ⟨-, -, e2, e3, -, -, -, -, -, -, -⟩ := idx_facts5 t
  unfold iblk5
  show (V c main_v46 : S50000x64.Idx → Elt Ideal .f32) (((cfg5.win 1).blk t).view.emb y) = _
  refine congrArg _ (funext fun a => Fin.ext ?_)
  match a with
  | ⟨0, _⟩ => show win5_1.index t (0 : Fin 2) * 5000 + 1 * (y 0).val = (i 0).val; omega
  | ⟨1, _⟩ => show win5_1.index t (1 : Fin 2) * 64 + 1 * (y 1).val = (i 1).val; omega

/-- Window 2's block at every point is its whole array. -/
theorem blk5_2 (c : Dev nD) (t : Fin cfg5.N) (y i : S64x64.Idx)
    (h0 : (i 0).val = (y 0).val) (h1 : (i 1).val = (y 1).val) :
    (iblk5 (F := Ideal) V c 2 t : Vec Ideal S64x64 .f32) y = (V c main_v48 : S64x64.Idx → Elt Ideal .f32) i := by
  obtain ⟨-, -, -, -, e4, e5, -, -, -, -, -⟩ := idx_facts5 t
  unfold iblk5
  show (V c main_v48 : S64x64.Idx → Elt Ideal .f32) (((cfg5.win 2).blk t).view.emb y) = _
  refine congrArg _ (funext fun a => Fin.ext ?_)
  match a with
  | ⟨0, _⟩ => show win5_2.index t (0 : Fin 2) * 64 + 1 * (y 0).val = (i 0).val; omega
  | ⟨1, _⟩ => show win5_2.index t (1 : Fin 2) * 64 + 1 * (y 1).val = (i 1).val; omega

/-- Window 3's block at every point is its whole array. -/
theorem blk5_3 (c : Dev nD) (t : Fin cfg5.N) (y i : S64x64.Idx)
    (h0 : (i 0).val = (y 0).val) (h1 : (i 1).val = (y 1).val) :
    (iblk5 (F := Ideal) V c 3 t : Vec Ideal S64x64 .f32) y = (V c main_v50 : S64x64.Idx → Elt Ideal .f32) i := by
  obtain ⟨-, -, -, -, -, -, e6, e7, -, -, -⟩ := idx_facts5 t
  unfold iblk5
  show (V c main_v50 : S64x64.Idx → Elt Ideal .f32) (((cfg5.win 3).blk t).view.emb y) = _
  refine congrArg _ (funext fun a => Fin.ext ?_)
  match a with
  | ⟨0, _⟩ => show win5_3.index t (0 : Fin 2) * 64 + 1 * (y 0).val = (i 0).val; omega
  | ⟨1, _⟩ => show win5_3.index t (1 : Fin 2) * 64 + 1 * (y 1).val = (i 1).val; omega

/-- Window 4's block at every point is its whole array. -/
theorem blk5_4 (c : Dev nD) (t : Fin cfg5.N) (y i : S64.Idx) (h0 : (i 0).val = (y 0).val) :
    (iblk5 (F := Ideal) V c 4 t : Vec Ideal S64 .f32) y = (V c main_v52 : S64.Idx → Elt Ideal .f32) i := by
  obtain ⟨-, -, -, -, -, -, -, -, e8, -, -⟩ := idx_facts5 t
  unfold iblk5
  show (V c main_v52 : S64.Idx → Elt Ideal .f32) (((cfg5.win 4).blk t).view.emb y) = _
  refine congrArg _ (funext fun a => Fin.ext ?_)
  match a with
  | ⟨0, _⟩ => show win5_4.index t (0 : Fin 1) * 64 + 1 * (y 0).val = (i 0).val; omega

/-! ## What a point writes back -/

/-- Point t writes back block t of the layer's formula over the whole arrays: the body's stored entry (p, q) is the
    formula over the loaded blocks, and each loaded block's entry is the whole array's entry at row 5000·t + p
    (for a window over rows) or at the same place (for a window over a whole array). -/
theorem flushed5_eq (c : Dev nD) (t : Fin cfg5.N) :
    (dat5 (F := Ideal) V c).flushed 5 t
      = ((cfg5.win 5).blk t).view.read (Elt Ideal) (Cert.Gnn.dual (M := 50000) (V c main_v29) (V c main_v46) (V c main_v48) (V c main_v50) (V c main_v52)) := by
  show (cfg5.win 5).cut (grid5.coords t) ((dat5 V c).after 5 t) = _
  rw [after5_5]
  unfold out5_5
  rw [View.canon_unit_zero origin2]
  simp only [View.ld_unit_zero (S := S5000x64) origin2, View.ld_unit_zero (S := S64x64) origin2, View.ld_unit_zero (S := S64) origin1]
  obtain ⟨-, -, -, -, -, -, -, -, -, e9, e10⟩ := idx_facts5 t
  refine funext fun (j : S5000x64.Idx) => ?_
  obtain ⟨p, q, rfl⟩ : ∃ (p : Fin 5000) (q : Fin 64), j = ix2 p q := ⟨j 0, j 1, eq_ix2 j⟩
  show k5_pay1 (F := Ideal) (iblk5 V c 0 t) (iblk5 V c 2 t) (iblk5 V c 1 t) (iblk5 V c 3 t) (iblk5 V c 4 t) (ix2 p q)
      = Cert.Gnn.dual (M := 50000) (V c main_v29) (V c main_v46) (V c main_v48) (V c main_v50) (V c main_v52) (((cfg5.win 5).blk t).view.emb (ix2 p q))
  refine (pay5_at (iblk5 V c 0 t) (iblk5 V c 2 t) (iblk5 V c 1 t) (iblk5 V c 3 t) (iblk5 V c 4 t) p q).trans ?_
  refine dual_at (M := 50000) (V c main_v29) (V c main_v46) (V c main_v48) (V c main_v50) (V c main_v52) _ _ _ _ _ _ (fun k => ?_) (fun k => ?_) (fun k => ?_) (fun k => ?_) ?_
  · refine blk5_0 V c t _ _ ?_ rfl
    show win5_5.index t (0 : Fin 2) * 5000 + 1 * p.val = t.val * 5000 + p.val; omega
  · refine blk5_2 V c t _ _ rfl ?_
    show win5_5.index t (1 : Fin 2) * 64 + 1 * q.val = q.val; omega
  · refine blk5_1 V c t _ _ ?_ rfl
    show win5_5.index t (0 : Fin 2) * 5000 + 1 * p.val = t.val * 5000 + p.val; omega
  · refine blk5_3 V c t _ _ rfl ?_
    show win5_5.index t (1 : Fin 2) * 64 + 1 * q.val = q.val; omega
  · refine blk5_4 V c t _ _ ?_
    show win5_5.index t (1 : Fin 2) * 64 + 1 * q.val = q.val; omega

/-! ## The blocks tile the output -/

/-- An entry of the output array is in point t's block iff each coordinate is in the block's range on its axis. -/
theorem mem_blk5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v53).slice (win5_5.rect t)).set ↔ _
  rw [View.set_slice_whole, Rect.mem_set_unit]
  exact Iff.rfl

/-- Row r of the output is in the block of point r / 5000, and every point writes its block back. -/
theorem cover5 (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : grid5.N = 10 := N_5
  obtain ⟨t, ht⟩ : ∃ t : Fin cfg5.N, t.val = (i 0).val / 5000 :=
    ⟨⟨(i 0).val / 5000, by show _ < grid5.N; omega⟩, rfl⟩
  obtain ⟨-, -, -, -, -, -, -, -, -, e9, e10⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- The output array after launch 5, as one function of the arrays the launch finds. -/
theorem final5 (c : Dev nD) :
    (dat5 (F := Ideal) V c).arrAt 5 cfg5.N
      = Cert.Gnn.dual (M := 50000) (V c main_v29) (V c main_v46) (V c main_v48) (V c main_v50) (V c main_v52) :=
  (dat5 (F := Ideal) V c).arrAt_eq_of_cover 5 _ (fun t _ => flushed5_eq V c t) cover5

end Cert.KernelIdeal.Regions

end
-- ==== Proof.KWhole.lean ====
/-
  The kernel program's run with its result as the network function of the argument arrays: every weakly fair
  execution terminates, nothing faulting, with the result buffer at the network function (the chain through the
  ten boundaries, over what the six launches leave) and every argument array as launched.
-/
import proofs.«106089_j49452253447021_1_alg».proof.Proof.KRun
import proofs.«106089_j49452253447021_1_alg».proof.Proof.Chain
import proofs.«106089_j49452253447021_1_alg».proof.Proof.Reg0
import proofs.«106089_j49452253447021_1_alg».proof.Proof.Reg1
import proofs.«106089_j49452253447021_1_alg».proof.Proof.Reg2
import proofs.«106089_j49452253447021_1_alg».proof.Proof.Reg3
import proofs.«106089_j49452253447021_1_alg».proof.Proof.Reg4
import proofs.«106089_j49452253447021_1_alg».proof.Proof.Reg5

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem

/-- What the six launches leave, together. -/
theorem facts : Cert.KernelIdeal.Chain.RegionFacts :=
  ⟨Cert.KernelIdeal.Regions.final0, Cert.KernelIdeal.Regions.final1, Cert.KernelIdeal.Regions.final2,
   Cert.KernelIdeal.Regions.final3, Cert.KernelIdeal.Regions.final4, Cert.KernelIdeal.Regions.final5⟩

/-- The kernel program's run, its result named as the network function of the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53) = Cert.Gnn.net (N := 50000) (E := 800000) (Cert.KernelIdeal.Glue.pick (Cert.KernelIdeal.Chain.src m c)) (Cert.KernelIdeal.Glue.addUp (Cert.KernelIdeal.Chain.tgt m c))
        (Cert.KernelIdeal.Chain.A m c main_arg0) (Cert.KernelIdeal.Chain.A m c main_arg2) (Cert.KernelIdeal.Chain.A m c main_arg3) (Cert.KernelIdeal.Chain.A m c main_arg4) (Cert.KernelIdeal.Chain.A m c main_arg5) (Cert.KernelIdeal.Chain.A m c main_arg6) (Cert.KernelIdeal.Chain.A m c main_arg7) (Cert.KernelIdeal.Chain.A m c main_arg8) (Cert.KernelIdeal.Chain.A m c main_arg9) (Cert.KernelIdeal.Chain.A m c main_arg10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono
    (fun r h c => ⟨(h c).1.trans (Cert.KernelIdeal.Chain.result m ρ c facts), (h c).2⟩)
    (Cert.KernelIdeal.Named.run (F := Ideal) m ρ)

end Cert.KernelIdeal.Whole

end
-- ==== Proof.RefStages.lean ====
/-
  The reference program's six dense stages, each as one equation between whole arrays at the ideal instance
  (every float an extended real, every operation the exact one).

  Each stage of the reference is: a product of a row-indexed array with a weight matrix, plus a bias row
  repeated down the rows, clamped from below at the word of zero. Read at entry (r, j) this is
  max(Σₖ x(r,k)·w(k,j) + b(j), floor) — the specification's `lin`. In the four later stages the row-indexed
  array is two 64-column arrays laid side by side into 128 columns, and the weight matrix and the bias row
  are layer `l` cut out of a stack. Entry (r, k) of the side-by-side array is the first array's (r, k) for
  k < 64 and the second's (r, k − 64) for k ≥ 64, so the 128-term sum is the sum of the first array's 64
  terms against rows 0 … 63 of the layer's matrix plus the second array's 64 terms against rows 64 … 127 —
  the specification's `dual`. The one law used is that a sum over 128 terms is the sum over its first 64
  plus the sum over its last 64.
-/
import proofs.«106089_j49452253447021_1_alg».proof.ReferenceIdeal
import proofs.«106089_j49452253447021_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Facts₀ Idealize.ShloMosaic Idealize.ShloMosaic.ValueIdx

variable [Facts₀]

/-! ## Pieces that do not depend on the number of rows -/

/-- The clamp's floor: the zero word repeated over any shape reads the same extended real everywhere. -/
theorem floor_apply (t : Shape) (h : S_.BroadcastsInDim t (![] : Fin 0 → Fin t.rank)) (i : t.Idx) :
    broadcastInDim t ![] h (constant (F := Ideal) S_ .f32 0x00000000#32) i = Cert.Gnn.floor0 := by
  refine (broadcastInDim_apply _ h _ i ix0 (fun a => a.elim0)).trans ?_
  exact constant_apply _ _

/-- A row of 64 entries repeated down `M` rows reads, at (r, j), its entry j. -/
theorem rows_apply {α : Type} (M : Nat) (h : S1x64.BroadcastsInDim ⟨2, ![M, 64]⟩ (![0, 1] : Fin 2 → Fin 2))
    (y : S1x64.Idx → α) (p : Fin M) (q : Fin 64) :
    broadcastInDim ⟨2, ![M, 64]⟩ ![0, 1] h y (ix2 p q) = y (ix2 ⟨0, Nat.one_pos⟩ q) :=
  broadcastInDim_apply _ h y (ix2 p q) (ix2 ⟨0, Nat.one_pos⟩ q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector of 64 entries made into a one-row matrix reads, at (0, j), its entry j. -/
theorem row_apply {α : Type} (h : S64.BroadcastsInDim S1x64 (![1] : Fin 1 → Fin 2))
    (y : S64.Idx → α) (z : Fin 1) (q : Fin 64) :
    broadcastInDim S1x64 ![1] h y (ix2 z q) = y (ix1 q) :=
  broadcastInDim_apply _ h y (ix2 z q) (ix1 q) (fun a => match a with
    | ⟨0, _⟩ => by show q.val = if (64 : Nat) = 1 then 0 else q.val; rw [if_neg (by decide)])

/-- The bias of an encoder: the vector made into a row and repeated down the rows reads b(j) at (r, j). -/
theorem bias_apply {α : Type} (M : Nat) (h2 : S1x64.BroadcastsInDim ⟨2, ![M, 64]⟩ (![0, 1] : Fin 2 → Fin 2))
    (h1 : S64.BroadcastsInDim S1x64 (![1] : Fin 1 → Fin 2)) (b : S64.Idx → α) (p : Fin M) (q : Fin 64) :
    broadcastInDim ⟨2, ![M, 64]⟩ ![0, 1] h2 (broadcastInDim S1x64 ![1] h1 b) (ix2 p q) = b (ix1 q) :=
  (rows_apply M h2 _ p q).trans (row_apply h1 b _ q)

/-! ## The three products read at an entry -/

/-- The product of a 50000-row, 128-column array with a 128-row matrix, at (r, j): the sum over the 128 columns. -/
theorem dotN_apply (x : FVec Ideal S50000x128 .f32) (w : FVec Ideal S128x64 .f32) (p : Fin 50000) (q : Fin 64) :
    Host.dotGeneral dot_S50000x128_S128x64_S50000x64_1_0_0_1_n_n none x w (ix2 p q)
      = ∑ k : Fin 128, x (ix2 p k) * w (ix2 k q) := by
  have l0 : ∀ (i : (⟨2, ![50000, 64]⟩ : Shape).Idx) (c : dot_S50000x128_S128x64_S50000x64_1_0_0_1_n_n.contr.Idx), (dot_S50000x128_S128x64_S50000x64_1_0_0_1_n_n.lhsIdx i c 0).val = (i 0).val := fun i c => by
    unfold DotDims.lhsIdx
    rw [dif_neg (show ¬(0 : Fin S50000x128.rank) ∈ dot_S50000x128_S128x64_S50000x64_1_0_0_1_n_n.lhsBatch from List.not_mem_nil),
      dif_pos (show (0 : Fin S50000x128.rank) ∈ dot_S50000x128_S128x64_S50000x64_1_0_0_1_n_n.lhsNonContracting from List.mem_singleton.mpr rfl)]
    rfl
  have r1 : ∀ (i : (⟨2, ![50000, 64]⟩ : Shape).Idx) (c : dot_S50000x128_S128x64_S50000x64_1_0_0_1_n_n.contr.Idx), (dot_S50000x128_S128x64_S50000x64_1_0_0_1_n_n.rhsIdx i c 1).val = (i 1).val := fun i c => by
    unfold DotDims.rhsIdx
    rw [dif_neg (show ¬(1 : Fin S128x64.rank) ∈ dot_S50000x128_S128x64_S50000x64_1_0_0_1_n_n.rhsBatch from List.not_mem_nil),
      dif_pos (show (1 : Fin S128x64.rank) ∈ dot_S50000x128_S128x64_S50000x64_1_0_0_1_n_n.rhsNonContracting from List.mem_singleton.mpr rfl)]
    rfl
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have el : dot_S50000x128_S128x64_S50000x64_1_0_0_1_n_n.lhsIdx (ix2 p q) ((contrEquiv1 dot_S50000x128_S128x64_S50000x64_1_0_0_1_n_n 128 rfl rfl).symm k) = ix2 p k :=
    funext fun a => Fin.ext (by
      match a with
      | ⟨0, _⟩ => exact l0 _ _
      | ⟨1, _⟩ => exact (dot_S50000x128_S128x64_S50000x64_1_0_0_1_n_n.lhsIdx_val_of_single rfl _ _).trans hk)
  have er : dot_S50000x128_S128x64_S50000x64_1_0_0_1_n_n.rhsIdx (ix2 p q) ((contrEquiv1 dot_S50000x128_S128x64_S50000x64_1_0_0_1_n_n 128 rfl rfl).symm k) = ix2 k q :=
    funext fun a => Fin.ext (by
      match a with
      | ⟨0, _⟩ => exact (dot_S50000x128_S128x64_S50000x64_1_0_0_1_n_n.rhsIdx_val_of_single rfl _ _).trans hk
      | ⟨1, _⟩ => exact r1 _ _)
  rw [el, er]

/-- The product of an 800000-row, 64-column array with a 64-row matrix, at (r, j): the sum over the 64 columns. -/
theorem dotE64_apply (x : FVec Ideal S800000x64 .f32) (w : FVec Ideal S64x64 .f32) (p : Fin 800000) (q : Fin 64) :
    Host.dotGeneral dot_S800000x64_S64x64_S800000x64_1_0_0_1_n_n none x w (ix2 p q)
      = ∑ k : Fin 64, x (ix2 p k) * w (ix2 k q) := by
  have l0 : ∀ (i : (⟨2, ![800000, 64]⟩ : Shape).Idx) (c : dot_S800000x64_S64x64_S800000x64_1_0_0_1_n_n.contr.Idx), (dot_S800000x64_S64x64_S800000x64_1_0_0_1_n_n.lhsIdx i c 0).val = (i 0).val := fun i c => by
    unfold DotDims.lhsIdx
    rw [dif_neg (show ¬(0 : Fin S800000x64.rank) ∈ dot_S800000x64_S64x64_S800000x64_1_0_0_1_n_n.lhsBatch from List.not_mem_nil),
      dif_pos (show (0 : Fin S800000x64.rank) ∈ dot_S800000x64_S64x64_S800000x64_1_0_0_1_n_n.lhsNonContracting from List.mem_singleton.mpr rfl)]
    rfl
  have r1 : ∀ (i : (⟨2, ![800000, 64]⟩ : Shape).Idx) (c : dot_S800000x64_S64x64_S800000x64_1_0_0_1_n_n.contr.Idx), (dot_S800000x64_S64x64_S800000x64_1_0_0_1_n_n.rhsIdx i c 1).val = (i 1).val := fun i c => by
    unfold DotDims.rhsIdx
    rw [dif_neg (show ¬(1 : Fin S64x64.rank) ∈ dot_S800000x64_S64x64_S800000x64_1_0_0_1_n_n.rhsBatch from List.not_mem_nil),
      dif_pos (show (1 : Fin S64x64.rank) ∈ dot_S800000x64_S64x64_S800000x64_1_0_0_1_n_n.rhsNonContracting from List.mem_singleton.mpr rfl)]
    rfl
  simp only [Host.dotGeneral]
  rw [Ideal.dotGeneral_apply, ← Equiv.sum_comp (contrEquiv1 dot_S800000x64_S64x64_S800000x64_1_0_0_1_n_n 64 rfl rfl).symm]
  refine Finset.sum_congr rfl fun k _ => ?_
  have hk := contrEquiv1_symm_val dot_S800000x64_S64x64_S800000x64_1_0_0_1_n_n 64 rfl rfl k
  have el : dot_S800000x64_S64x64_S800000x64_1_0_0_1_n_n.lhsIdx (ix2 p q) ((contrEquiv1 dot_S800000x64_S64x64_S800000x64_1_0_0_1_n_n 64 rfl rfl).symm k) = ix2 p k :=
    funext fun a => Fin.ext (by
      match a with
      | ⟨0, _⟩ => exact l0 _ _
      | ⟨1, _⟩ => exact (dot_S800000x64_S64x64_S800000x64_1_0_0_1_n_n.lhsIdx_val_of_single rfl _ _).trans hk)
  have er : dot_S800000x64_S64x64_S800000x64_1_0_0_1_n_n.rhsIdx (ix2 p q) ((contrEquiv1 dot_S800000x64_S64x64_S800000x64_1_0_0_1_n_n 64 rfl rfl).symm k) = ix2 k q :=
    funext fun a => Fin.ext (by
      match a with
      | ⟨0, _⟩ => exact (dot_S800000x64_S64x64_S800000x64_1_0_0_1_n_n.rhsIdx_val_of_single rfl _ _).trans hk
      | ⟨1, _⟩ => exact r1 _ _)
  rw [el, er]

/-- The product of an 800000-row, 128-column array with a 128-row matrix, at (r, j): the sum over the 128 columns. -/
theorem dotE_apply (x : FVec Ideal S800000x128 .f32) (w : FVec Ideal S128x64 .f32) (p : Fin 800000) (q : Fin 64) :
    Host.dotGeneral dot_S800000x128_S128x64_S800000x64_1_0_0_1_n_n none x w (ix2 p q)
      = ∑ k : Fin 128, x (ix2 p k) * w (ix2 k q) := by
  have l0 : ∀ (i : (⟨2, ![800000, 64]⟩ : Shape).Idx) (c : dot_S800000x128_S128x64_S800000x64_1_0_0_1_n_n.contr.Idx), (dot_S800000x128_S128x64_S800000x64_1_0_0_1_n_n.lhsIdx i c 0).val = (i 0).val := fun i c => by
    unfold DotDims.lhsIdx
    rw [dif_neg (show ¬(0 : Fin S800000x128.rank) ∈ dot_S800000x128_S128x64_S800000x64_1_0_0_1_n_n.lhsBatch from List.not_mem_nil),
      dif_pos (show (0 : Fin S800000x128.rank) ∈ dot_S800000x128_S128x64_S800000x64_1_0_0_1_n_n.lhsNonContracting from List.mem_singleton.mpr rfl)]
    rfl
  have r1 : ∀ (i : (⟨2, ![800000, 64]⟩ : Shape).Idx) (c : dot_S800000x128_S128x64_S800000x64_1_0_0_1_n_n.contr.Idx), (dot_S800000x128_S128x64_S800000x64_1_0_0_1_n_n.rhsIdx i c 1).val = (i 1).val := fun i c => by
    unfold DotDims.rhsIdx
    rw [dif_neg (show ¬(1 : Fin S128x64.rank) ∈ dot_S800000x128_S128x64_S800000x64_1_0_0_1_n_n.rhsBatch from List.not_mem_nil),
      dif_pos (show (1 : Fin S128x64.rank) ∈ dot_S800000x128_S128x64_S800000x64_1_0_0_1_n_n.rhsNonContracting from List.mem_singleton.mpr rfl)]
    rfl
  simp only [Host.dotGeneral]
  rw [Ideal.dotGeneral_apply, ← Equiv.sum_comp (contrEquiv1 dot_S800000x128_S128x64_S800000x64_1_0_0_1_n_n 128 rfl rfl).symm]
  refine Finset.sum_congr rfl fun k _ => ?_
  have hk := contrEquiv1_symm_val dot_S800000x128_S128x64_S800000x64_1_0_0_1_n_n 128 rfl rfl k
  have el : dot_S800000x128_S128x64_S800000x64_1_0_0_1_n_n.lhsIdx (ix2 p q) ((contrEquiv1 dot_S800000x128_S128x64_S800000x64_1_0_0_1_n_n 128 rfl rfl).symm k) = ix2 p k :=
    funext fun a => Fin.ext (by
      match a with
      | ⟨0, _⟩ => exact l0 _ _
      | ⟨1, _⟩ => exact (dot_S800000x128_S128x64_S800000x64_1_0_0_1_n_n.lhsIdx_val_of_single rfl _ _).trans hk)
  have er : dot_S800000x128_S128x64_S800000x64_1_0_0_1_n_n.rhsIdx (ix2 p q) ((contrEquiv1 dot_S800000x128_S128x64_S800000x64_1_0_0_1_n_n 128 rfl rfl).symm k) = ix2 k q :=
    funext fun a => Fin.ext (by
      match a with
      | ⟨0, _⟩ => exact (dot_S800000x128_S128x64_S800000x64_1_0_0_1_n_n.rhsIdx_val_of_single rfl _ _).trans hk
      | ⟨1, _⟩ => exact r1 _ _)
  rw [el, er]

/-! ## Layer `l` of a stack, and two arrays side by side -/

/-- Layer `l` of the stack of weight matrices, cut out and read as a matrix: entry (k, j) is W(l, k, j). -/
theorem layerW_apply {α : Type} (W : S2x128x64.Idx → α) (l : Fin 2) (ln : Nat) (hln : l.val = ln)
    (h : S2x128x64.Slices ![ln, 0, 0] S1x128x64) (hc : S1x128x64.ShapeCasts S128x64) (k : Fin 128) (j : Fin 64) :
    shapeCast S128x64 (extractStridedSlice S1x128x64 ![ln, 0, 0] W h) hc (ix2 k j) = W (ix3 l k j) := by
  refine (shapeCast_apply _ hc (ix2 k j) (ix3 ⟨0, Nat.one_pos⟩ k j) ?_).trans ?_
  · rewrite [Shape.rowMajor_val_three, Shape.rowMajor_val_two]
    show (0 * 128 + k.val) * 64 + j.val = k.val * 64 + j.val
    omega
  · exact extractStridedSlice_apply ![ln, 0, 0] W h _ (ix3 l k j) (fun a => match a with
      | ⟨0, _⟩ => by show l.val = ln + 0; omega
      | ⟨1, _⟩ => by show k.val = 0 + k.val; omega
      | ⟨2, _⟩ => by show j.val = 0 + j.val; omega)

/-- Row `l` of the stack of bias vectors, cut out and read as a vector: entry j is B(l, j). -/
theorem layerB_apply {α : Type} (B : S2x64.Idx → α) (l : Fin 2) (ln : Nat) (hln : l.val = ln)
    (h : S2x64.Slices ![ln, 0] S1x64) (hc : S1x64.ShapeCasts S64) (q : Fin 64) :
    shapeCast S64 (extractStridedSlice S1x64 ![ln, 0] B h) hc (ix1 q) = B (ix2 l q) := by
  refine (shapeCast_apply _ hc (ix1 q) (ix2 ⟨0, Nat.one_pos⟩ q) ?_).trans ?_
  · rewrite [Shape.rowMajor_val_two, Shape.rowMajor_val_one]
    show 0 * 64 + q.val = q.val
    omega
  · exact extractStridedSlice_apply ![ln, 0] B h _ (ix2 l q) (fun a => match a with
      | ⟨0, _⟩ => by show l.val = ln + 0; omega
      | ⟨1, _⟩ => by show q.val = 0 + q.val; omega)

/-- Two 64-column arrays side by side: a column below 64 reads the first array at that column. -/
theorem cat_left {α : Type} (M : Nat) (a e : (⟨2, ![M, 64]⟩ : Shape).Idx → α)
    (h : Shape.Concatenates [(⟨2, ![M, 64]⟩ : Shape), ⟨2, ![M, 64]⟩] ⟨2, ![M, 128]⟩ 1) (p : Fin M) (k : Fin 64) :
    concatenate ⟨2, ![M, 128]⟩ 1 [⟨⟨2, ![M, 64]⟩, a⟩, ⟨⟨2, ![M, 64]⟩, e⟩] h (ix2 p ⟨k.val, by omega⟩) = a (ix2 p k) :=
  concatenate_pair_apply_left 1 a e h _ rfl (ix2 p k) (fun b => match b with
    | ⟨0, _⟩ => rfl
    | ⟨1, _⟩ => rfl)

/-- Two 64-column arrays side by side: a column 64 + k reads the second array at column k. -/
theorem cat_right {α : Type} (M : Nat) (a e : (⟨2, ![M, 64]⟩ : Shape).Idx → α)
    (h : Shape.Concatenates [(⟨2, ![M, 64]⟩ : Shape), ⟨2, ![M, 64]⟩] ⟨2, ![M, 128]⟩ 1) (p : Fin M) (k : Fin 64) :
    concatenate ⟨2, ![M, 128]⟩ 1 [⟨⟨2, ![M, 64]⟩, a⟩, ⟨⟨2, ![M, 64]⟩, e⟩] h (ix2 p ⟨k.val + 64, by omega⟩) = e (ix2 p k) :=
  concatenate_pair_apply_right 1 a e h _ rfl rfl (ix2 p k) (fun b hb => match b, hb with
    | ⟨0, _⟩, _ => rfl
    | ⟨1, _⟩, hb => absurd (Fin.ext rfl) hb) (by show k.val + 64 = k.val + 64; rfl)

/-- The 128-term sum of a two-input stage splits: the first array's 64 columns meet rows 0 … 63 of layer `l`,
    the second array's 64 columns meet rows 64 … 127. -/
theorem dual_sum {M : Nat} (a e : FVec Ideal ⟨2, ![M, 64]⟩ .f32)
    (h : Shape.Concatenates [(⟨2, ![M, 64]⟩ : Shape), ⟨2, ![M, 64]⟩] ⟨2, ![M, 128]⟩ 1)
    (V : FVec Ideal S128x64 .f32) (W : FVec Ideal S2x128x64 .f32) (l : Fin 2)
    (hV : ∀ (k : Fin 128) (j : Fin 64), V (ix2 k j) = W (ix3 l k j)) (p : Fin M) (q : Fin 64) :
    ∑ k : Fin 128, concatenate ⟨2, ![M, 128]⟩ 1 [⟨⟨2, ![M, 64]⟩, a⟩, ⟨⟨2, ![M, 64]⟩, e⟩] h (ix2 p k) * V (ix2 k q)
      = (∑ k : Fin 64, a (ix2 p k) * Cert.Gnn.wTop W l (ix2 k q))
        + ∑ k : Fin 64, e (ix2 p k) * Cert.Gnn.wBot W l (ix2 k q) := by
  rw [Cert.Gnn.sum_halves]
  refine congrArg₂ (· + ·) (Finset.sum_congr rfl fun k _ => ?_) (Finset.sum_congr rfl fun k _ => ?_)
  · rw [cat_left, hV]; rfl
  · rw [cat_right, hV]; rfl

/-! ## The two encoders -/

/-- The node encoder: the product plus the bias, clamped at the floor, is the specification's layer. -/
theorem linN (x : FVec Ideal S50000x128 .f32) (w : FVec Ideal S128x64 .f32) (b : FVec Ideal S64 .f32) :
    maximumf (addf (Host.dotGeneral dot_S50000x128_S128x64_S50000x64_1_0_0_1_n_n none x w)
        (broadcastInDim S50000x64 ![0, 1] bcast_S1x64_S50000x64_0_1 (broadcastInDim S1x64 ![1] bcast_S64_S1x64_1 b)))
      (broadcastInDim S50000x64 ![] bcast_S_S50000x64 (constant (F := Ideal) S_ .f32 0x00000000#32))
      = Cert.Gnn.lin (M := 50000) (K := 128) x w b := by
  funext i
  obtain ⟨p, q, rfl⟩ : ∃ p q, i = ix2 p q := ⟨i 0, i 1, eq_ix2 i⟩
  rw [maximumf_apply, addf_apply, dotN_apply, floor_apply, bias_apply]
  rfl

/-- The edge encoder: the product plus the bias, clamped at the floor, is the specification's layer. -/
theorem linE (x : FVec Ideal S800000x64 .f32) (w : FVec Ideal S64x64 .f32) (b : FVec Ideal S64 .f32) :
    maximumf (addf (Host.dotGeneral dot_S800000x64_S64x64_S800000x64_1_0_0_1_n_n none x w)
        (broadcastInDim S800000x64 ![0, 1] bcast_S1x64_S800000x64_0_1 (broadcastInDim S1x64 ![1] bcast_S64_S1x64_1 b)))
      (broadcastInDim S800000x64 ![] bcast_S_S800000x64 (constant (F := Ideal) S_ .f32 0x00000000#32))
      = Cert.Gnn.lin (M := 800000) (K := 64) x w b := by
  funext i
  obtain ⟨p, q, rfl⟩ : ∃ p q, i = ix2 p q := ⟨i 0, i 1, eq_ix2 i⟩
  rw [maximumf_apply, addf_apply, dotE64_apply, floor_apply, bias_apply]
  rfl

/-! ## The four two-input stages -/

/-- The first message stage: the gathered node rows beside the edge states, against layer 0 of the message weights. -/
theorem dualE0 (a e : FVec Ideal S800000x64 .f32) (W : FVec Ideal S2x128x64 .f32) (B : FVec Ideal S2x64 .f32) :
    maximumf (addf (Host.dotGeneral dot_S800000x128_S128x64_S800000x64_1_0_0_1_n_n none
          (concatenate S800000x128 1 [⟨S800000x64, a⟩, ⟨S800000x64, e⟩] concatenates_S800000x64_S800000x64_S800000x128_d1)
          (shapeCast _ (extractStridedSlice S1x128x64 ![0, 0, 0] W slices_S2x128x64_S1x128x64_0_0_0) shapeCasts_S1x128x64_S128x64))
        (broadcastInDim S800000x64 ![0, 1] bcast_S1x64_S800000x64_0_1 (broadcastInDim S1x64 ![1] bcast_S64_S1x64_1
          (shapeCast _ (extractStridedSlice S1x64 ![0, 0] B slices_S2x64_S1x64_0_0) shapeCasts_S1x64_S64))))
      (broadcastInDim S800000x64 ![] bcast_S_S800000x64 (constant (F := Ideal) S_ .f32 0x00000000#32))
      = Cert.Gnn.dual (M := 800000) a e (Cert.Gnn.wTop W 0) (Cert.Gnn.wBot W 0) (Cert.Gnn.bRow B 0) := by
  funext i
  obtain ⟨p, q, rfl⟩ : ∃ p q, i = ix2 p q := ⟨i 0, i 1, eq_ix2 i⟩
  rw [maximumf_apply, addf_apply, dotE_apply, floor_apply, bias_apply, layerB_apply B 0 0 rfl,
    dual_sum _ _ _ _ W 0 (fun k j => layerW_apply W 0 0 rfl _ _ k j)]
  rfl

/-- The second message stage: the same against layer 1 of the message weights. -/
theorem dualE1 (a e : FVec Ideal S800000x64 .f32) (W : FVec Ideal S2x128x64 .f32) (B : FVec Ideal S2x64 .f32) :
    maximumf (addf (Host.dotGeneral dot_S800000x128_S128x64_S800000x64_1_0_0_1_n_n none
          (concatenate S800000x128 1 [⟨S800000x64, a⟩, ⟨S800000x64, e⟩] concatenates_S800000x64_S800000x64_S800000x128_d1)
          (shapeCast _ (extractStridedSlice S1x128x64 ![1, 0, 0] W slices_S2x128x64_S1x128x64_1_0_0) shapeCasts_S1x128x64_S128x64))
        (broadcastInDim S800000x64 ![0, 1] bcast_S1x64_S800000x64_0_1 (broadcastInDim S1x64 ![1] bcast_S64_S1x64_1
          (shapeCast _ (extractStridedSlice S1x64 ![1, 0] B slices_S2x64_S1x64_1_0) shapeCasts_S1x64_S64))))
      (broadcastInDim S800000x64 ![] bcast_S_S800000x64 (constant (F := Ideal) S_ .f32 0x00000000#32))
      = Cert.Gnn.dual (M := 800000) a e (Cert.Gnn.wTop W 1) (Cert.Gnn.wBot W 1) (Cert.Gnn.bRow B 1) := by
  funext i
  obtain ⟨p, q, rfl⟩ : ∃ p q, i = ix2 p q := ⟨i 0, i 1, eq_ix2 i⟩
  rw [maximumf_apply, addf_apply, dotE_apply, floor_apply, bias_apply, layerB_apply B 1 1 rfl,
    dual_sum _ _ _ _ W 1 (fun k j => layerW_apply W 1 1 rfl _ _ k j)]
  rfl

/-- The first node update: the node states beside what each node received, against layer 0 of the update weights. -/
theorem dualN0 (a n : FVec Ideal S50000x64 .f32) (W : FVec Ideal S2x128x64 .f32) (B : FVec Ideal S2x64 .f32) :
    maximumf (addf (Host.dotGeneral dot_S50000x128_S128x64_S50000x64_1_0_0_1_n_n none
          (concatenate S50000x128 1 [⟨S50000x64, a⟩, ⟨S50000x64, n⟩] concatenates_S50000x64_S50000x64_S50000x128_d1)
          (shapeCast _ (extractStridedSlice S1x128x64 ![0, 0, 0] W slices_S2x128x64_S1x128x64_0_0_0) shapeCasts_S1x128x64_S128x64))
        (broadcastInDim S50000x64 ![0, 1] bcast_S1x64_S50000x64_0_1 (broadcastInDim S1x64 ![1] bcast_S64_S1x64_1
          (shapeCast _ (extractStridedSlice S1x64 ![0, 0] B slices_S2x64_S1x64_0_0) shapeCasts_S1x64_S64))))
      (broadcastInDim S50000x64 ![] bcast_S_S50000x64 (constant (F := Ideal) S_ .f32 0x00000000#32))
      = Cert.Gnn.dual (M := 50000) a n (Cert.Gnn.wTop W 0) (Cert.Gnn.wBot W 0) (Cert.Gnn.bRow B 0) := by
  funext i
  obtain ⟨p, q, rfl⟩ : ∃ p q, i = ix2 p q := ⟨i 0, i 1, eq_ix2 i⟩
  rw [maximumf_apply, addf_apply, dotN_apply, floor_apply, bias_apply, layerB_apply B 0 0 rfl,
    dual_sum _ _ _ _ W 0 (fun k j => layerW_apply W 0 0 rfl _ _ k j)]
  rfl

/-- The second node update: the same against layer 1 of the update weights. -/
theorem dualN1 (a n : FVec Ideal S50000x64 .f32) (W : FVec Ideal S2x128x64 .f32) (B : FVec Ideal S2x64 .f32) :
    maximumf (addf (Host.dotGeneral dot_S50000x128_S128x64_S50000x64_1_0_0_1_n_n none
          (concatenate S50000x128 1 [⟨S50000x64, a⟩, ⟨S50000x64, n⟩] concatenates_S50000x64_S50000x64_S50000x128_d1)
          (shapeCast _ (extractStridedSlice S1x128x64 ![1, 0, 0] W slices_S2x128x64_S1x128x64_1_0_0) shapeCasts_S1x128x64_S128x64))
        (broadcastInDim S50000x64 ![0, 1] bcast_S1x64_S50000x64_0_1 (broadcastInDim S1x64 ![1] bcast_S64_S1x64_1
          (shapeCast _ (extractStridedSlice S1x64 ![1, 0] B slices_S2x64_S1x64_1_0) shapeCasts_S1x64_S64))))
      (broadcastInDim S50000x64 ![] bcast_S_S50000x64 (constant (F := Ideal) S_ .f32 0x00000000#32))
      = Cert.Gnn.dual (M := 50000) a n (Cert.Gnn.wTop W 1) (Cert.Gnn.wBot W 1) (Cert.Gnn.bRow B 1) := by
  funext i
  obtain ⟨p, q, rfl⟩ : ∃ p q, i = ix2 p q := ⟨i 0, i 1, eq_ix2 i⟩
  rw [maximumf_apply, addf_apply, dotN_apply, floor_apply, bias_apply, layerB_apply B 1 1 rfl,
    dual_sum _ _ _ _ W 1 (fun k j => layerW_apply W 1 1 rfl _ _ k j)]
  rfl

end Cert.ReferenceIdeal.Stages

end
-- ==== Proof.RefRun.lean ====
/-
  The reference program's run, read back as the specification's network.

  The program is a straight line of 92 host operations. Its buffers after the line are the fold of the
  operations' results over the launch contents. The line is cut into five consecutive pieces — the two
  encoders with the two index rows; the first layer's messages; the first layer's adding-up and node update;
  the second layer's messages; the second layer's adding-up and node update — and the fold over the whole line
  is the composition of the folds over the pieces. Each piece is read over an arbitrary valuation: the one
  buffer it contributes is a dense stage applied to the buffers it reads (one of the six stage equations turns
  it into the specification's `lin` or `dual`), and every buffer it does not write is kept. Chaining the five
  pieces from the launch contents gives the specification's network of the arguments, with the program's own
  row-picking and row-adding maps for the two parameters; the argument buffers are kept throughout.
-/
import proofs.«106089_j49452253447021_1_alg».proof.Proof.Gen.ReferenceIdeal
import proofs.«106089_j49452253447021_1_alg».proof.Proof.RefStages
import proofs.«106089_j49452253447021_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The line of operations, whole and in five pieces -/

/-- The program's 92 operations, in order (a called function's operations stand in its call's place). -/
abbrev ops : List (HloOp τ sig (Elt F)) :=
  [ binary main_arg0 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v3) (TRef.of (T := ⟨S50000x64, .f32⟩) main_call0_v0) (TRef.of (T := ⟨S50000x64, .f32⟩) main_v4) maximumf,
    binary main_arg2 main_arg5 main_v5 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S800000x64 ![0, 1] bcast_S1x64_S800000x64_0_1 : (⟨S1x64, .f32⟩ : BufTy).Contents (Elt F) → (⟨S800000x64, .f32⟩ : BufTy).Contents (Elt F)),
    binary main_v5 main_v7 main_v8 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v8) (TRef.of (T := ⟨S800000x64, .f32⟩) main_call1_v0) (TRef.of (T := ⟨S800000x64, .f32⟩) main_v9) maximumf,
    unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    reshape main_v10 main_v11 rfl shapeCasts_S1x800000_S800000,
    unary main_arg1 main_v12 ((extractStridedSlice S1x800000 ![1, 0] · slices_S2x800000_S1x800000_1_0) : (⟨S2x800000, .i32⟩ : BufTy).Contents (Elt F) → (⟨S1x800000, .i32⟩ : BufTy).Contents (Elt F)),
    reshape main_v12 main_v13 rfl shapeCasts_S1x800000_S800000,
    nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v11 main_v14 main_v15 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v16 (broadcastInDim S800000 ![] bcast_S_S800000 : (⟨S_, .i32⟩ : BufTy).Contents (Elt F) → (⟨S800000, .i32⟩ : BufTy).Contents (Elt F)),
    binary main_v11 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v11 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v4 main_v19 main_v20 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v20 main_v9 main_v21 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v22 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v22 main_v23 rfl shapeCasts_S1x128x64_S128x64,
    binary main_v21 main_v23 main_v24 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v25 ((extractStridedSlice S1x64 ![0, 0] · slices_S2x64_S1x64_0_0) : (⟨S2x64, .f32⟩ : BufTy).Contents (Elt F) → (⟨S1x64, .f32⟩ : BufTy).Contents (Elt F)),
    reshape main_v25 main_v26 rfl shapeCasts_S1x64_S64,
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S800000x64 ![0, 1] bcast_S1x64_S800000x64_0_1 : (⟨S1x64, .f32⟩ : BufTy).Contents (Elt F) → (⟨S800000x64, .f32⟩ : BufTy).Contents (Elt F)),
    binary main_v24 main_v28 main_v29 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v29) (TRef.of (T := ⟨S800000x64, .f32⟩) main_call2_v0) (TRef.of (T := ⟨S800000x64, .f32⟩) main_v30) maximumf,
    nullary main_cst (constant S_ .f32 0x00000000#32),
    unary main_cst main_v31 (broadcastInDim S50000x64 ![] bcast_S_S50000x64 : (⟨S_, .f32⟩ : BufTy).Contents (Elt F) → (⟨S50000x64, .f32⟩ : BufTy).Contents (Elt F)),
    unary main_v13 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v4 main_v33 main_v34 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v35 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v35 main_v36 rfl shapeCasts_S1x128x64_S128x64,
    binary main_v34 main_v36 main_v37 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v38 ((extractStridedSlice S1x64 ![0, 0] · slices_S2x64_S1x64_0_0) : (⟨S2x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v37 main_v41 main_v42 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v42) (TRef.of (T := ⟨S50000x64, .f32⟩) main_call3_v0) (TRef.of (T := ⟨S50000x64, .f32⟩) main_v43) maximumf,
    nullary main_c_1 (constantI S_ 32 0#32),
    unary main_c_1 main_v44 (broadcastInDim S800000 ![] bcast_S_S800000 : (⟨S_, .i32⟩ : BufTy).Contents (Elt F) → (⟨S800000, .i32⟩ : BufTy).Contents (Elt F)),
    binary main_v11 main_v44 main_v45 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v46 (broadcastInDim S800000 ![] bcast_S_S800000 : (⟨S_, .i32⟩ : BufTy).Contents (Elt F) → (⟨S800000, .i32⟩ : BufTy).Contents (Elt F)),
    binary main_v11 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v11 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v50 main_v9 main_v51 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v52 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v52 main_v53 rfl shapeCasts_S1x128x64_S128x64,
    binary main_v51 main_v53 main_v54 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v55 ((extractStridedSlice S1x64 ![1, 0] · slices_S2x64_S1x64_1_0) : (⟨S2x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S800000x64 ![0, 1] bcast_S1x64_S800000x64_0_1 : (⟨S1x64, .f32⟩ : BufTy).Contents (Elt F) → (⟨S800000x64, .f32⟩ : BufTy).Contents (Elt F)),
    binary main_v54 main_v58 main_v59 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v59) (TRef.of (T := ⟨S800000x64, .f32⟩) main_call4_v0) (TRef.of (T := ⟨S800000x64, .f32⟩) main_v60) maximumf,
    nullary main_cst_3 (constant S_ .f32 0x00000000#32),
    unary main_cst_3 main_v61 (broadcastInDim S50000x64 ![] bcast_S_S50000x64 : (⟨S_, .f32⟩ : BufTy).Contents (Elt F) → (⟨S50000x64, .f32⟩ : BufTy).Contents (Elt F)),
    unary main_v13 main_v62 (broadcastInDim S800000x1 ![0] bcast_S800000_S800000x1_0 : (⟨S800000, .i32⟩ : BufTy).Contents (Elt F) → (⟨S800000x1, .i32⟩ : BufTy).Contents (Elt F)),
    ternary main_v61 main_v62 main_v60 main_v63 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v43 main_v63 main_v64 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v65 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v65 main_v66 rfl shapeCasts_S1x128x64_S128x64,
    binary main_v64 main_v66 main_v67 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v68 ((extractStridedSlice S1x64 ![1, 0] · slices_S2x64_S1x64_1_0) : (⟨S2x64, .f32⟩ : BufTy).Contents (Elt F) → (⟨S1x64, .f32⟩ : BufTy).Contents (Elt F)),
    reshape main_v68 main_v69 rfl shapeCasts_S1x64_S64,
    unary main_v69 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v67 main_v71 main_v72 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v72) (TRef.of (T := ⟨S50000x64, .f32⟩) main_call5_v0) (TRef.of (T := ⟨S50000x64, .f32⟩) main_v73) maximumf ]

/-- Piece 1 of the line: operations 1 to 18. -/
abbrev c1 : List (HloOp τ sig (Elt F)) :=
  [ binary main_arg0 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v3) (TRef.of (T := ⟨S50000x64, .f32⟩) main_call0_v0) (TRef.of (T := ⟨S50000x64, .f32⟩) main_v4) maximumf,
    binary main_arg2 main_arg5 main_v5 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S800000x64 ![0, 1] bcast_S1x64_S800000x64_0_1 : (⟨S1x64, .f32⟩ : BufTy).Contents (Elt F) → (⟨S800000x64, .f32⟩ : BufTy).Contents (Elt F)),
    binary main_v5 main_v7 main_v8 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v8) (TRef.of (T := ⟨S800000x64, .f32⟩) main_call1_v0) (TRef.of (T := ⟨S800000x64, .f32⟩) main_v9) maximumf,
    unary main_arg1 main_v10 ((extractStridedSlice S1x800000 ![0, 0] · slices_S2x800000_S1x800000_0_0) : (⟨S2x800000, .i32⟩ : BufTy).Contents (Elt F) → (⟨S1x800000, .i32⟩ : BufTy).Contents (Elt F)),
    reshape main_v10 main_v11 rfl shapeCasts_S1x800000_S800000,
    unary main_arg1 main_v12 ((extractStridedSlice S1x800000 ![1, 0] · slices_S2x800000_S1x800000_1_0) : (⟨S2x800000, .i32⟩ : BufTy).Contents (Elt F) → (⟨S1x800000, .i32⟩ : BufTy).Contents (Elt F)),
    reshape main_v12 main_v13 rfl shapeCasts_S1x800000_S800000 ]

/-- Piece 2 of the line: operations 19 to 39. -/
abbrev c2 : List (HloOp τ sig (Elt F)) :=
  [ nullary main_c (constantI S_ 32 0#32),
    unary main_c main_v14 (broadcastInDim S800000 ![] bcast_S_S800000 : (⟨S_, .i32⟩ : BufTy).Contents (Elt F) → (⟨S800000, .i32⟩ : BufTy).Contents (Elt F)),
    binary main_v11 main_v14 main_v15 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v16 (broadcastInDim S800000 ![] bcast_S_S800000 : (⟨S_, .i32⟩ : BufTy).Contents (Elt F) → (⟨S800000, .i32⟩ : BufTy).Contents (Elt F)),
    binary main_v11 main_v16 main_v17 (addi : (⟨S800000, .i32⟩ : BufTy).Contents (Elt F) → (⟨S800000, .i32⟩ : BufTy).Contents (Elt F) → (⟨S800000, .i32⟩ : BufTy).Contents (Elt F)),
    ternary main_v15 main_v17 main_v11 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v18 main_v19 (broadcastInDim S800000x1 ![0] bcast_S800000_S800000x1_0 : (⟨S800000, .i32⟩ : BufTy).Contents (Elt F) → (⟨S800000x1, .i32⟩ : BufTy).Contents (Elt F)),
    binary main_v4 main_v19 main_v20 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v20 main_v9 main_v21 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v22 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v22 main_v23 rfl shapeCasts_S1x128x64_S128x64,
    binary main_v21 main_v23 main_v24 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v25 ((extractStridedSlice S1x64 ![0, 0] · slices_S2x64_S1x64_0_0) : (⟨S2x64, .f32⟩ : BufTy).Contents (Elt F) → (⟨S1x64, .f32⟩ : BufTy).Contents (Elt F)),
    reshape main_v25 main_v26 rfl shapeCasts_S1x64_S64,
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S800000x64 ![0, 1] bcast_S1x64_S800000x64_0_1 : (⟨S1x64, .f32⟩ : BufTy).Contents (Elt F) → (⟨S800000x64, .f32⟩ : BufTy).Contents (Elt F)),
    binary main_v24 main_v28 main_v29 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S800000x64, .f32⟩) main_call2_v0) (broadcastInDim S800000x64 ![] bcast_S_S800000x64),
    TRef.binary (TRef.of (T := ⟨S800000x64, .f32⟩) main_v29) (TRef.of (T := ⟨S800000x64, .f32⟩) main_call2_v0) (TRef.of (T := ⟨S800000x64, .f32⟩) main_v30) maximumf ]

/-- Piece 3 of the line: operations 40 to 55. -/
abbrev c3 : List (HloOp τ sig (Elt F)) :=
  [ nullary main_cst (constant S_ .f32 0x00000000#32),
    unary main_cst main_v31 (broadcastInDim S50000x64 ![] bcast_S_S50000x64 : (⟨S_, .f32⟩ : BufTy).Contents (Elt F) → (⟨S50000x64, .f32⟩ : BufTy).Contents (Elt F)),
    unary main_v13 main_v32 (broadcastInDim S800000x1 ![0] bcast_S800000_S800000x1_0 : (⟨S800000, .i32⟩ : BufTy).Contents (Elt F) → (⟨S800000x1, .i32⟩ : BufTy).Contents (Elt F)),
    ternary main_v31 main_v32 main_v30 main_v33 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v4 main_v33 main_v34 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v35 ((extractStridedSlice S1x128x64 ![0, 0, 0] · slices_S2x128x64_S1x128x64_0_0_0) : (⟨S2x128x64, .f32⟩ : BufTy).Contents (Elt F) → (⟨S1x128x64, .f32⟩ : BufTy).Contents (Elt F)),
    reshape main_v35 main_v36 rfl shapeCasts_S1x128x64_S128x64,
    binary main_v34 main_v36 main_v37 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v38 ((extractStridedSlice S1x64 ![0, 0] · slices_S2x64_S1x64_0_0) : (⟨S2x64, .f32⟩ : BufTy).Contents (Elt F) → (⟨S1x64, .f32⟩ : BufTy).Contents (Elt F)),
    reshape main_v38 main_v39 rfl shapeCasts_S1x64_S64,
    unary main_v39 main_v40 (broadcastInDim S1x64 ![1] bcast_S64_S1x64_1 : (⟨S64, .f32⟩ : BufTy).Contents (Elt F) → (⟨S1x64, .f32⟩ : BufTy).Contents (Elt F)),
    unary main_v40 main_v41 (broadcastInDim S50000x64 ![0, 1] bcast_S1x64_S50000x64_0_1 : (⟨S1x64, .f32⟩ : BufTy).Contents (Elt F) → (⟨S50000x64, .f32⟩ : BufTy).Contents (Elt F)),
    binary main_v37 main_v41 main_v42 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v42) (TRef.of (T := ⟨S50000x64, .f32⟩) main_call3_v0) (TRef.of (T := ⟨S50000x64, .f32⟩) main_v43) maximumf ]

/-- Piece 4 of the line: operations 56 to 76. -/
abbrev c4 : List (HloOp τ sig (Elt F)) :=
  [ nullary main_c_1 (constantI S_ 32 0#32),
    unary main_c_1 main_v44 (broadcastInDim S800000 ![] bcast_S_S800000 : (⟨S_, .i32⟩ : BufTy).Contents (Elt F) → (⟨S800000, .i32⟩ : BufTy).Contents (Elt F)),
    binary main_v11 main_v44 main_v45 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v46 (broadcastInDim S800000 ![] bcast_S_S800000 : (⟨S_, .i32⟩ : BufTy).Contents (Elt F) → (⟨S800000, .i32⟩ : BufTy).Contents (Elt F)),
    binary main_v11 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v11 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v43 main_v49 main_v50 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v50 main_v9 main_v51 ((fun a b => concatenate S800000x128 1 [⟨S800000x64, a⟩, ⟨S800000x64, b⟩] concatenates_S800000x64_S800000x64_S800000x128_d1) : (⟨S800000x64, .f32⟩ : BufTy).Contents (Elt F) → (⟨S800000x64, .f32⟩ : BufTy).Contents (Elt F) → (⟨S800000x128, .f32⟩ : BufTy).Contents (Elt F)),
    unary main_arg7 main_v52 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v52 main_v53 rfl shapeCasts_S1x128x64_S128x64,
    binary main_v51 main_v53 main_v54 ((fun l r => Host.dotGeneral dot_S800000x128_S128x64_S800000x64_1_0_0_1_n_n none l r) : (⟨S800000x128, .f32⟩ : BufTy).Contents (Elt F) → (⟨S128x64, .f32⟩ : BufTy).Contents (Elt F) → (⟨S800000x64, .f32⟩ : BufTy).Contents (Elt F)),
    unary main_arg8 main_v55 ((extractStridedSlice S1x64 ![1, 0] · slices_S2x64_S1x64_1_0) : (⟨S2x64, .f32⟩ : BufTy).Contents (Elt F) → (⟨S1x64, .f32⟩ : BufTy).Contents (Elt F)),
    reshape main_v55 main_v56 rfl shapeCasts_S1x64_S64,
    unary main_v56 main_v57 (broadcastInDim S1x64 ![1] bcast_S64_S1x64_1 : (⟨S64, .f32⟩ : BufTy).Contents (Elt F) → (⟨S1x64, .f32⟩ : BufTy).Contents (Elt F)),
    unary main_v57 main_v58 (broadcastInDim S800000x64 ![0, 1] bcast_S1x64_S800000x64_0_1 : (⟨S1x64, .f32⟩ : BufTy).Contents (Elt F) → (⟨S800000x64, .f32⟩ : BufTy).Contents (Elt F)),
    binary main_v54 main_v58 main_v59 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S800000x64, .f32⟩) main_call4_v0) (broadcastInDim S800000x64 ![] bcast_S_S800000x64),
    TRef.binary (TRef.of (T := ⟨S800000x64, .f32⟩) main_v59) (TRef.of (T := ⟨S800000x64, .f32⟩) main_call4_v0) (TRef.of (T := ⟨S800000x64, .f32⟩) main_v60) maximumf ]

/-- Piece 5 of the line: operations 77 to 92. -/
abbrev c5 : List (HloOp τ sig (Elt F)) :=
  [ nullary main_cst_3 (constant S_ .f32 0x00000000#32),
    unary main_cst_3 main_v61 (broadcastInDim S50000x64 ![] bcast_S_S50000x64 : (⟨S_, .f32⟩ : BufTy).Contents (Elt F) → (⟨S50000x64, .f32⟩ : BufTy).Contents (Elt F)),
    unary main_v13 main_v62 (broadcastInDim S800000x1 ![0] bcast_S800000_S800000x1_0 : (⟨S800000, .i32⟩ : BufTy).Contents (Elt F) → (⟨S800000x1, .i32⟩ : BufTy).Contents (Elt F)),
    ternary main_v61 main_v62 main_v60 main_v63 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v43 main_v63 main_v64 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg9 main_v65 ((extractStridedSlice S1x128x64 ![1, 0, 0] · slices_S2x128x64_S1x128x64_1_0_0) : (⟨S2x128x64, .f32⟩ : BufTy).Contents (Elt F) → (⟨S1x128x64, .f32⟩ : BufTy).Contents (Elt F)),
    reshape main_v65 main_v66 rfl shapeCasts_S1x128x64_S128x64,
    binary main_v64 main_v66 main_v67 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg10 main_v68 ((extractStridedSlice S1x64 ![1, 0] · slices_S2x64_S1x64_1_0) : (⟨S2x64, .f32⟩ : BufTy).Contents (Elt F) → (⟨S1x64, .f32⟩ : BufTy).Contents (Elt F)),
    reshape main_v68 main_v69 rfl shapeCasts_S1x64_S64,
    unary main_v69 main_v70 (broadcastInDim S1x64 ![1] bcast_S64_S1x64_1 : (⟨S64, .f32⟩ : BufTy).Contents (Elt F) → (⟨S1x64, .f32⟩ : BufTy).Contents (Elt F)),
    unary main_v70 main_v71 (broadcastInDim S50000x64 ![0, 1] bcast_S1x64_S50000x64_0_1 : (⟨S1x64, .f32⟩ : BufTy).Contents (Elt F) → (⟨S50000x64, .f32⟩ : BufTy).Contents (Elt F)),
    binary main_v67 main_v71 main_v72 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x64, .f32⟩) main_call5_v0) (broadcastInDim S50000x64 ![] bcast_S_S50000x64),
    TRef.binary (TRef.of (T := ⟨S50000x64, .f32⟩) main_v72) (TRef.of (T := ⟨S50000x64, .f32⟩) main_call5_v0) (TRef.of (T := ⟨S50000x64, .f32⟩) main_v73) maximumf ]

/-- The line is its five pieces in order. -/
theorem ops_split : (ops : List (HloOp τ sig (Elt F))) = c1 ++ (c2 ++ (c3 ++ (c4 ++ c5))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

/-- The fold over two lines one after the other is the fold over the second of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The fold over the whole line is the five pieces' folds composed. -/
theorem after_ops (V : Valuation τ sig (Elt F)) :
    after ops V = after c5 (after c4 (after c3 (after c2 (after c1 V)))) := by
  rw [ops_split, after_append, after_append, after_append, after_append]

/-- Every weakly fair execution of the program terminates with every buffer at the fold of the operations'
    results over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The program's row-picking and row-adding maps -/

/-- Row 0 of the index array: for every edge, the node whose state it reads. -/
def row0 (x1 : IVec S2x800000 32) : IVec S800000 32 :=
  shapeCast _ (extractStridedSlice S1x800000 ![0, 0] x1 slices_S2x800000_S1x800000_0_0) shapeCasts_S1x800000_S800000

/-- Row 1 of the index array: for every edge, the node its message is added to. -/
def row1 (x1 : IVec S2x800000 32) : IVec S800000 32 :=
  shapeCast _ (extractStridedSlice S1x800000 ![1, 0] x1 slices_S2x800000_S1x800000_1_0) shapeCasts_S1x800000_S800000

/-- A negative index counts from the end: the number of nodes is added to it. -/
def normIdx (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- For every edge, the row of `ns` its index names. -/
def pick (v : IVec S800000 32) (ns : FVec Ideal S50000x64 .f32) : FVec Ideal S800000x64 .f32 :=
  Host.gather gather_S50000x64_S800000x1_S800000x64_1_0_n_n_0_1_164 ns
    (broadcastInDim S800000x1 ![0] bcast_S800000_S800000x1_0 (normIdx v))

/-- For every node, the sum of the rows of `msg` whose index names it, onto zero. -/
def addUp (u : IVec S800000 32) (msg : FVec Ideal S800000x64 .f32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 u) msg

/-- The program's row-picking map: rows of the node states by row 0 of the index array. -/
def gR (x1 : IVec S2x800000 32) : FVec Ideal S50000x64 .f32 → FVec Ideal S800000x64 .f32 :=
  fun ns => pick (row0 x1) ns

/-- The program's row-adding map: messages added up per node by row 1 of the index array. -/
def sR (x1 : IVec S2x800000 32) : FVec Ideal S800000x64 .f32 → FVec Ideal S50000x64 .f32 :=
  fun msg => addUp (row1 x1) msg

/-! ## Each piece over an arbitrary valuation: what it contributes -/

section Pieces

variable (W : Valuation τ sig (Elt Ideal))

/-- Piece 1 leaves the encoded nodes: the specification's layer of the node features. -/
theorem c1_v4 : after c1 W (Proc.devRef .tc main_v4)
    = Cert.Gnn.lin (M := 50000) (K := 128) (W (Proc.devRef .tc main_arg0)) (W (Proc.devRef .tc main_arg3)) (W (Proc.devRef .tc main_arg4)) := by
  refine Eq.trans ?_ (Stages.linN _ _ _)
  after_results
  all_goals rfl

/-- Piece 1 leaves the encoded edges: the specification's layer of the edge features. -/
theorem c1_v9 : after c1 W (Proc.devRef .tc main_v9)
    = Cert.Gnn.lin (M := 800000) (K := 64) (W (Proc.devRef .tc main_arg2)) (W (Proc.devRef .tc main_arg5)) (W (Proc.devRef .tc main_arg6)) := by
  refine Eq.trans ?_ (Stages.linE _ _ _)
  after_results
  all_goals rfl

/-- Piece 1 leaves row 0 of the index array. -/
theorem c1_v11 : after c1 W (Proc.devRef .tc main_v11) = row0 (W (Proc.devRef .tc main_arg1)) := by
  after_results
  all_goals rfl

/-- Piece 1 leaves row 1 of the index array. -/
theorem c1_v13 : after c1 W (Proc.devRef .tc main_v13) = row1 (W (Proc.devRef .tc main_arg1)) := by
  after_results
  all_goals rfl

/-- Piece 2 leaves the first layer's messages: the two-input layer of the picked node rows and the edge states,
    against layer 0 of the message weights. -/
theorem c2_out (ns : FVec Ideal S50000x64 .f32) (es : FVec Ideal S800000x64 .f32) (v : IVec S800000 32)
    (a7 : FVec Ideal S2x128x64 .f32) (a8 : FVec Ideal S2x64 .f32)
    (h4 : W (Proc.devRef .tc main_v4) = ns) (h9 : W (Proc.devRef .tc main_v9) = es) (h11 : W (Proc.devRef .tc main_v11) = v)
    (h7 : W (Proc.devRef .tc main_arg7) = a7) (h8 : W (Proc.devRef .tc main_arg8) = a8) :
    after c2 W (Proc.devRef .tc main_v30)
      = Cert.Gnn.dual (M := 800000) (pick v ns) es (Cert.Gnn.wTop a7 0) (Cert.Gnn.wBot a7 0) (Cert.Gnn.bRow a8 0) := by
  subst h4 h9 h11 h7 h8
  refine Eq.trans ?_ (Stages.dualE0 _ _ _ _)
  after_results
  all_goals rfl

/-- Piece 3 leaves the first node update: the two-input layer of the node states and the added-up messages,
    against layer 0 of the update weights. -/
theorem c3_out (ns : FVec Ideal S50000x64 .f32) (msg : FVec Ideal S800000x64 .f32) (u : IVec S800000 32)
    (a9 : FVec Ideal S2x128x64 .f32) (a10 : FVec Ideal S2x64 .f32)
    (h4 : W (Proc.devRef .tc main_v4) = ns) (h30 : W (Proc.devRef .tc main_v30) = msg) (h13 : W (Proc.devRef .tc main_v13) = u)
    (h9 : W (Proc.devRef .tc main_arg9) = a9) (h10 : W (Proc.devRef .tc main_arg10) = a10) :
    after c3 W (Proc.devRef .tc main_v43)
      = Cert.Gnn.dual (M := 50000) ns (addUp u msg) (Cert.Gnn.wTop a9 0) (Cert.Gnn.wBot a9 0) (Cert.Gnn.bRow a10 0) := by
  subst h4 h30 h13 h9 h10
  refine Eq.trans ?_ (Stages.dualN0 _ _ _ _)
  after_results
  all_goals rfl

/-- Piece 4 leaves the second layer's messages, against layer 1 of the message weights. -/
theorem c4_out (ns : FVec Ideal S50000x64 .f32) (es : FVec Ideal S800000x64 .f32) (v : IVec S800000 32)
    (a7 : FVec Ideal S2x128x64 .f32) (a8 : FVec Ideal S2x64 .f32)
    (h43 : W (Proc.devRef .tc main_v43) = ns) (h9 : W (Proc.devRef .tc main_v9) = es) (h11 : W (Proc.devRef .tc main_v11) = v)
    (h7 : W (Proc.devRef .tc main_arg7) = a7) (h8 : W (Proc.devRef .tc main_arg8) = a8) :
    after c4 W (Proc.devRef .tc main_v60)
      = Cert.Gnn.dual (M := 800000) (pick v ns) es (Cert.Gnn.wTop a7 1) (Cert.Gnn.wBot a7 1) (Cert.Gnn.bRow a8 1) := by
  subst h43 h9 h11 h7 h8
  refine Eq.trans ?_ (Stages.dualE1 _ _ _ _)
  after_results
  all_goals rfl

/-- Piece 5 leaves the second node update, against layer 1 of the update weights: the program's result. -/
theorem c5_out (ns : FVec Ideal S50000x64 .f32) (msg : FVec Ideal S800000x64 .f32) (u : IVec S800000 32)
    (a9 : FVec Ideal S2x128x64 .f32) (a10 : FVec Ideal S2x64 .f32)
    (h43 : W (Proc.devRef .tc main_v43) = ns) (h60 : W (Proc.devRef .tc main_v60) = msg) (h13 : W (Proc.devRef .tc main_v13) = u)
    (h9 : W (Proc.devRef .tc main_arg9) = a9) (h10 : W (Proc.devRef .tc main_arg10) = a10) :
    after c5 W (Proc.devRef .tc main_v73)
      = Cert.Gnn.dual (M := 50000) ns (addUp u msg) (Cert.Gnn.wTop a9 1) (Cert.Gnn.wBot a9 1) (Cert.Gnn.bRow a10 1) := by
  subst h43 h60 h13 h9 h10
  refine Eq.trans ?_ (Stages.dualN1 _ _ _ _)
  after_results
  all_goals rfl

/-! ## Each piece over an arbitrary valuation: what it keeps -/

theorem k1_arg0 : after c1 W (Proc.devRef .tc main_arg0) = W (Proc.devRef .tc main_arg0) := by
  after_results
  all_goals rfl
theorem k1_arg1 : after c1 W (Proc.devRef .tc main_arg1) = W (Proc.devRef .tc main_arg1) := by
  after_results
  all_goals rfl
theorem k1_arg2 : after c1 W (Proc.devRef .tc main_arg2) = W (Proc.devRef .tc main_arg2) := by
  after_results
  all_goals rfl
theorem k1_arg3 : after c1 W (Proc.devRef .tc main_arg3) = W (Proc.devRef .tc main_arg3) := by
  after_results
  all_goals rfl
theorem k1_arg4 : after c1 W (Proc.devRef .tc main_arg4) = W (Proc.devRef .tc main_arg4) := by
  after_results
  all_goals rfl
theorem k1_arg5 : after c1 W (Proc.devRef .tc main_arg5) = W (Proc.devRef .tc main_arg5) := by
  after_results
  all_goals rfl
theorem k1_arg6 : after c1 W (Proc.devRef .tc main_arg6) = W (Proc.devRef .tc main_arg6) := by
  after_results
  all_goals rfl
theorem k1_arg7 : after c1 W (Proc.devRef .tc main_arg7) = W (Proc.devRef .tc main_arg7) := by
  after_results
  all_goals rfl
theorem k1_arg8 : after c1 W (Proc.devRef .tc main_arg8) = W (Proc.devRef .tc main_arg8) := by
  after_results
  all_goals rfl
theorem k1_arg9 : after c1 W (Proc.devRef .tc main_arg9) = W (Proc.devRef .tc main_arg9) := by
  after_results
  all_goals rfl
theorem k1_arg10 : after c1 W (Proc.devRef .tc main_arg10) = W (Proc.devRef .tc main_arg10) := by
  after_results
  all_goals rfl

theorem k2_v4 : after c2 W (Proc.devRef .tc main_v4) = W (Proc.devRef .tc main_v4) := by
  after_results
  all_goals rfl
theorem k2_v9 : after c2 W (Proc.devRef .tc main_v9) = W (Proc.devRef .tc main_v9) := by
  after_results
  all_goals rfl
theorem k2_v11 : after c2 W (Proc.devRef .tc main_v11) = W (Proc.devRef .tc main_v11) := by
  after_results
  all_goals rfl
theorem k2_v13 : after c2 W (Proc.devRef .tc main_v13) = W (Proc.devRef .tc main_v13) := by
  after_results
  all_goals rfl
theorem k2_arg0 : after c2 W (Proc.devRef .tc main_arg0) = W (Proc.devRef .tc main_arg0) := by
  after_results
  all_goals rfl
theorem k2_arg1 : after c2 W (Proc.devRef .tc main_arg1) = W (Proc.devRef .tc main_arg1) := by
  after_results
  all_goals rfl
theorem k2_arg2 : after c2 W (Proc.devRef .tc main_arg2) = W (Proc.devRef .tc main_arg2) := by
  after_results
  all_goals rfl
theorem k2_arg3 : after c2 W (Proc.devRef .tc main_arg3) = W (Proc.devRef .tc main_arg3) := by
  after_results
  all_goals rfl
theorem k2_arg4 : after c2 W (Proc.devRef .tc main_arg4) = W (Proc.devRef .tc main_arg4) := by
  after_results
  all_goals rfl
theorem k2_arg5 : after c2 W (Proc.devRef .tc main_arg5) = W (Proc.devRef .tc main_arg5) := by
  after_results
  all_goals rfl
theorem k2_arg6 : after c2 W (Proc.devRef .tc main_arg6) = W (Proc.devRef .tc main_arg6) := by
  after_results
  all_goals rfl
theorem k2_arg7 : after c2 W (Proc.devRef .tc main_arg7) = W (Proc.devRef .tc main_arg7) := by
  after_results
  all_goals rfl
theorem k2_arg8 : after c2 W (Proc.devRef .tc main_arg8) = W (Proc.devRef .tc main_arg8) := by
  after_results
  all_goals rfl
theorem k2_arg9 : after c2 W (Proc.devRef .tc main_arg9) = W (Proc.devRef .tc main_arg9) := by
  after_results
  all_goals rfl
theorem k2_arg10 : after c2 W (Proc.devRef .tc main_arg10) = W (Proc.devRef .tc main_arg10) := by
  after_results
  all_goals rfl

theorem k3_v9 : after c3 W (Proc.devRef .tc main_v9) = W (Proc.devRef .tc main_v9) := by
  after_results
  all_goals rfl
theorem k3_v11 : after c3 W (Proc.devRef .tc main_v11) = W (Proc.devRef .tc main_v11) := by
  after_results
  all_goals rfl
theorem k3_v13 : after c3 W (Proc.devRef .tc main_v13) = W (Proc.devRef .tc main_v13) := by
  after_results
  all_goals rfl
theorem k3_arg0 : after c3 W (Proc.devRef .tc main_arg0) = W (Proc.devRef .tc main_arg0) := by
  after_results
  all_goals rfl
theorem k3_arg1 : after c3 W (Proc.devRef .tc main_arg1) = W (Proc.devRef .tc main_arg1) := by
  after_results
  all_goals rfl
theorem k3_arg2 : after c3 W (Proc.devRef .tc main_arg2) = W (Proc.devRef .tc main_arg2) := by
  after_results
  all_goals rfl
theorem k3_arg3 : after c3 W (Proc.devRef .tc main_arg3) = W (Proc.devRef .tc main_arg3) := by
  after_results
  all_goals rfl
theorem k3_arg4 : after c3 W (Proc.devRef .tc main_arg4) = W (Proc.devRef .tc main_arg4) := by
  after_results
  all_goals rfl
theorem k3_arg5 : after c3 W (Proc.devRef .tc main_arg5) = W (Proc.devRef .tc main_arg5) := by
  after_results
  all_goals rfl
theorem k3_arg6 : after c3 W (Proc.devRef .tc main_arg6) = W (Proc.devRef .tc main_arg6) := by
  after_results
  all_goals rfl
theorem k3_arg7 : after c3 W (Proc.devRef .tc main_arg7) = W (Proc.devRef .tc main_arg7) := by
  after_results
  all_goals rfl
theorem k3_arg8 : after c3 W (Proc.devRef .tc main_arg8) = W (Proc.devRef .tc main_arg8) := by
  after_results
  all_goals rfl
theorem k3_arg9 : after c3 W (Proc.devRef .tc main_arg9) = W (Proc.devRef .tc main_arg9) := by
  after_results
  all_goals rfl
theorem k3_arg10 : after c3 W (Proc.devRef .tc main_arg10) = W (Proc.devRef .tc main_arg10) := by
  after_results
  all_goals rfl

theorem k4_v43 : after c4 W (Proc.devRef .tc main_v43) = W (Proc.devRef .tc main_v43) := by
  after_results
  all_goals rfl
theorem k4_v13 : after c4 W (Proc.devRef .tc main_v13) = W (Proc.devRef .tc main_v13) := by
  after_results
  all_goals rfl
theorem k4_arg0 : after c4 W (Proc.devRef .tc main_arg0) = W (Proc.devRef .tc main_arg0) := by
  after_results
  all_goals rfl
theorem k4_arg1 : after c4 W (Proc.devRef .tc main_arg1) = W (Proc.devRef .tc main_arg1) := by
  after_results
  all_goals rfl
theorem k4_arg2 : after c4 W (Proc.devRef .tc main_arg2) = W (Proc.devRef .tc main_arg2) := by
  after_results
  all_goals rfl
theorem k4_arg3 : after c4 W (Proc.devRef .tc main_arg3) = W (Proc.devRef .tc main_arg3) := by
  after_results
  all_goals rfl
theorem k4_arg4 : after c4 W (Proc.devRef .tc main_arg4) = W (Proc.devRef .tc main_arg4) := by
  after_results
  all_goals rfl
theorem k4_arg5 : after c4 W (Proc.devRef .tc main_arg5) = W (Proc.devRef .tc main_arg5) := by
  after_results
  all_goals rfl
theorem k4_arg6 : after c4 W (Proc.devRef .tc main_arg6) = W (Proc.devRef .tc main_arg6) := by
  after_results
  all_goals rfl
theorem k4_arg7 : after c4 W (Proc.devRef .tc main_arg7) = W (Proc.devRef .tc main_arg7) := by
  after_results
  all_goals rfl
theorem k4_arg8 : after c4 W (Proc.devRef .tc main_arg8) = W (Proc.devRef .tc main_arg8) := by
  after_results
  all_goals rfl
theorem k4_arg9 : after c4 W (Proc.devRef .tc main_arg9) = W (Proc.devRef .tc main_arg9) := by
  after_results
  all_goals rfl
theorem k4_arg10 : after c4 W (Proc.devRef .tc main_arg10) = W (Proc.devRef .tc main_arg10) := by
  after_results
  all_goals rfl

theorem k5_arg0 : after c5 W (Proc.devRef .tc main_arg0) = W (Proc.devRef .tc main_arg0) := by
  after_results
  all_goals rfl
theorem k5_arg1 : after c5 W (Proc.devRef .tc main_arg1) = W (Proc.devRef .tc main_arg1) := by
  after_results
  all_goals rfl
theorem k5_arg2 : after c5 W (Proc.devRef .tc main_arg2) = W (Proc.devRef .tc main_arg2) := by
  after_results
  all_goals rfl
theorem k5_arg3 : after c5 W (Proc.devRef .tc main_arg3) = W (Proc.devRef .tc main_arg3) := by
  after_results
  all_goals rfl
theorem k5_arg4 : after c5 W (Proc.devRef .tc main_arg4) = W (Proc.devRef .tc main_arg4) := by
  after_results
  all_goals rfl
theorem k5_arg5 : after c5 W (Proc.devRef .tc main_arg5) = W (Proc.devRef .tc main_arg5) := by
  after_results
  all_goals rfl
theorem k5_arg6 : after c5 W (Proc.devRef .tc main_arg6) = W (Proc.devRef .tc main_arg6) := by
  after_results
  all_goals rfl
theorem k5_arg7 : after c5 W (Proc.devRef .tc main_arg7) = W (Proc.devRef .tc main_arg7) := by
  after_results
  all_goals rfl
theorem k5_arg8 : after c5 W (Proc.devRef .tc main_arg8) = W (Proc.devRef .tc main_arg8) := by
  after_results
  all_goals rfl
theorem k5_arg9 : after c5 W (Proc.devRef .tc main_arg9) = W (Proc.devRef .tc main_arg9) := by
  after_results
  all_goals rfl
theorem k5_arg10 : after c5 W (Proc.devRef .tc main_arg10) = W (Proc.devRef .tc main_arg10) := by
  after_results
  all_goals rfl

end Pieces

/-! ## The five pieces chained from any starting valuation -/

section Chain

variable (W : Valuation τ sig (Elt Ideal))

theorem keep_arg0 : after ops W (Proc.devRef .tc main_arg0) = W (Proc.devRef .tc main_arg0) :=
  (congrFun (after_ops W) _).trans ((k5_arg0 (after c4 (after c3 (after c2 (after c1 W))))).trans ((k4_arg0 (after c3 (after c2 (after c1 W)))).trans
    ((k3_arg0 (after c2 (after c1 W))).trans ((k2_arg0 (after c1 W)).trans (k1_arg0 W)))))
theorem keep_arg1 : after ops W (Proc.devRef .tc main_arg1) = W (Proc.devRef .tc main_arg1) :=
  (congrFun (after_ops W) _).trans ((k5_arg1 (after c4 (after c3 (after c2 (after c1 W))))).trans ((k4_arg1 (after c3 (after c2 (after c1 W)))).trans
    ((k3_arg1 (after c2 (after c1 W))).trans ((k2_arg1 (after c1 W)).trans (k1_arg1 W)))))
theorem keep_arg2 : after ops W (Proc.devRef .tc main_arg2) = W (Proc.devRef .tc main_arg2) :=
  (congrFun (after_ops W) _).trans ((k5_arg2 (after c4 (after c3 (after c2 (after c1 W))))).trans ((k4_arg2 (after c3 (after c2 (after c1 W)))).trans
    ((k3_arg2 (after c2 (after c1 W))).trans ((k2_arg2 (after c1 W)).trans (k1_arg2 W)))))
theorem keep_arg3 : after ops W (Proc.devRef .tc main_arg3) = W (Proc.devRef .tc main_arg3) :=
  (congrFun (after_ops W) _).trans ((k5_arg3 (after c4 (after c3 (after c2 (after c1 W))))).trans ((k4_arg3 (after c3 (after c2 (after c1 W)))).trans
    ((k3_arg3 (after c2 (after c1 W))).trans ((k2_arg3 (after c1 W)).trans (k1_arg3 W)))))
theorem keep_arg4 : after ops W (Proc.devRef .tc main_arg4) = W (Proc.devRef .tc main_arg4) :=
  (congrFun (after_ops W) _).trans ((k5_arg4 (after c4 (after c3 (after c2 (after c1 W))))).trans ((k4_arg4 (after c3 (after c2 (after c1 W)))).trans
    ((k3_arg4 (after c2 (after c1 W))).trans ((k2_arg4 (after c1 W)).trans (k1_arg4 W)))))
theorem keep_arg5 : after ops W (Proc.devRef .tc main_arg5) = W (Proc.devRef .tc main_arg5) :=
  (congrFun (after_ops W) _).trans ((k5_arg5 (after c4 (after c3 (after c2 (after c1 W))))).trans ((k4_arg5 (after c3 (after c2 (after c1 W)))).trans
    ((k3_arg5 (after c2 (after c1 W))).trans ((k2_arg5 (after c1 W)).trans (k1_arg5 W)))))
theorem keep_arg6 : after ops W (Proc.devRef .tc main_arg6) = W (Proc.devRef .tc main_arg6) :=
  (congrFun (after_ops W) _).trans ((k5_arg6 (after c4 (after c3 (after c2 (after c1 W))))).trans ((k4_arg6 (after c3 (after c2 (after c1 W)))).trans
    ((k3_arg6 (after c2 (after c1 W))).trans ((k2_arg6 (after c1 W)).trans (k1_arg6 W)))))
theorem keep_arg7 : after ops W (Proc.devRef .tc main_arg7) = W (Proc.devRef .tc main_arg7) :=
  (congrFun (after_ops W) _).trans ((k5_arg7 (after c4 (after c3 (after c2 (after c1 W))))).trans ((k4_arg7 (after c3 (after c2 (after c1 W)))).trans
    ((k3_arg7 (after c2 (after c1 W))).trans ((k2_arg7 (after c1 W)).trans (k1_arg7 W)))))
theorem keep_arg8 : after ops W (Proc.devRef .tc main_arg8) = W (Proc.devRef .tc main_arg8) :=
  (congrFun (after_ops W) _).trans ((k5_arg8 (after c4 (after c3 (after c2 (after c1 W))))).trans ((k4_arg8 (after c3 (after c2 (after c1 W)))).trans
    ((k3_arg8 (after c2 (after c1 W))).trans ((k2_arg8 (after c1 W)).trans (k1_arg8 W)))))
theorem keep_arg9 : after ops W (Proc.devRef .tc main_arg9) = W (Proc.devRef .tc main_arg9) :=
  (congrFun (after_ops W) _).trans ((k5_arg9 (after c4 (after c3 (after c2 (after c1 W))))).trans ((k4_arg9 (after c3 (after c2 (after c1 W)))).trans
    ((k3_arg9 (after c2 (after c1 W))).trans ((k2_arg9 (after c1 W)).trans (k1_arg9 W)))))
theorem keep_arg10 : after ops W (Proc.devRef .tc main_arg10) = W (Proc.devRef .tc main_arg10) :=
  (congrFun (after_ops W) _).trans ((k5_arg10 (after c4 (after c3 (after c2 (after c1 W))))).trans ((k4_arg10 (after c3 (after c2 (after c1 W)))).trans
    ((k3_arg10 (after c2 (after c1 W))).trans ((k2_arg10 (after c1 W)).trans (k1_arg10 W)))))

/-- The whole line leaves the specification's network of the argument buffers at the result buffer, with the
    program's own row-picking and row-adding maps. -/
theorem out_eq : after ops W (Proc.devRef .tc main_v73)
    = Cert.Gnn.net (N := 50000) (E := 800000) (gR (W (Proc.devRef .tc main_arg1))) (sR (W (Proc.devRef .tc main_arg1)))
        (W (Proc.devRef .tc main_arg0)) (W (Proc.devRef .tc main_arg2)) (W (Proc.devRef .tc main_arg3)) (W (Proc.devRef .tc main_arg4)) (W (Proc.devRef .tc main_arg5))
        (W (Proc.devRef .tc main_arg6)) (W (Proc.devRef .tc main_arg7)) (W (Proc.devRef .tc main_arg8)) (W (Proc.devRef .tc main_arg9)) (W (Proc.devRef .tc main_arg10)) := by
  refine (congrFun (after_ops W) _).trans ?_
  -- what piece 1 leaves
  have e4 := c1_v4 W
  have e9 := c1_v9 W
  have e11 := c1_v11 W
  have e13 := c1_v13 W
  -- what piece 2 leaves and keeps
  have f30 := c2_out (after c1 W) _ _ _ _ _ e4 e9 e11 (k1_arg7 W) (k1_arg8 W)
  have f4 := (k2_v4 (after c1 W)).trans e4
  have f9 := (k2_v9 (after c1 W)).trans e9
  have f11 := (k2_v11 (after c1 W)).trans e11
  have f13 := (k2_v13 (after c1 W)).trans e13
  have f_7 := (k2_arg7 (after c1 W)).trans (k1_arg7 W)
  have f_8 := (k2_arg8 (after c1 W)).trans (k1_arg8 W)
  have f_9 := (k2_arg9 (after c1 W)).trans (k1_arg9 W)
  have f_10 := (k2_arg10 (after c1 W)).trans (k1_arg10 W)
  -- what piece 3 leaves and keeps
  have g43 := c3_out (after c2 (after c1 W)) _ _ _ _ _ f4 f30 f13 f_9 f_10
  have g9 := (k3_v9 (after c2 (after c1 W))).trans f9
  have g11 := (k3_v11 (after c2 (after c1 W))).trans f11
  have g13 := (k3_v13 (after c2 (after c1 W))).trans f13
  have g_7 := (k3_arg7 (after c2 (after c1 W))).trans f_7
  have g_8 := (k3_arg8 (after c2 (after c1 W))).trans f_8
  have g_9 := (k3_arg9 (after c2 (after c1 W))).trans f_9
  have g_10 := (k3_arg10 (after c2 (after c1 W))).trans f_10
  -- what piece 4 leaves and keeps
  have h60 := c4_out (after c3 (after c2 (after c1 W))) _ _ _ _ _ g43 g9 g11 g_7 g_8
  have h43 := (k4_v43 (after c3 (after c2 (after c1 W)))).trans g43
  have h13 := (k4_v13 (after c3 (after c2 (after c1 W)))).trans g13
  have h_9 := (k4_arg9 (after c3 (after c2 (after c1 W)))).trans g_9
  have h_10 := (k4_arg10 (after c3 (after c2 (after c1 W)))).trans g_10
  -- piece 5 leaves the result
  exact c5_out (after c4 (after c3 (after c2 (after c1 W)))) _ _ _ _ _ h43 h60 h13 h_9 h_10

end Chain

/-! ## The run -/

/-- On every device, from any memory with zero counters: every weakly fair execution of the program
    terminates with the result buffer at the specification's network of the arguments' launch contents —
    its two parameters the program's own row-picking and row-adding maps — and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v73)
        = Cert.Gnn.net (N := 50000) (E := 800000) (gR (m ((c.tc : Thread nD τ).loc main_arg1))) (sR (m ((c.tc : Thread nD τ).loc main_arg1)))
            (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v73).trans (out_eq (launchContents m c)),
      (h c main_arg0).trans (keep_arg0 (launchContents m c)),
      (h c main_arg1).trans (keep_arg1 (launchContents m c)),
      (h c main_arg2).trans (keep_arg2 (launchContents m c)),
      (h c main_arg3).trans (keep_arg3 (launchContents m c)),
      (h c main_arg4).trans (keep_arg4 (launchContents m c)),
      (h c main_arg5).trans (keep_arg5 (launchContents m c)),
      (h c main_arg6).trans (keep_arg6 (launchContents m c)),
      (h c main_arg7).trans (keep_arg7 (launchContents m c)),
      (h c main_arg8).trans (keep_arg8 (launchContents m c)),
      (h c main_arg9).trans (keep_arg9 (launchContents m c)),
      (h c main_arg10).trans (keep_arg10 (launchContents m c))⟩)
    (run_fold m ρ)

end Cert.ReferenceIdeal.RefRun

end
-- ==== Proof.lean ====
/-
  A two-layer message-passing network over a graph of 50000 nodes and 800000 edges, computed two ways, is one
  function of its eleven argument arrays at the ideal instance (floats extended reals, operations exact).

  Both programs encode the nodes and the edges by an affine map clamped below at zero; then, twice, pick a node
  row for every edge, form a message per edge from that row and the edge's state, add the messages up per
  node, and update every node from its state and what it received. The kernel program computes each of the six
  dense stages in a tiled launch and forms a two-input stage as the sum of two 64-term matrix products, one per
  input against its half of the stacked weight matrix. The reference joins the two inputs side by side and
  takes one 128-term product against the whole matrix. Entry by entry the two agree because a sum over 128
  terms is the sum over its first 64 plus the sum over its last 64 — addition on the extended reals is
  commutative and associative with the infinities included, so nothing about the inputs' finiteness is used.
  The picking and the adding-up are the same operations on the same index arrays in both programs.

  The kernel program's value: what each launch leaves in its output as a function of the arrays it finds
  (Reg0 … Reg5), carried through the ten boundaries between launches and host stretches (Glue, Chain), read at
  the result buffer of the program's run (KRun, KWhole). The reference's value: its dense stages as the same
  functions (RefStages), carried through its one line of operations (RefRun). The three frame properties are
  the runs with the results dropped; the idealization rewrote nothing, so the preservation claim is trivial.
-/
import proofs.«106089_j49452253447021_1_alg».proof.Defs
import proofs.«106089_j49452253447021_1_alg».proof.Proof.Gen.Kernel
import proofs.«106089_j49452253447021_1_alg».proof.Proof.Gen.KernelIdeal
import proofs.«106089_j49452253447021_1_alg».proof.Proof.Gen.ReferenceIdeal
import proofs.«106089_j49452253447021_1_alg».proof.Proof.Gen.Pre_finite_inputs
import proofs.«106089_j49452253447021_1_alg».proof.Proof.FrameK
import proofs.«106089_j49452253447021_1_alg».proof.Proof.KWhole
import proofs.«106089_j49452253447021_1_alg».proof.Proof.RefRun
import Idealize.ShloMosaic.Adequacy
import Idealize.ShloMosaic.Init

noncomputable section

namespace Cert.Proof

open Idealize.ShloMosaic Idealize.SL.Sem

/-- The word-level kernel program runs and keeps its arguments. -/
theorem frame_p : Cert.frame_Kernel := fun m ρ _ => Cert.Kernel.GenP.frame m ρ
/-- The idealized kernel program runs and keeps its arguments. -/
theorem frame_pi : Cert.frame_KernelIdeal := fun m ρ _ => Cert.KernelIdeal.GenP.frame m ρ
/-- The idealized reference runs and keeps its arguments: its run with the result dropped. -/
theorem frame_ri : Cert.frame_ReferenceIdeal := fun m ρ _ =>
  (θ_run Cert.ReferenceIdeal.defs _ _).mono (fun _ h c => (h c).2) (Cert.ReferenceIdeal.RefRun.run m ρ)
/-- The idealization rewrote no operation. -/
theorem preserves : Cert.preserves_Kernel_KernelIdeal := trivial

/-- Picking a node row per edge is the same operation in both programs. -/
theorem pick_eq (x1 : Cert.KernelIdeal.Glue.Arr Cert.KernelIdeal.S2x800000 .i32) :
    Cert.ReferenceIdeal.RefRun.gR x1 = Cert.KernelIdeal.Glue.pick (Cert.KernelIdeal.Glue.row0 x1) := rfl
/-- Adding the edges' rows up per node is the same operation in both programs. -/
theorem addUp_eq (x1 : Cert.KernelIdeal.Glue.Arr Cert.KernelIdeal.S2x800000 .i32) :
    Cert.ReferenceIdeal.RefRun.sR x1 = Cert.KernelIdeal.Glue.addUp (Cert.KernelIdeal.Glue.row1 x1) := rfl

/-- From memories agreeing on the arguments both programs end with the network function of those arguments in
    their result buffers. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run m' ρ')
  obtain ⟨h0, h1, h2, h3, h4, h5, h6, h7, h8, h9, h10⟩ := hagree c
  rw [h0, h1, h2, h3, h4, h5, h6, h7, h8, h9, h10, pick_eq, addUp_eq]
  rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
